-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg13 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S40 .f32 := Host.absf main_arg13
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg9 : FVec F S128 .f32) (main_arg10 : FVec F S128 .f32) (main_arg11 : FVec F S128x40 .f32) (main_arg12 : FVec F S128x40 .f32) (main_arg13 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg11
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S128x40 .f32 := Host.absf main_arg12
  let main_cst_18 : FVec F S_ .f32 := constant S_ .f32 0x7F800000#32
  let main_v50 : FVec F S128x40 .f32 := broadcastInDim S128x40 ![] bcast_S_S128x40 main_cst_18
  fn_part3 (F := F) main_arg13 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128 .f32) (main_arg11 : FVec F S128x40 .f32) (main_arg12 : FVec F S128x40 .f32) (main_arg13 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S800000 32) (main_arg2 : IVec S800000 32) (main_arg3 : FVec F S128x128 .f32) (main_arg4 : FVec F S128x128 .f32) (main_arg5 : FVec F S128 .f32) (main_arg6 : FVec F S128 .f32) (main_arg7 : FVec F S128x128 .f32) (main_arg8 : FVec F S128x128 .f32) (main_arg9 : FVec F S128 .f32) (main_arg10 : FVec F S128 .f32) (main_arg11 : FVec F S128x40 .f32) (main_arg12 : FVec F S128x40 .f32) (main_arg13 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S20x8x128 : Shape := ⟨3, ![20, 8, 128]⟩
abbrev S5000x128 : Shape := ⟨2, ![5000, 128]⟩
abbrev S5000x1 : Shape := ⟨2, ![5000, 1]⟩
abbrev S1x8x128 : Shape := ⟨3, ![1, 8, 128]⟩
abbrev S1x128 : Shape := ⟨2, ![1, 128]⟩
abbrev S8x128 : Shape := ⟨2, ![8, 128]⟩
abbrev S10000x128 : Shape := ⟨2, ![10000, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 114
  | .vmem => 55
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128x40, .f32⟩
  | .hbm, ⟨12, _⟩ => ⟨S128x40, .f32⟩
  | .hbm, ⟨13, _⟩ => ⟨S40, .f32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S100000, .f32⟩
  | .hbm, ⟨18, _⟩ => ⟨S800000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S100000x128, .f32⟩
  | .hbm, ⟨38, _⟩ => ⟨S800000x1, .i32⟩
  | .hbm, ⟨39, _⟩ => ⟨S100000x128, .f32⟩
  | .hbm, ⟨40, _⟩ => ⟨S100000x128, .f32⟩
  | .hbm, ⟨41, _⟩ => ⟨S20x8x128, .f32⟩
  | .hbm, ⟨42, _⟩ => ⟨S20x8x128, .f32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S100000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S100000x128, .f32⟩
  | .hbm, ⟨74, _⟩ => ⟨S800000x1, .i32⟩
  | .hbm, ⟨75, _⟩ => ⟨S100000x128, .f32⟩
  | .hbm, ⟨76, _⟩ => ⟨S100000x128, .f32⟩
  | .hbm, ⟨77, _⟩ => ⟨S20x8x128, .f32⟩
  | .hbm, ⟨78, _⟩ => ⟨S20x8x128, .f32⟩
  | .hbm, ⟨79, _⟩ => ⟨S_, .f32⟩
  | .hbm, ⟨80, _⟩ => ⟨S128, .f32⟩
  | .hbm, ⟨81, _⟩ => ⟨S1x128, .f32⟩
  | .hbm, ⟨82, _⟩ => ⟨S_, .f32⟩
  | .hbm, ⟨83, _⟩ => ⟨S128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S_, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S_, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S100000x128, .f32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x128, .f32⟩
  | .hbm, ⟨108, _⟩ => ⟨S_, .f32⟩
  | .hbm, ⟨109, _⟩ => ⟨S100000x128, .f32⟩
  | .hbm, ⟨110, _⟩ => ⟨S800000x1, .i32⟩
  | .hbm, ⟨111, _⟩ => ⟨S100000x128, .f32⟩
  | .hbm, ⟨112, _⟩ => ⟨S1x40, .f32⟩
  | .hbm, ⟨113, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S10000x128, .f32⟩
  | .local _ .vmem, ⟨15, _⟩ => ⟨S10000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S128x128, .f32⟩
  | .local _ .vmem, ⟨30, _⟩ => ⟨S5000x128, .f32⟩
  | .local _ .vmem, ⟨31, _⟩ => ⟨S5000x128, .f32⟩
  | .local _ .vmem, ⟨32, _⟩ => ⟨S1x8x128, .f32⟩
  | .local _ .vmem, ⟨33, _⟩ => ⟨S1x8x128, .f32⟩
  | .local _ .vmem, ⟨34, _⟩ => ⟨S1x8x128, .f32⟩
  | .local _ .vmem, ⟨35, _⟩ => ⟨S1x8x128, .f32⟩
  | .local _ .vmem, ⟨36, _⟩ => ⟨S10000x128, .f32⟩
  | .local _ .vmem, ⟨37, _⟩ => ⟨S10000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S10000x128, .f32⟩
  | .local _ .vmem, ⟨43, _⟩ => ⟨S10000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x1, .f32⟩
  | .local _ .vmem, ⟨49, _⟩ => ⟨S5000x1, .f32⟩
  | .local _ .vmem, ⟨50, _⟩ => ⟨S128x40, .f32⟩
  | .local _ .vmem, ⟨51, _⟩ => ⟨S128x40, .f32⟩
  | .local _ .vmem, ⟨52, _⟩ => ⟨S1x40, .f32⟩
  | .local _ .vmem, ⟨53, _⟩ => ⟨S5000x40, .f32⟩
  | .local _ .vmem, ⟨54, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19_0 : Ref sig .tc := ⟨.hbm, 40, rfl⟩
abbrev main_v19_1 : Ref sig .tc := ⟨.hbm, 41, rfl⟩
abbrev main_v19_2 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_cst_6 : Ref sig .tc := ⟨.hbm, 46, rfl⟩
abbrev main_v22 : Ref sig .tc := ⟨.hbm, 47, rfl⟩
abbrev main_v23 : Ref sig .tc := ⟨.hbm, 48, rfl⟩
abbrev main_cst_7 : Ref sig .tc := ⟨.hbm, 49, rfl⟩
abbrev main_v24 : Ref sig .tc := ⟨.hbm, 50, rfl⟩
abbrev main_v25 : Ref sig .tc := ⟨.hbm, 51, rfl⟩
abbrev main_cst_8 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_9 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_10 : Ref sig .tc := ⟨.hbm, 63, rfl⟩
abbrev main_v35 : Ref sig .tc := ⟨.hbm, 64, rfl⟩
abbrev main_v36 : Ref sig .tc := ⟨.hbm, 65, rfl⟩
abbrev main_c_11 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_12 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45_0 : Ref sig .tc := ⟨.hbm, 76, rfl⟩
abbrev main_v45_1 : Ref sig .tc := ⟨.hbm, 77, rfl⟩
abbrev main_v45_2 : Ref sig .tc := ⟨.hbm, 78, rfl⟩
abbrev main_cst_13 : Ref sig .tc := ⟨.hbm, 79, rfl⟩
abbrev main_v46 : Ref sig .tc := ⟨.hbm, 80, rfl⟩
abbrev main_v47 : Ref sig .tc := ⟨.hbm, 81, rfl⟩
abbrev main_cst_14 : Ref sig .tc := ⟨.hbm, 82, rfl⟩
abbrev main_v48 : Ref sig .tc := ⟨.hbm, 83, rfl⟩
abbrev main_v49 : Ref sig .tc := ⟨.hbm, 84, rfl⟩
abbrev main_cst_15 : Ref sig .tc := ⟨.hbm, 85, rfl⟩
abbrev main_v50 : Ref sig .tc := ⟨.hbm, 86, rfl⟩
abbrev main_v51 : Ref sig .tc := ⟨.hbm, 87, rfl⟩
abbrev main_cst_16 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_17 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_18 : Ref sig .tc := ⟨.hbm, 99, rfl⟩
abbrev main_v61 : Ref sig .tc := ⟨.hbm, 100, rfl⟩
abbrev main_v62 : Ref sig .tc := ⟨.hbm, 101, rfl⟩
abbrev main_c_19 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_20 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x40 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x40 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x40 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  reduces_S5000x128_S128 : S5000x128.Reduces [0] S128
  shapeCasts_S128_S1x128 : S128.ShapeCasts S1x128
  iota_S8x128_d0_w32 : S8x128.Iotas .tc 32 [0]
  shapeCasts_S1x128_S1x128 : S1x128.ShapeCasts S1x128
  broadcasts_S1x128_S8x128 : S1x128.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  reducesTo_S20x8x128_S128_d0_1 : S20x8x128.ReducesTo [0, 1] S128
  h_S_ : 0 < S_.numel
  bcast_S_S1x128 : S_.BroadcastsInDim S1x128 (![] : Fin 0 → Fin S1x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  broadcasts_S1x128_S10000x128 : S1x128.Broadcasts S10000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S20x8x128.size a
  hwx0_6 : ∀ i : grid0.Coords, EltTy.bits .f32 = 32 ∨ (Rect.block (s := S20x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S20x8x128.size a
  hwx0_7 : ∀ i : grid0.Coords, EltTy.bits .f32 = 32 ∨ (Rect.block (s := S20x8x128) S1x8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x8x128.size a ≤ S20x8x128.size a
  hwx2_6 : ∀ i : grid2.Coords, EltTy.bits .f32 = 32 ∨ (Rect.block (s := S20x8x128) S1x8x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x8x128.size a ≤ S20x8x128.size a
  hwx2_7 : ∀ i : grid2.Coords, EltTy.bits .f32 = 32 ∨ (Rect.block (s := S20x8x128) S1x8x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x40.size a ≤ S128x40.size a
  hwx4_3 : ∀ i : grid4.Coords, EltTy.bits .f32 = 32 ∨ (Rect.block (s := S128x40) S128x40.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x40.size a ≤ S128x40.size a
  hwx4_4 : ∀ i : grid4.Coords, EltTy.bits .f32 = 32 ∨ (Rect.block (s := S128x40) S128x40.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x40.size a ≤ S1x40.size a
  hwx4_5 : ∀ i : grid4.Coords, EltTy.bits .f32 = 32 ∨ (Rect.block (s := S1x40) S1x40.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x40.size a ≤ S100000x40.size a
  hwx4_6 : ∀ i : grid4.Coords, EltTy.bits .f32 = 32 ∨ (Rect.block (s := S100000x40) S5000x40.size (cc4_transform_6 i) (hinb4_6 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_1) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_2) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v19_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v45_1) S1x8x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v45_2) S1x8x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v45_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v8) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S128x40.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v71) S1x40.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v72) S5000x40.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S800000, .i32⟩
  | 2 => ⟨S800000, .i32⟩
  | 3 => ⟨S128x128, .f32⟩
  | 4 => ⟨S128x128, .f32⟩
  | 5 => ⟨S128, .f32⟩
  | 6 => ⟨S128, .f32⟩
  | 7 => ⟨S128x128, .f32⟩
  | 8 => ⟨S128x128, .f32⟩
  | 9 => ⟨S128, .f32⟩
  | 10 => ⟨S128, .f32⟩
  | 11 => ⟨S128x40, .f32⟩
  | 12 => ⟨S128x40, .f32⟩
  | 13 => ⟨S40, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S100000x128, .f32⟩
  | 25 => ⟨S800000x1, .i32⟩
  | 26 => ⟨S100000x128, .f32⟩
  | 27 => ⟨S_, .f32⟩
  | 28 => ⟨S800000, .f32⟩
  | 29 => ⟨S_, .f32⟩
  | 30 => ⟨S100000, .f32⟩
  | 31 => ⟨S800000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S100000x128, .f32⟩
  | 40 => ⟨S100000x128, .f32⟩
  | 41 => ⟨S100000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S_, .f32⟩
  | 60 => ⟨S128, .f32⟩
  | 61 => ⟨S128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S100000x128, .f32⟩
  | 86 => ⟨S800000x1, .i32⟩
  | 87 => ⟨S100000x128, .f32⟩
  | 88 => ⟨S_, .f32⟩
  | 89 => ⟨S800000, .f32⟩
  | 90 => ⟨S_, .f32⟩
  | 91 => ⟨S100000, .f32⟩
  | 92 => ⟨S800000x1, .i32⟩
  | 93 => ⟨S100000, .f32⟩
  | 94 => ⟨S_, .f32⟩
  | 95 => ⟨S100000, .f32⟩
  | 96 => ⟨S100000, .f32⟩
  | 97 => ⟨S100000x1, .f32⟩
  | 98 => ⟨S100000x128, .f32⟩
  | 99 => ⟨S100000x128, .f32⟩
  | 100 => ⟨S100000x128, .f32⟩
  | 101 => ⟨S100000x128, .f32⟩
  | 102 => ⟨S100000x128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S100000x128, .f32⟩
  | 110 => ⟨S100000x128, .f32⟩
  | 111 => ⟨S100000x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S128, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x128, .f32⟩
  | 17 => ⟨S_, .f32⟩
  | 18 => ⟨S100000x128, .f32⟩
  | 19 => ⟨S800000x1, .i32⟩
  | 20 => ⟨S100000x128, .f32⟩
  | 21 => ⟨S_, .f32⟩
  | 22 => ⟨S800000, .f32⟩
  | 23 => ⟨S_, .f32⟩
  | 24 => ⟨S100000, .f32⟩
  | 25 => ⟨S800000x1, .i32⟩
  | 26 => ⟨S100000, .f32⟩
  | 27 => ⟨S_, .f32⟩
  | 28 => ⟨S100000, .f32⟩
  | 29 => ⟨S100000, .f32⟩
  | 30 => ⟨S100000x1, .f32⟩
  | 31 => ⟨S100000x128, .f32⟩
  | 32 => ⟨S100000x128, .f32⟩
  | 33 => ⟨S100000x40, .f32⟩
  | 34 => ⟨S100000x40, .f32⟩
  | 35 => ⟨S100000x40, .f32⟩
  | 36 => ⟨S1x40, .f32⟩
  | 37 => ⟨S100000x40, .f32⟩
  | 38 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call0_cst : Ref sig .tc := ⟨.hbm, 72, rfl⟩
abbrev main_call0_v0 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_cst_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_17 : Ref sig .tc := ⟨.hbm, 112, rfl⟩
abbrev main_v77 : Ref sig .tc := ⟨.hbm, 113, rfl⟩
abbrev main_cst_18 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_19 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call1_cst : Ref sig .tc := ⟨.hbm, 133, rfl⟩
abbrev main_call1_v0 : Ref sig .tc := ⟨.hbm, 134, rfl⟩
abbrev main_v95 : Ref sig .tc := ⟨.hbm, 135, rfl⟩
abbrev main_c_20 : Ref sig .tc := ⟨.hbm, 136, rfl⟩
abbrev main_v96 : Ref sig .tc := ⟨.hbm, 137, rfl⟩
abbrev main_v97 : Ref sig .tc := ⟨.hbm, 138, rfl⟩
abbrev main_c_21 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_22 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_23 : Ref sig .tc := ⟨.hbm, 149, rfl⟩
abbrev main_v106 : Ref sig .tc := ⟨.hbm, 150, rfl⟩
abbrev main_cst_24 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_25 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  The mathematics of the network, at the extended reals, as functions of whole arrays.

  Three layers over N = 100000 nodes.  A layer first aggregates: row i of A h is the sum of the rows of h at the
  sources of the edges that end in i; d i is the number of those edges, at least 1.  Then it is linear,
      L = h · Ws + mean · Wn,
  where the neighbour mean of row i is written  A h (i, ·) / d i  on one side and  A h (i, ·) · δ i  with the column
  δ i = 1 / d i  on the other.  The first two layers then normalise every column with the statistics of the whole
  column and clip at zero:
      y = max (((L - μ) · rsqrt (v + ε)) · γ + β) 0.
  One side takes μ and v from the column's sum and the sum of squared deviations (meanR, varR).  The other first
  sums L and L² inside each of the 20 tiles of 5000 rows, parks each tile's two sums in row 0 of an 8-row block whose
  other rows are 0 (tileSums), and then takes μ = Σ / N and v = max (Σ² / N - μ²) 0 from the blocks' totals
  (meanK, varK).  The last layer adds a bias row instead.

  Nothing here mentions a program: the definitions are over index types of literal shapes, so that each side's run
  can be stated with them and the equality of the two sides is pure algebra (Algebra.lean).
-/
import Idealize.ShloMosaic.PureOps.Ideal
import Idealize.ShloMosaic.Lib.ValueIdx

noncomputable section

open scoped BigOperators

namespace Cert.Sage

open Idealize.ShloMosaic Idealize.ShloMosaic.ValueIdx

/-- Arrays of extended reals over literal shapes. -/
abbrev Arr1 (a : ℕ) := (⟨1, ![a]⟩ : Shape).Idx → EReal
abbrev Arr2 (a b : ℕ) := (⟨2, ![a, b]⟩ : Shape).Idx → EReal
abbrev Arr3 (a b c : ℕ) := (⟨3, ![a, b, c]⟩ : Shape).Idx → EReal

/-- ε of the normalisation, as the f32 word both sides spell. -/
abbrev eps : EReal := Ideal.ofBits .f32 0x3727C5AC#32
/-- The number of nodes as the f32 word both sides divide by: 100000.0. -/
abbrev nNodes : EReal := Ideal.ofBits .f32 0x47C35000#32

/-- Every entry is a real number (neither infinity). -/
def IsReal {ι : Type} (x : ι → EReal) : Prop := ∀ i, ∃ r : ℝ, x i = (r : EReal)

/-- Row r of tile t, the tiles being 5000 consecutive rows. -/
def tileRow (t : Fin 20) (r : Fin 5000) : Fin 100000 := ⟨t.val * 5000 + r.val, by omega⟩

/-! ## The linear part -/

/-- h · Ws + (a ⊙ δ) · Wn at (r, j), δ a column [N, 1]. -/
def linKAt {D : ℕ} (h a : Arr2 100000 128) (δ : Arr2 100000 1) (Ws Wn : Arr2 128 D) (r : Fin 100000) (j : Fin D) : EReal :=
  (∑ k : Fin 128, h (ix2 r k) * Ws (ix2 k j)) + ∑ k : Fin 128, (a (ix2 r k) * δ (ix2 r 0)) * Wn (ix2 k j)

def linK {D : ℕ} (h a : Arr2 100000 128) (δ : Arr2 100000 1) (Ws Wn : Arr2 128 D) : Arr2 100000 D :=
  fun i => linKAt h a δ Ws Wn (i 0) (i 1)

/-- h · Ws + (a / d) · Wn at (r, j), d a vector [N]. -/
def linRAt {D : ℕ} (h a : Arr2 100000 128) (d : Arr1 100000) (Ws Wn : Arr2 128 D) (r : Fin 100000) (j : Fin D) : EReal :=
  (∑ k : Fin 128, h (ix2 r k) * Ws (ix2 k j)) + ∑ k : Fin 128, Ideal.div (a (ix2 r k)) (d (ix1 r)) * Wn (ix2 k j)

def linR {D : ℕ} (h a : Arr2 100000 128) (d : Arr1 100000) (Ws Wn : Arr2 128 D) : Arr2 100000 D :=
  fun i => linRAt h a d Ws Wn (i 0) (i 1)

/-! ## The statistics, tile by tile -/

/-- The entrywise square. -/
def sq (L : Arr2 100000 128) : Arr2 100000 128 := fun i => L i * L i

/-- Block t holds, in its row 0, the column sums of tile t; its rows 1 … 7 hold 0. -/
def tileSums (L : Arr2 100000 128) : Arr3 20 8 128 :=
  fun i => if (i 1).val = 0 then ∑ r : Fin 5000, L (ix2 (tileRow (i 0) r) (i 2)) else 0

/-- The total of column j over all blocks and their rows, from 0. -/
def colTotal (S : Arr3 20 8 128) : Arr1 128 := fun j => 0 + ∑ t : Fin 20, ∑ s : Fin 8, S (ix3 t s (j 0))

/-- μ = Σ / N as a row [1, 128]. -/
def meanK (S : Arr3 20 8 128) : Arr2 1 128 := fun i => Ideal.div (colTotal S (ix1 (i 1))) nNodes

/-- v = max (Σ² / N - μ · μ) 0 as a row [1, 128]. -/
def varK (S Q : Arr3 20 8 128) : Arr2 1 128 :=
  fun i => max (Ideal.div (colTotal Q (ix1 (i 1))) nNodes - meanK S i * meanK S i) 0

/-- max (((L - μ) · rsqrt (v + ε)) · γ + β) 0, the four parameters rows [1, 128]. -/
def bnReluK (L : Arr2 100000 128) (μ v γ β : Arr2 1 128) : Arr2 100000 128 :=
  fun i => max ((((L i - μ (ix2 0 (i 1))) * Ideal.rsqrt (v (ix2 0 (i 1)) + eps)) * γ (ix2 0 (i 1))) + β (ix2 0 (i 1))) 0

/-- A vector laid as a one-row table. -/
def rowOf {n : ℕ} (x : Arr1 n) : Arr2 1 n := fun i => x (ix1 (i 1))

/-- L plus a bias row [1, 40]. -/
def addBiasK (L : Arr2 100000 40) (b : Arr2 1 40) : Arr2 100000 40 := fun i => L i + b (ix2 0 (i 1))

/-! ## The statistics, over the whole column -/

/-- The sum of column j, from 0. -/
def colSumR (L : Arr2 100000 128) : Arr1 128 := fun j => 0 + ∑ r : Fin 100000, L (ix2 r (j 0))

def meanR (L : Arr2 100000 128) : Arr1 128 := fun j => Ideal.div (colSumR L j) nNodes

/-- The mean of the squared deviations from the column's mean. -/
def varR (L : Arr2 100000 128) : Arr1 128 :=
  fun j => Ideal.div (0 + ∑ r : Fin 100000, (L (ix2 r (j 0)) - meanR L j) * (L (ix2 r (j 0)) - meanR L j)) nNodes

def bnReluR (L : Arr2 100000 128) (γ β : Arr1 128) : Arr2 100000 128 :=
  fun i => max ((((L i - meanR L (ix1 (i 1))) * Ideal.rsqrt (varR L (ix1 (i 1)) + eps)) * γ (ix1 (i 1))) + β (ix1 (i 1))) 0

def addBiasR (L : Arr2 100000 40) (b : Arr1 40) : Arr2 100000 40 := fun i => L i + b (ix1 (i 1))

/-! ## The two networks, over an aggregation map A -/

/-- One normalised layer, the tiled way. -/
def layerK (A : Arr2 100000 128 → Arr2 100000 128) (δ : Arr2 100000 1) (h : Arr2 100000 128) (Ws Wn : Arr2 128 128)
    (γ β : Arr1 128) : Arr2 100000 128 :=
  bnReluK (linK h (A h) δ Ws Wn) (meanK (tileSums (linK h (A h) δ Ws Wn)))
    (varK (tileSums (linK h (A h) δ Ws Wn)) (tileSums (sq (linK h (A h) δ Ws Wn)))) (rowOf γ) (rowOf β)

/-- One normalised layer, the whole-column way. -/
def layerR (A : Arr2 100000 128 → Arr2 100000 128) (d : Arr1 100000) (h : Arr2 100000 128) (Ws Wn : Arr2 128 128)
    (γ β : Arr1 128) : Arr2 100000 128 :=
  bnReluR (linR h (A h) d Ws Wn) γ β

def netK (A : Arr2 100000 128 → Arr2 100000 128) (δ : Arr2 100000 1) (feat : Arr2 100000 128)
    (Ws0 Wn0 : Arr2 128 128) (γ0 β0 : Arr1 128) (Ws1 Wn1 : Arr2 128 128) (γ1 β1 : Arr1 128)
    (Ws2 Wn2 : Arr2 128 40) (b2 : Arr1 40) : Arr2 100000 40 :=
  addBiasK (linK (layerK A δ (layerK A δ feat Ws0 Wn0 γ0 β0) Ws1 Wn1 γ1 β1)
    (A (layerK A δ (layerK A δ feat Ws0 Wn0 γ0 β0) Ws1 Wn1 γ1 β1)) δ Ws2 Wn2) (rowOf b2)

def netR (A : Arr2 100000 128 → Arr2 100000 128) (d : Arr1 100000) (feat : Arr2 100000 128)
    (Ws0 Wn0 : Arr2 128 128) (γ0 β0 : Arr1 128) (Ws1 Wn1 : Arr2 128 128) (γ1 β1 : Arr1 128)
    (Ws2 Wn2 : Arr2 128 40) (b2 : Arr1 40) : Arr2 100000 40 :=
  addBiasR (linR (layerR A d (layerR A d feat Ws0 Wn0 γ0 β0) Ws1 Wn1 γ1 β1)
    (A (layerR A d (layerR A d feat Ws0 Wn0 γ0 β0) Ws1 Wn1 γ1 β1)) d Ws2 Wn2) b2

end Cert.Sage

end
-- ==== Proof.Agg.lean ====
/-
  The aggregation, spelt with the host's own operations so that both programs' runs can be stated with it.

  Edge e goes from node src e to node dst e.  A negative source index is first wrapped by adding N.  The rows of h at
  the sources are gathered into an [E, 128] table and added, row by row, into the rows of a zero [N, 128] table at the
  destinations: row i of the result is the sum of the gathered rows of the edges that end in i.  The degree is the same
  scatter of ones into a zero vector, clipped below at 1; its reciprocal, laid as a column [N, 1], is what one side
  multiplies by where the other divides.

  The dimension records and the facts about shapes are parameters: each program supplies its own, and two
  instantiations agree as soon as the records have the same data.
-/
import Idealize.ShloMosaic.PureOps.Ideal
import Idealize.ShloMosaic.Lib.ValueIdx
import proofs.«156231_j12695923327564_2_alg».proof.Proof.Spec

noncomputable section

namespace Cert.Sage

open Idealize.ShloMosaic Idealize.ShloMosaic.ValueIdx

abbrev S0 : Shape := ⟨0, ![]⟩
abbrev SE : Shape := ⟨1, ![800000]⟩
abbrev SE1 : Shape := ⟨2, ![800000, 1]⟩
abbrev SE128 : Shape := ⟨2, ![800000, 128]⟩
abbrev SN : Shape := ⟨1, ![100000]⟩
abbrev SN1 : Shape := ⟨2, ![100000, 1]⟩
abbrev SN128 : Shape := ⟨2, ![100000, 128]⟩

/-- A source index, wrapped when negative: s < 0 ? s + N : s, on 32-bit words. -/
def nrmIdx (hbE : S0.BroadcastsInDim SE ![]) (src : IVec SE 32) : IVec SE 32 :=
  select (cmpi .slt src (broadcastInDim SE ![] hbE (constantI S0 32 0#32)))
    (addi src (broadcastInDim SE ![] hbE (constantI S0 32 100000#32))) src

/-- Row i of the result: the sum of the rows of h at the sources of the edges that end in i. -/
def aggOf (gd : GatherDims SN128 SE1 SE128) (sd : ScatterDims SN128 SE1 SE128)
    (hbE : S0.BroadcastsInDim SE ![]) (hcol : SE.BroadcastsInDim SE1 ![0]) (hbN128 : S0.BroadcastsInDim SN128 ![])
    (src dst : IVec SE 32) (h : Arr2 100000 128) : Arr2 100000 128 :=
  Host.scatterAdd (F := Ideal) sd
    (broadcastInDim SN128 ![] hbN128 (constant (F := Ideal) S0 .f32 0x00000000#32))
    (broadcastInDim SE1 ![0] hcol dst)
    (Host.gather gd h (broadcastInDim SE1 ![0] hcol (nrmIdx hbE src)))

/-- The number of edges that end in each node, at least 1. -/
def degOf (fd : ScatterDims SN SE1 SE) (hbE : S0.BroadcastsInDim SE ![]) (hcol : SE.BroadcastsInDim SE1 ![0])
    (hbN : S0.BroadcastsInDim SN ![]) (dst : IVec SE 32) : Arr1 100000 :=
  maximumf (F := Ideal)
    (Host.scatterAdd (F := Ideal) fd (broadcastInDim SN ![] hbN (constant (F := Ideal) S0 .f32 0x00000000#32))
      (broadcastInDim SE1 ![0] hcol dst) (broadcastInDim SE ![] hbE (constant (F := Ideal) S0 .f32 0x3F800000#32)))
    (broadcastInDim SN ![] hbN (constant (F := Ideal) S0 .f32 0x3F800000#32))

/-- 1 / degree, as a column [N, 1]. -/
def dinvOf (fd : ScatterDims SN SE1 SE) (hbE : S0.BroadcastsInDim SE ![]) (hcol : SE.BroadcastsInDim SE1 ![0])
    (hbN : S0.BroadcastsInDim SN ![]) (hsc : SN.ShapeCasts SN1) (dst : IVec SE 32) : Arr2 100000 1 :=
  shapeCast SN1 (Host.divf (F := Ideal) (broadcastInDim SN ![] hbN (constant (F := Ideal) S0 .f32 0x3F800000#32))
    (degOf fd hbE hcol hbN dst)) hsc

end Cert.Sage

end
-- ==== Proof.LibScatterRows.lean ====
/-
  Reading the host's index operations at one element, at the ideal instance (every float an extended real, every
  operation exact): the accumulating scatter along axis 0 (rows of a matrix, entries of a flat array), the gather
  along axis 0, the concatenation of two flat arrays, the column of start indices built from a flat array, the
  iota, the wrap-around normalisation of a signed index, and the splitting of a finite sum over `A + B` terms.
  Everything is stated over generic extents and over any dimension record with the stated data, so that it applies
  to every program of this family.
-/
import Idealize.ShloMosaic.PureOps.Ideal
import Idealize.ShloMosaic.Lib.ValueIdx
import Idealize.ShloMosaic.Lib.Pipeline.Value

noncomputable section

open scoped BigOperators

namespace Cert.Lib.ScatterRows

open Idealize.ShloMosaic Idealize.ShloMosaic.ValueIdx

/-- A start index read as a signed integer and clamped into `[0, N − 1]`: a negative integer gives `0`
    (the natural-number part of a negative integer is `0`), one past the end gives `N − 1`. -/
def clampRow (N : Nat) (hN : 0 < N) (z : ℤ) : Fin N := ⟨min z.toNat (N - 1), by omega⟩

/-! ## Rows of a matrix: scatter-add and gather along axis 0 -/

section Rows
variable {N D E w : Nat}

/-- Row scatter, operand axis 0 (the row axis): the window of update `(e, c)` starts at the row index stored at
    `idx[e, 0]`, read as a signed integer and not clamped. -/
theorem start0 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 0
      = (idx (ix2 (j 0) 0)).toInt := by
  unfold ScatterDims.start
  rw [dif_pos (show (0 : Fin 2) ∈ [(0 : Fin 2)] from List.mem_singleton.mpr rfl)]
  congr 2
  funext b; refine Fin.ext ?_
  match b with
  | ⟨0, _⟩ => rfl
  | ⟨1, _⟩ => rfl

/-- Row scatter, operand axis 1 (the column axis): the scatter indices do not address it, so every window starts
    at column `0`. -/
theorem start1 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 1 = 0 := by
  unfold ScatterDims.start
  rw [dif_neg (show (1 : Fin 2) ∉ [(0 : Fin 2)] by decide)]

/-- Row scatter: the row axis is an inserted window axis, so the window coordinate on it is `0`. -/
theorem window0 (wf) (j : (⟨2, ![E, D]⟩ : Shape).Idx) :
    (⟨[1], [0], [0], 1, wf⟩ : ScatterDims ⟨2, ![N, D]⟩ ⟨2, ![E, 1]⟩ ⟨2, ![E, D]⟩).window j 0 = 0 := by
  have h0 : (0 : Fin 2) ∉ (⟨[1], [0], [0], 1, wf⟩ : ScatterDims ⟨2, ![N, D]⟩ ⟨2, ![E, 1]⟩ ⟨2, ![E, D]⟩).sKept := by
    show (0 : Fin 2) ∉ [(1 : Fin 2)]
    decide
  unfold ScatterDims.window
  rw [dif_neg h0]

/-- Row scatter: the column axis carries the update's own column, so the window coordinate of update `(e, c)`
    on it is `c`. -/
theorem window1 (wf) (j : (⟨2, ![E, D]⟩ : Shape).Idx) :
    (⟨[1], [0], [0], 1, wf⟩ : ScatterDims ⟨2, ![N, D]⟩ ⟨2, ![E, 1]⟩ ⟨2, ![E, D]⟩).window j 1 = (j 1).val := by
  have h1 : (1 : Fin 2) ∈ (⟨[1], [0], [0], 1, wf⟩ : ScatterDims ⟨2, ![N, D]⟩ ⟨2, ![E, 1]⟩ ⟨2, ![E, D]⟩).sKept := by
    show (1 : Fin 2) ∈ [(1 : Fin 2)]
    decide
  unfold ScatterDims.window
  rw [dif_pos h1]
  rfl

/-- WHERE AN UPDATE LANDS. Update element `(e, c)` of a row scatter lands on operand element `(i, j)` exactly
    when the row index `idx[e, 0]`, read signed, is `i` and the column is unchanged, `c = j`; an update whose row
    index is negative or at least `N` lands nowhere (it is dropped). -/
theorem resultIdx?_rows (wf) (idx : IVec ⟨2, ![E, 1]⟩ w) (e : Fin E) (j' : Fin D) (i : Fin N) (j : Fin D) :
    (⟨[1], [0], [0], 1, wf⟩ : ScatterDims ⟨2, ![N, D]⟩ ⟨2, ![E, 1]⟩ ⟨2, ![E, D]⟩).resultIdx? (ix2 e j') idx
        = some (ix2 i j)
      ↔ (idx (ix2 e 0)).toInt = (i.val : ℤ) ∧ j' = j := by
  have hs0 : (⟨[1], [0], [0], 1, wf⟩ : ScatterDims ⟨2, ![N, D]⟩ ⟨2, ![E, 1]⟩ ⟨2, ![E, D]⟩).start (ix2 e j') idx 0
      = (idx (ix2 e 0)).toInt := start0 wf (ix2 e j') idx
  have hs1 := start1 (N := N) wf (ix2 e j') idx
  have hw0 := window0 (N := N) (E := E) wf (ix2 e j')
  have hw1 : (⟨[1], [0], [0], 1, wf⟩ : ScatterDims ⟨2, ![N, D]⟩ ⟨2, ![E, 1]⟩ ⟨2, ![E, D]⟩).window (ix2 e j') 1
      = j'.val := window1 wf (ix2 e j')
  unfold ScatterDims.resultIdx?
  split
  next h =>
    rw [Option.some.injEq]
    have ha0 := (h 0).1
    rw [hs0, hw0] at ha0
    constructor
    · intro hf
      have h0 : ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val :=
        congrArg Fin.val (congrFun hf 0)
      have h1 : ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j.val :=
        congrArg Fin.val (congrFun hf 1)
      rw [hs0, hw0] at h0
      rw [hs1, hw1] at h1
      refine ⟨by omega, Fin.ext (by omega)⟩
    · rintro ⟨hz, rfl⟩
      funext a
      refine Fin.ext ?_
      match a with
      | ⟨0, _⟩ =>
        show ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val
        rw [hs0, hw0, hz]; omega
      | ⟨1, _⟩ =>
        show ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j'.val
        rw [hs1, hw1]; omega
  next h =>
    constructor
    · intro hf; exact absurd hf (by simp)
    · rintro ⟨hz, rfl⟩
      exfalso; apply h
      intro a
      match a with
      | ⟨0, _⟩ =>
        show 0 ≤ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ)
          ∧ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ) < (N : ℤ)
        rw [hs0, hw0, hz]; have := i.isLt; omega
      | ⟨1, _⟩ =>
        show 0 ≤ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ)
          ∧ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ) < (D : ℤ)
        rw [hs1, hw1]; have := j'.isLt; omega

/-- THE ROW SCATTER-ADD READ AT `(i, j)`. Scattering the rows of `upd : [E, D]` into `x : [N, D]` at the row
    indices `idx : [E, 1]` and adding: element `(i, j)` of the result is `x[i, j]` plus the sum, over all updates
    `e` whose row index `idx[e, 0]` (read signed) equals `i`, of `upd[e, j]`. Stated for any dimension record
    whose data are those of a row scatter (window axis `1`, inserted axis `0`, index map `[0]`, index vector on
    axis `1`). -/
theorem scatterAdd_rows_apply (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd d x idx upd (ix2 i j)
      = x (ix2 i j) + ∑ e : Fin E, if (idx (ix2 e 0)).toInt = (i.val : ℤ) then upd (ix2 e j) else 0 := by
  obtain ⟨uw, iw, sd, iv, wf⟩ := d
  subst h1 h2 h3 h4
  unfold Ideal.hostScatterAdd
  congr 1
  rw [Finset.sum_filter, sum_idx2]
  refine Finset.sum_congr rfl fun e _ => ?_
  refine (Finset.sum_congr rfl fun j' _ => if_congr (resultIdx?_rows wf idx e j' i j) rfl rfl).trans ?_
  by_cases hz : (idx (ix2 e 0)).toInt = (i.val : ℤ)
  · simp only [hz, true_and]
    rw [Finset.sum_ite_eq']
    simp
  · simp [hz]

/-- The same read for the float instance's scatter-add at the ideal instance, at any schedule key: there it is the
    exact sum above, whatever the key. -/
theorem floatOps_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (sched : HostSchedule)
    (x : FVec Ideal ⟨2, ![N, D]⟩ φ) (idx : IVec ⟨2, ![E, 1]⟩ w) (upd : FVec Ideal ⟨2, ![E, D]⟩ φ)
    (i : Fin N) (j : Fin D) :
    FloatOps.hostScatterAdd (F := Ideal) d sched x idx upd (ix2 i j)
      = x (ix2 i j) + ∑ e : Fin E, if (idx (ix2 e 0)).toInt = (i.val : ℤ) then upd (ix2 e j) else 0 :=
  scatterAdd_rows_apply d h1 h2 h3 h4 x idx upd i j

/-- The same read for the host's accumulating scatter of a one-device program, at the ideal instance. -/
theorem host_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (i : Fin N) (j : Fin D) :
    Host.scatterAdd (F := Ideal) d x idx upd (ix2 i j)
      = x (ix2 i j) + ∑ e : Fin E, if (idx (ix2 e 0)).toInt = (i.val : ℤ) then upd (ix2 e j) else 0 :=
  scatterAdd_rows_apply d h1 h2 h3 h4 x idx upd i j

/-- THE ROW GATHER READ AT `(e, j)`. Gathering whole rows of `x : [N, D]` at the row indices `idx : [E, 1]`:
    element `(e, j)` of the result is `x[r, j]`, where `r` is the row index `idx[e, 0]` read as a signed
    integer and clamped into `[0, N − 1]` (the gather clamps every start index so that the slice fits). Stated for
    any dimension record whose data are those of a row gather (offset axis `1`, collapsed axis `0`, index map
    `[0]`, index vector on axis `1`, slices `1 × D`, no batching axes). -/
theorem gather_rows_apply {α : Type} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (j : Fin D) :
    Host.gather d x idx (ix2 e j) = x (ix2 (clampRow N hN (idx (ix2 e 0)).toInt) j) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[1], [0], [], [], [0], 1, ![1, D], wf⟩ : GatherDims ⟨2, ![N, D]⟩ ⟨2, ![E, 1]⟩ ⟨2, ![E, D]⟩).start (ix2 e j) idx 0 + (⟨[1], [0], [], [], [0], 1, ![1, D], wf⟩ : GatherDims ⟨2, ![N, D]⟩ ⟨2, ![E, 1]⟩ ⟨2, ![E, D]⟩).batchCoord (ix2 e j) 0 + (⟨[1], [0], [], [], [0], 1, ![1, D], wf⟩ : GatherDims ⟨2, ![N, D]⟩ ⟨2, ![E, 1]⟩ ⟨2, ![E, D]⟩).offCoord (ix2 e j) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (⟨[1], [0], [], [], [0], 1, ![1, D], wf⟩ : GatherDims ⟨2, ![N, D]⟩ ⟨2, ![E, 1]⟩ ⟨2, ![E, D]⟩).siIdx (ix2 e j) ⟨List.idxOf (0 : Fin 2) [(0 : Fin 2)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (⟨[1], [0], [], [], [0], 1, ![1, D], wf⟩ : GatherDims ⟨2, ![N, D]⟩ ⟨2, ![E, 1]⟩ ⟨2, ![E, D]⟩).start (ix2 e j) idx 1 + (⟨[1], [0], [], [], [0], 1, ![1, D], wf⟩ : GatherDims ⟨2, ![N, D]⟩ ⟨2, ![E, 1]⟩ ⟨2, ![E, D]⟩).batchCoord (ix2 e j) 1 + (⟨[1], [0], [], [], [0], 1, ![1, D], wf⟩ : GatherDims ⟨2, ![N, D]⟩ ⟨2, ![E, 1]⟩ ⟨2, ![E, D]⟩).offCoord (ix2 e j) 1 = j.val
    have hk : (1 : Fin 2) ∈ (⟨[1], [0], [], [], [0], 1, ![1, D], wf⟩ : GatherDims ⟨2, ![N, D]⟩ ⟨2, ![E, 1]⟩ ⟨2, ![E, D]⟩).sKept := by
      show (1 : Fin 2) ∈ [(1 : Fin 2)]
      decide
    rw [GatherDims.batchCoord_eq_zero _ _ _ List.not_mem_nil]
    unfold GatherDims.start
    rw [dif_neg (show (1 : Fin 2) ∉ [(0 : Fin 2)] by decide)]
    unfold GatherDims.offCoord
    rw [dif_pos hk]
    simp only [Nat.zero_add, Nat.add_zero]
    rfl

end Rows

/-! ## Entries of a flat array: scatter-add and gather along its one axis -/

section Flat
variable {N E w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Flat scatter: the window of update `e` starts at the index stored at `idx[e, 0]`, read as a signed integer
    and not clamped. -/
theorem startFlat (wf) (j : (⟨1, ![E]⟩ : Shape).Idx) (idx : IVec ⟨2, ![E, 1]⟩ w) :
    (⟨[], [0], [0], 1, wf⟩ : ScatterDims ⟨1, ![N]⟩ ⟨2, ![E, 1]⟩ ⟨1, ![E]⟩).start j idx 0 = (idx (ix2 (j 0) 0)).toInt := by
  unfold ScatterDims.start
  rw [dif_pos (show (0 : Fin 1) ∈ [(0 : Fin 1)] from List.mem_singleton.mpr rfl)]
  congr 2
  funext b; refine Fin.ext ?_
  match b with
  | ⟨0, _⟩ => rfl
  | ⟨1, _⟩ => rfl

/-- Flat scatter: the one operand axis is an inserted window axis, so the window coordinate on it is `0`. -/
theorem windowFlat (wf) (j : (⟨1, ![E]⟩ : Shape).Idx) : (⟨[], [0], [0], 1, wf⟩ : ScatterDims ⟨1, ![N]⟩ ⟨2, ![E, 1]⟩ ⟨1, ![E]⟩).window j 0 = 0 := by
  have h0 : (0 : Fin 1) ∉ (⟨[], [0], [0], 1, wf⟩ : ScatterDims ⟨1, ![N]⟩ ⟨2, ![E, 1]⟩ ⟨1, ![E]⟩).sKept := by
    show (0 : Fin 1) ∉ ([] : List (Fin 1))
    decide
  unfold ScatterDims.window
  rw [dif_neg h0]

/-- WHERE A FLAT UPDATE LANDS. Update element `e` of a flat scatter lands on operand element `i` exactly when the
    index `idx[e, 0]`, read signed, is `i`; an update whose index is negative or at least `N` is dropped. -/
theorem resultIdx?_flat (wf) (idx : IVec ⟨2, ![E, 1]⟩ w) (e : Fin E) (i : Fin N) :
    (⟨[], [0], [0], 1, wf⟩ : ScatterDims ⟨1, ![N]⟩ ⟨2, ![E, 1]⟩ ⟨1, ![E]⟩).resultIdx? (ix1 e) idx = some (ix1 i) ↔ (idx (ix2 e 0)).toInt = (i.val : ℤ) := by
  have hs0 : (⟨[], [0], [0], 1, wf⟩ : ScatterDims ⟨1, ![N]⟩ ⟨2, ![E, 1]⟩ ⟨1, ![E]⟩).start (ix1 e) idx 0 = (idx (ix2 e 0)).toInt := startFlat wf (ix1 e) idx
  have hw0 := windowFlat (N := N) (E := E) wf (ix1 e)
  unfold ScatterDims.resultIdx?
  split
  next h =>
    rw [Option.some.injEq]
    have ha0 := (h 0).1
    rw [hs0, hw0] at ha0
    constructor
    · intro hf
      have h0 : ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val :=
        congrArg Fin.val (congrFun hf 0)
      rw [hs0, hw0] at h0
      omega
    · intro hz
      funext a
      refine Fin.ext ?_
      match a with
      | ⟨0, _⟩ =>
        show ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val
        rw [hs0, hw0, hz]; omega
  next h =>
    constructor
    · intro hf; exact absurd hf (by simp)
    · intro hz
      exfalso; apply h
      intro a
      match a with
      | ⟨0, _⟩ =>
        show 0 ≤ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)
          ∧ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ) < (N : ℤ)
        rw [hs0, hw0, hz]; have := i.isLt; omega

/-- THE FLAT SCATTER-ADD READ AT `i`. Scattering the entries of `upd : [E]` into `x : [N]` at the indices
    `idx : [E, 1]` and adding: entry `i` of the result is `x[i]` plus the sum, over all updates `e` whose index
    `idx[e, 0]` (read signed) equals `i`, of `upd[e]`. Stated for any dimension record whose data are those of a
    flat scatter (no window axis, inserted axis `0`, index map `[0]`, index vector on axis `1`). -/
theorem scatterAdd_flat_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i)
      = x (ix1 i) + ∑ e : Fin E, if (idx (ix2 e 0)).toInt = (i.val : ℤ) then upd (ix1 e) else 0 := by
  obtain ⟨uw, iw, sd, iv, wf⟩ := d
  subst h1 h2 h3 h4
  unfold Ideal.hostScatterAdd
  congr 1
  rw [Finset.sum_filter, sum_idx1]
  exact Finset.sum_congr rfl fun e _ => if_congr (resultIdx?_flat wf idx e i) rfl rfl

/-- The same read for the float instance's scatter-add at the ideal instance, at any schedule key. -/
theorem floatOps_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (sched : HostSchedule)
    (x : FVec Ideal ⟨1, ![N]⟩ φ) (idx : IVec ⟨2, ![E, 1]⟩ w) (upd : FVec Ideal ⟨1, ![E]⟩ φ) (i : Fin N) :
    FloatOps.hostScatterAdd (F := Ideal) d sched x idx upd (ix1 i)
      = x (ix1 i) + ∑ e : Fin E, if (idx (ix2 e 0)).toInt = (i.val : ℤ) then upd (ix1 e) else 0 :=
  scatterAdd_flat_apply d h1 h2 h3 h4 x idx upd i

/-- The same read for the host's accumulating scatter of a one-device program, at the ideal instance. -/
theorem host_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (i : Fin N) :
    Host.scatterAdd (F := Ideal) d x idx upd (ix1 i)
      = x (ix1 i) + ∑ e : Fin E, if (idx (ix2 e 0)).toInt = (i.val : ℤ) then upd (ix1 e) else 0 :=
  scatterAdd_flat_apply d h1 h2 h3 h4 x idx upd i

/-- THE FLAT GATHER READ AT `e`. Gathering entries of `x : [N]` at the indices `idx : [E, 1]`: entry `e` of the
    result is `x[r]`, where `r` is the index `idx[e, 0]` read as a signed integer and clamped into `[0, N − 1]`.
    Stated for any dimension record whose data are those of a flat gather (no offset axis, collapsed axis `0`,
    index map `[0]`, index vector on axis `1`, slices of one entry, no batching axes). -/
theorem gather_flat_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (clampRow N hN (idx (ix2 e 0)).toInt)) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[], [0], [], [], [0], 1, ![1], wf⟩ : GatherDims ⟨1, ![N]⟩ ⟨2, ![E, 1]⟩ ⟨1, ![E]⟩).start (ix1 e) idx 0 + (⟨[], [0], [], [], [0], 1, ![1], wf⟩ : GatherDims ⟨1, ![N]⟩ ⟨2, ![E, 1]⟩ ⟨1, ![E]⟩).batchCoord (ix1 e) 0 + (⟨[], [0], [], [], [0], 1, ![1], wf⟩ : GatherDims ⟨1, ![N]⟩ ⟨2, ![E, 1]⟩ ⟨1, ![E]⟩).offCoord (ix1 e) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ [(0 : Fin 1)] from List.mem_singleton.mpr rfl)]
    have hsi : (⟨[], [0], [], [], [0], 1, ![1], wf⟩ : GatherDims ⟨1, ![N]⟩ ⟨2, ![E, 1]⟩ ⟨1, ![E]⟩).siIdx (ix1 e) ⟨List.idxOf (0 : Fin 1) [(0 : Fin 1)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Flat

/-! ## Two flat arrays laid end to end -/

section Concat
variable {α : Type}

/-- THE CONCATENATION OF TWO FLAT ARRAYS READ AT `e`: below `A` it is the first array at `e`, from `A` on the
    second array at `e − A`. -/
theorem concatenate_flat_apply {A B C : Nat} (hC : C = A + B)
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) :
    concatenate ⟨1, ![C]⟩ 0 [⟨⟨1, ![A]⟩, a⟩, ⟨⟨1, ![B]⟩, b⟩] h (ix1 e)
      = if hlt : e.val < A then a (ix1 ⟨e.val, hlt⟩) else b (ix1 ⟨e.val - A, by omega⟩) := by
  by_cases hlt : e.val < A
  · rw [dif_pos hlt]
    refine concatenate_pair_apply_left 0 a b h (ix1 e) rfl (ix1 ⟨e.val, hlt⟩) ?_
    intro b1
    match b1 with
    | ⟨0, _⟩ => rfl
  · rw [dif_neg hlt]
    refine concatenate_pair_apply_right 0 a b h (ix1 e) rfl rfl (ix1 ⟨e.val - A, by omega⟩) ?_ ?_
    · intro b1 hb
      match b1 with
      | ⟨0, _⟩ => exact absurd rfl hb
    · show e.val - A + A = e.val
      omega

end Concat

/-! ## The column of start indices, the iota, and the normalisation of a signed index -/

section Words
variable {α : Type}

/-- A flat array `v : [E]` broadcast to a column `[E, 1]` along axis 0 reads `v[e]` at `(e, 0)`. -/
theorem broadcastInDim_col_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e 0) = v (ix1 e) := by
  unfold broadcastInDim
  congr 1
  funext a
  refine Fin.ext ?_
  match a with
  | ⟨0, _⟩ =>
    show (if h1 : E = 1 then (⟨0, by omega⟩ : Fin E) else ⟨e.val, e.isLt⟩).val = e.val
    split
    · have := e.isLt; show 0 = e.val; omega
    · rfl

/-- The iota along the one axis of a flat array reads the position `k`, as a 32-bit word. -/
theorem iotaInDim_flat_apply {N : Nat} (k : Fin N) : iotaInDim ⟨1, ![N]⟩ 32 0 (ix1 k) = BitVec.ofNat 32 k.val := rfl

/-- A natural number below `2³¹`, written as a 32-bit word and read back signed, is itself. -/
theorem toInt_ofNat_small (k : Nat) (hk : k < 2 ^ 31) : (BitVec.ofNat 32 k).toInt = (k : ℤ) := by
  rw [BitVec.toInt_ofNat']
  unfold Int.bmod
  simp only []
  split <;> omega

/-- THE NORMALISATION OF A SIGNED INDEX. "If `s` is negative take `s + n`, else `s`", computed on 32-bit words
    with `n` below `2³¹`, is the same computation on the integers: the sum cannot wrap, since a negative `s` is at
    least `−2³¹`, so `s + n` lies in `[−2³¹, 2³¹)`. -/
theorem nrm_toInt (s : BitVec 32) (n : Nat) (hn : n < 2 ^ 31) :
    (Scalar.select (IntOp.cmpi .slt s 0#32) (IntOp.addi s (BitVec.ofNat 32 n)) s).toInt
      = if s.toInt < 0 then s.toInt + (n : ℤ) else s.toInt := by
  have hlo : -2 ^ (32 - 1) ≤ s.toInt := BitVec.le_toInt s
  have hhi : s.toInt < 2 ^ (32 - 1) := BitVec.toInt_lt
  unfold Scalar.select IntOp.cmpi IntOp.addi
  simp only [BitVec.slt_eq_decide, BitVec.toInt_zero]
  by_cases h : s.toInt < 0
  · rw [if_pos (by simp [h]), if_pos h, BitVec.toInt_add, toInt_ofNat_small n hn]
    unfold Int.bmod
    simp only []
    split <;> omega
  · rw [if_neg (by simp [h]), if_neg h]

end Words

/-! ## A sum over `A + B` terms -/

/-- A finite sum over `C = A + B` terms is the sum of its first `A` terms plus the sum of its last `B` terms. -/
theorem sum_fin_add {M : Type*} [AddCommMonoid M] {A B C : Nat} (hC : C = A + B) (f : Fin C → M) :
    ∑ e : Fin C, f e = ∑ e : Fin A, f ⟨e.val, by omega⟩ + ∑ k : Fin B, f ⟨A + k.val, by omega⟩ := by
  subst hC
  rw [Fin.sum_univ_add]
  rfl

/-- The same splitting for extended-real terms. -/
theorem sum_fin_add_ereal {A B C : Nat} (hC : C = A + B) (f : Fin C → EReal) :
    ∑ e : Fin C, f e = ∑ e : Fin A, f ⟨e.val, by omega⟩ + ∑ k : Fin B, f ⟨A + k.val, by omega⟩ :=
  sum_fin_add hC f

end Cert.Lib.ScatterRows

end
-- ==== Proof.LibKeepdims.lean ====
/-
  Two layout facts every sum taken with its axis kept (a column of row sums) needs, read at an index given by
  coordinates: a vector of length `a` laid as a column `[a, 1]` reads its entry `i` at `(i, u)`, and a column `[a, 1]`
  broadcast over `b` columns reads, at `(p, c)`, the column's entry `p`. They sit beside the library's row forms
  (a vector laid as a row `[1, a]`; a row broadcast over many rows).
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.AggFacts.lean ====
/-
  Facts about the aggregation, the degree and its reciprocal column, read entry by entry at the extended reals.

  Row i of the aggregate is 0 plus a finite sum whose terms are entries of h or 0, so it is real as soon as h is.
  The degree of node i is max (0 + number of edges ending in i) 1, a real that is at least 1 and so not 0.  The
  reciprocal column holds 1 / degree at (i, 0).
-/
import Idealize.ShloMosaic.Lib.IdealHost
import proofs.«156231_j12695923327564_2_alg».proof.Proof.Spec
import proofs.«156231_j12695923327564_2_alg».proof.Proof.Agg
import proofs.«156231_j12695923327564_2_alg».proof.Proof.LibScatterRows
import proofs.«156231_j12695923327564_2_alg».proof.Proof.LibKeepdims

noncomputable section

open scoped BigOperators

namespace Cert.Sage

open Idealize.ShloMosaic Idealize.ShloMosaic.ValueIdx Cert.Lib.ScatterRows

/-! ## Finite sums and maxima of real numbers inside the extended reals -/

/-- A finite sum of extended reals each of which is a real number is a real number. -/
theorem sum_isReal {ι : Type} (s : Finset ι) (f : ι → EReal) (hf : ∀ e ∈ s, ∃ r : ℝ, f e = (r : EReal)) :
    ∃ r : ℝ, ∑ e ∈ s, f e = (r : EReal) := by
  classical
  induction s using Finset.induction_on with
  | empty => exact ⟨0, by simp⟩
  | insert a s ha ih =>
    obtain ⟨ra, hra⟩ := hf a (Finset.mem_insert_self a s)
    obtain ⟨rs, hrs⟩ := ih fun e he => hf e (Finset.mem_insert_of_mem he)
    refine ⟨ra + rs, ?_⟩
    rw [Finset.sum_insert ha, hra, hrs, EReal.coe_add]

/-- The larger of two real numbers, taken in the extended reals, is the larger real number. -/
theorem max_coe (a b : ℝ) : max (a : EReal) (b : EReal) = ((max a b : ℝ) : EReal) :=
  (EReal.coe_strictMono.monotone.map_max).symm

/-! ## The degree -/

/-- The degree of node i: 0 plus one for every edge whose destination word, read signed, is i; then at least 1. -/
theorem degOf_apply (fd : ScatterDims SN SE1 SE)
    (hf : fd.updateWindowDims = [] ∧ fd.insertedWindowDims = [0] ∧ fd.scatterDimsToOperandDims = [0]
      ∧ fd.indexVectorDim = 1)
    (hbE : S0.BroadcastsInDim SE ![]) (hcol : SE.BroadcastsInDim SE1 ![0]) (hbN : S0.BroadcastsInDim SN ![])
    (dst : IVec SE 32) (i : Fin 100000) :
    degOf fd hbE hcol hbN dst (ix1 i)
      = max (0 + ∑ e : Fin 800000, if (dst (ix1 e)).toInt = (i.val : ℤ) then (1 : EReal) else 0) 1 := by
  obtain ⟨h1, h2, h3, h4⟩ := hf
  unfold degOf
  rw [maximumf_apply, host_scatterAdd_flat_apply fd h1 h2 h3 h4, broadcastInDim_scalar_apply,
    broadcastInDim_scalar_apply, constant_apply, constant_apply, Ideal.ofBits_zero_f32, Ideal.ofBits_one_f32]
  refine congrArg (fun s => max (0 + s) (1 : EReal)) (Finset.sum_congr rfl fun e _ => ?_)
  rw [broadcastInDim_col_apply, broadcastInDim_scalar_apply, constant_apply, Ideal.ofBits_one_f32]

/-- The degree of every node is a real number other than 0. -/
theorem degOf_real (fd : ScatterDims SN SE1 SE)
    (hf : fd.updateWindowDims = [] ∧ fd.insertedWindowDims = [0] ∧ fd.scatterDimsToOperandDims = [0]
      ∧ fd.indexVectorDim = 1)
    (hbE : S0.BroadcastsInDim SE ![]) (hcol : SE.BroadcastsInDim SE1 ![0]) (hbN : S0.BroadcastsInDim SN ![])
    (dst : IVec SE 32) :
    ∀ i : Fin 100000, ∃ r : ℝ, r ≠ 0 ∧ degOf fd hbE hcol hbN dst (ix1 i) = (r : EReal) := by
  intro i
  obtain ⟨s, hs⟩ := sum_isReal Finset.univ
    (fun e : Fin 800000 => if (dst (ix1 e)).toInt = (i.val : ℤ) then (1 : EReal) else 0)
    (fun e _ => by
      by_cases hc : (dst (ix1 e)).toInt = (i.val : ℤ)
      · exact ⟨1, by rw [if_pos hc, EReal.coe_one]⟩
      · exact ⟨0, by rw [if_neg hc, EReal.coe_zero]⟩)
  refine ⟨max s 1, ?_, ?_⟩
  · have : (1 : ℝ) ≤ max s 1 := le_max_right s 1
    intro h0
    rw [h0] at this
    exact absurd this (by norm_num)
  · rw [degOf_apply fd hf hbE hcol hbN dst i, hs, zero_add, ← EReal.coe_one, max_coe]

/-! ## The reciprocal column -/

/-- Entry (i, 0) of the reciprocal column is 1 divided by the degree of node i. -/
theorem dinvOf_apply (fd : ScatterDims SN SE1 SE)
    (hbE : S0.BroadcastsInDim SE ![]) (hcol : SE.BroadcastsInDim SE1 ![0]) (hbN : S0.BroadcastsInDim SN ![])
    (hsc : SN.ShapeCasts SN1) (dst : IVec SE 32) (i : Fin 100000) :
    dinvOf fd hbE hcol hbN hsc dst (ix2 i 0) = Ideal.div 1 (degOf fd hbE hcol hbN dst (ix1 i)) := by
  unfold dinvOf
  rw [shapeCast_a_a1_apply, hostDivf_apply, broadcastInDim_scalar_apply, constant_apply, Ideal.ofBits_one_f32]

/-! ## The aggregate -/

/-- Entry (i, j) of the aggregate: 0 plus, for every edge whose destination word is i, the entry of h in column j of
    the row its wrapped source word selects (clamped into the table). -/
theorem aggOf_apply (gd : GatherDims SN128 SE1 SE128) (sd : ScatterDims SN128 SE1 SE128)
    (hg : gd.offsetDims = [1] ∧ gd.collapsedSliceDims = [0] ∧ gd.operandBatchingDims = []
      ∧ gd.startIndicesBatchingDims = [] ∧ gd.startIndexMap = [0] ∧ gd.indexVectorDim = 1
      ∧ gd.sliceSizes = ![1, 128])
    (hs : sd.updateWindowDims = [1] ∧ sd.insertedWindowDims = [0] ∧ sd.scatterDimsToOperandDims = [0]
      ∧ sd.indexVectorDim = 1)
    (hbE : S0.BroadcastsInDim SE ![]) (hcol : SE.BroadcastsInDim SE1 ![0]) (hbN128 : S0.BroadcastsInDim SN128 ![])
    (src dst : IVec SE 32) (h : Arr2 100000 128) (i : Fin 100000) (j : Fin 128) :
    aggOf gd sd hbE hcol hbN128 src dst h (ix2 i j)
      = 0 + ∑ e : Fin 800000, if (dst (ix1 e)).toInt = (i.val : ℤ)
          then h (ix2 (clampRow 100000 (by norm_num) (nrmIdx hbE src (ix1 e)).toInt) j) else 0 := by
  obtain ⟨g1, g2, g3, g4, g5, g6, g7⟩ := hg
  obtain ⟨s1, s2, s3, s4⟩ := hs
  unfold aggOf
  rw [host_scatterAdd_rows_apply sd s1 s2 s3 s4, broadcastInDim_scalar_apply, constant_apply, Ideal.ofBits_zero_f32]
  refine congrArg (fun s => (0 : EReal) + s) (Finset.sum_congr rfl fun e _ => ?_)
  rw [broadcastInDim_col_apply, gather_rows_apply (by norm_num) gd g1 g2 g3 g4 g5 g6 g7, broadcastInDim_col_apply]

/-- The aggregate of a table of real numbers is a table of real numbers. -/
theorem aggOf_real (gd : GatherDims SN128 SE1 SE128) (sd : ScatterDims SN128 SE1 SE128)
    (hg : gd.offsetDims = [1] ∧ gd.collapsedSliceDims = [0] ∧ gd.operandBatchingDims = []
      ∧ gd.startIndicesBatchingDims = [] ∧ gd.startIndexMap = [0] ∧ gd.indexVectorDim = 1
      ∧ gd.sliceSizes = ![1, 128])
    (hs : sd.updateWindowDims = [1] ∧ sd.insertedWindowDims = [0] ∧ sd.scatterDimsToOperandDims = [0]
      ∧ sd.indexVectorDim = 1)
    (hbE : S0.BroadcastsInDim SE ![]) (hcol : SE.BroadcastsInDim SE1 ![0]) (hbN128 : S0.BroadcastsInDim SN128 ![])
    (src dst : IVec SE 32) (h : Arr2 100000 128) (hh : IsReal h) :
    IsReal (aggOf gd sd hbE hcol hbN128 src dst h) := by
  intro x
  obtain ⟨a, b, rfl⟩ : ∃ (a : Fin 100000) (b : Fin 128), x = ix2 a b := ⟨x 0, x 1, eq_ix2 x⟩
  rw [aggOf_apply gd sd hg hs hbE hcol hbN128 src dst h a b]
  obtain ⟨s, hs'⟩ := sum_isReal Finset.univ
    (fun e : Fin 800000 => if (dst (ix1 e)).toInt = (a.val : ℤ)
      then h (ix2 (clampRow 100000 (by norm_num) (nrmIdx hbE src (ix1 e)).toInt) b) else 0)
    (fun e _ => by
      by_cases hc : (dst (ix1 e)).toInt = (a.val : ℤ)
      · rw [if_pos hc]
        exact hh _
      · exact ⟨0, by rw [if_neg hc, EReal.coe_zero]⟩)
  exact ⟨s, by rw [hs', zero_add]⟩

end Cert.Sage

end
-- ==== Proof.AlgebraReal.lean ====
/-
  Real numbers inside the extended reals: the coercion goes through finite sums, and a quotient by a nonzero real
  number is the product with its reciprocal.
-/
import proofs.«156231_j12695923327564_2_alg».proof.Proof.Spec

noncomputable section

open scoped BigOperators

namespace Cert.Sage

open Idealize.ShloMosaic

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of extended reals that are all real numbers is the real sum. -/
theorem sum_of_real {ι : Type*} (s : Finset ι) (f : ι → EReal) (g : ι → ℝ) (h : ∀ i, f i = (g i : EReal)) :
    ∑ i ∈ s, f i = ((∑ i ∈ s, g i : ℝ) : EReal) := by
  rw [coe_sum]
  exact Finset.sum_congr rfl fun i _ => h i

/-- The reciprocal of a nonzero real number. -/
theorem recip_real {r : ℝ} (hr : r ≠ 0) : Ideal.div 1 (r : EReal) = ((1 / r : ℝ) : EReal) := by
  rw [Ideal.div_coe hr, one_mul]

/-- A quotient of two reals, the divisor not zero. -/
theorem div_real (x : ℝ) {r : ℝ} (hr : r ≠ 0) : Ideal.div (x : EReal) (r : EReal) = ((x * (1 / r) : ℝ) : EReal) := by
  rw [Ideal.div_coe hr, ← EReal.coe_mul]

/-- Multiplying by the reciprocal of a nonzero real number is dividing by it, for every extended real x. -/
theorem mul_recip {d δ : EReal} (hd : ∃ r : ℝ, r ≠ 0 ∧ d = (r : EReal)) (hδ : δ = Ideal.div 1 d) (x : EReal) :
    x * δ = Ideal.div x d := by
  obtain ⟨r, hr, rfl⟩ := hd
  rw [hδ, recip_real hr, Ideal.div_coe hr]

end Cert.Sage

end
-- ==== Proof.AlgebraLin.lean ====
/-
  The linear part.  Multiplying the aggregated row by the column of reciprocal degrees is dividing it by the degrees,
  entry by entry, because every degree is a nonzero real number; this holds whatever the other values are.  On real
  inputs the result is real: a finite sum of products of reals.
-/
import proofs.«156231_j12695923327564_2_alg».proof.Proof.AlgebraReal

noncomputable section

open scoped BigOperators

namespace Cert.Sage

open Idealize.ShloMosaic Idealize.ShloMosaic.ValueIdx

/-- One entry: the product with δ r is the quotient by d r. -/
theorem linKAt_eq {D : ℕ} (h a : Arr2 100000 128) (δ : Arr2 100000 1) (d : Arr1 100000) (Ws Wn : Arr2 128 D)
    (r : Fin 100000) (j : Fin D) (hd : ∃ q : ℝ, q ≠ 0 ∧ d (ix1 r) = (q : EReal))
    (hδ : δ (ix2 r 0) = Ideal.div 1 (d (ix1 r))) :
    linKAt h a δ Ws Wn r j = linRAt h a d Ws Wn r j := by
  unfold linKAt linRAt
  refine congrArg (fun z => (∑ k : Fin 128, h (ix2 r k) * Ws (ix2 k j)) + z) ?_
  refine Finset.sum_congr rfl fun k _ => ?_
  rw [mul_recip hd hδ]

/-- The two linear parts are the same table. -/
theorem linK_eq {D : ℕ} (h a : Arr2 100000 128) (δ : Arr2 100000 1) (d : Arr1 100000) (Ws Wn : Arr2 128 D)
    (hd : ∀ i : Fin 100000, ∃ q : ℝ, q ≠ 0 ∧ d (ix1 i) = (q : EReal))
    (hδ : ∀ i : Fin 100000, δ (ix2 i 0) = Ideal.div 1 (d (ix1 i))) :
    linK h a δ Ws Wn = linR h a d Ws Wn := by
  funext i
  exact linKAt_eq h a δ d Ws Wn (i 0) (i 1) (hd (i 0)) (hδ (i 0))

/-- One entry of the linear part on real inputs is a real number. -/
theorem linRAt_real {D : ℕ} (h a : Arr2 100000 128) (d : Arr1 100000) (Ws Wn : Arr2 128 D)
    (hh : IsReal h) (ha : IsReal a) (hWs : IsReal Ws) (hWn : IsReal Wn)
    (r : Fin 100000) (j : Fin D) (hd : ∃ q : ℝ, q ≠ 0 ∧ d (ix1 r) = (q : EReal)) :
    ∃ x : ℝ, linRAt h a d Ws Wn r j = (x : EReal) := by
  choose hf hhf using hh
  choose af haf using ha
  choose sf hsf using hWs
  choose nf hnf using hWn
  obtain ⟨q, hq, hdq⟩ := hd
  refine ⟨(∑ k : Fin 128, hf (ix2 r k) * sf (ix2 k j)) + ∑ k : Fin 128, (af (ix2 r k) * (1 / q)) * nf (ix2 k j), ?_⟩
  unfold linRAt
  rw [EReal.coe_add, coe_sum, coe_sum]
  refine congrArg₂ (· + ·) (Finset.sum_congr rfl fun k _ => ?_) (Finset.sum_congr rfl fun k _ => ?_)
  · rw [hhf, hsf, EReal.coe_mul]
  · rw [haf, hdq, div_real _ hq, hnf, ← EReal.coe_mul]

/-- The linear part on real inputs, with nonzero real degrees, is a real table. -/
theorem linR_real {D : ℕ} (h a : Arr2 100000 128) (d : Arr1 100000) (Ws Wn : Arr2 128 D)
    (hh : IsReal h) (ha : IsReal a) (hWs : IsReal Ws) (hWn : IsReal Wn)
    (hd : ∀ i : Fin 100000, ∃ q : ℝ, q ≠ 0 ∧ d (ix1 i) = (q : EReal)) :
    IsReal (linR h a d Ws Wn) :=
  fun i => linRAt_real h a d Ws Wn hh ha hWs hWn (i 0) (i 1) (hd (i 0))

end Cert.Sage

end
-- ==== Proof.AlgebraConsts.lean ====
/-
  The three float words of the statistics as the extended reals they denote: 1.0 is 1, the divisor is the real
  number 100000 (the number of rows), and ε is a positive real number.
-/
import proofs.«156231_j12695923327564_2_alg».proof.Proof.Spec

noncomputable section

namespace Cert.Sage

open Idealize.ShloMosaic

/-- The word of 1.0 denotes 1. -/
theorem one_word : Ideal.ofBits .f32 0x3F800000#32 = (1 : EReal) := by
  simp [Ideal.ofBits, Ideal.ieee, -EReal.coe_mul]; norm_num

/-- The divisor of the statistics is the real number 100000: exponent 143 and fraction 0x435000, that is
    (2²³ + 4411392) · 2⁻⁷ = 12800000 / 128. -/
theorem nNodes_eq : nNodes = ((100000 : ℝ) : EReal) := by
  simp [nNodes, Ideal.ofBits, Ideal.ieee, -EReal.coe_mul]; norm_num

/-- ε is a positive real number: a positive significand times a power of two. -/
theorem eps_pos : ∃ e : ℝ, 0 < e ∧ eps = (e : EReal) := by
  refine ⟨(((2 ^ 23 + 2606508 : ℕ) : ℝ)) * (2 : ℝ) ^ ((110 : ℤ) - 127 - 23), by positivity, ?_⟩
  simp [eps, Ideal.ofBits, Ideal.ieee, -EReal.coe_mul]

end Cert.Sage

end
-- ==== Proof.LibBlockSum.lean ====
/-
  Sums over rows cut into equal blocks.

  A table of B·R rows is processed block by block, R rows at a time, and a running total is kept: it starts from
  zero, takes the first block's sum, and then one more block's sum per step.  The two lemmas say that the sum over all
  rows is the sum over the blocks of the sums inside each block, and that the running total after step n is the sum of
  the blocks 0, …, n.  Both hold in any commutative additive monoid, so at infinite values too.
-/
import Idealize.ShloMosaic.PureOps.Ideal

open scoped BigOperators

namespace Cert.LibBlockSum

/-- Row r of block t, in a table of B blocks of R rows, is a row of the table: t·R + r < B·R. -/
theorem block_lt {B R : ℕ} (t : Fin B) (r : Fin R) : t.val * R + r.val < B * R :=
  calc t.val * R + r.val < t.val * R + R := Nat.add_lt_add_left r.isLt _
    _ = (t.val + 1) * R := (Nat.succ_mul _ _).symm
    _ ≤ B * R := Nat.mul_le_mul_right _ t.isLt

/-- A sum over B·R rows is the sum over the B blocks of the sums over the R rows inside each block, row r of block t
    being row t·R + r. -/
theorem sum_blocks {M : Type*} [AddCommMonoid M] (B R : ℕ) (f : Fin (B * R) → M) :
    ∑ i : Fin (B * R), f i = ∑ t : Fin B, ∑ r : Fin R, f ⟨t.val * R + r.val, block_lt t r⟩ := by
  rw [← Equiv.sum_comp finProdFinEquiv f, Fintype.sum_prod_type]
  refine Finset.sum_congr rfl fun t _ => Finset.sum_congr rfl fun r _ => congrArg f (Fin.ext ?_)
  show r.val + R * t.val = t.val * R + r.val
  rw [Nat.mul_comm, Nat.add_comm]

/-- The same for a function of the row's number. -/
theorem sum_blocks_nat {M : Type*} [AddCommMonoid M] (B R : ℕ) (f : ℕ → M) :
    ∑ i : Fin (B * R), f i.val = ∑ t : Fin B, ∑ r : Fin R, f (t.val * R + r.val) :=
  sum_blocks B R fun i => f i.val

/-- A running total that starts from zero plus block 0's sum and adds block k+1's sum at step k+1 holds, after step n,
    the sum of the blocks 0, …, n. -/
theorem acc_blocks {M : Type*} [AddCommMonoid M] (g : ℕ → M) :
    ∀ n, (Nat.rec (0 + g 0) (fun k acc => acc + g (k + 1)) n : M) = ∑ t ∈ Finset.range (n + 1), g t := by
  intro n
  induction n with
  | zero =>
    rw [Finset.sum_range_one]
    exact zero_add (g 0)
  | succ n ih =>
    show (Nat.rec (0 + g 0) (fun k acc => acc + g (k + 1)) n : M) + g (n + 1) = _
    rw [ih, Finset.sum_range_succ _ (n + 1)]

/-- A sum over the first B naturals is the sum over the B-element index type. -/
theorem sum_range_eq_fin {M : Type*} [AddCommMonoid M] (g : ℕ → M) (B : ℕ) :
    ∑ t ∈ Finset.range B, g t = ∑ t : Fin B, g t.val :=
  (Fin.sum_univ_eq_sum_range g B).symm

/-- So for a table of B + 1 blocks of R rows, with the blocks' sums g t = ∑ r, f (t·R + r), the running total after
    the last step, step B, is the sum over all (B + 1)·R rows. -/
theorem acc_all_rows {M : Type*} [AddCommMonoid M] (B R : ℕ) (f : ℕ → M) :
    (Nat.rec (0 + ∑ r : Fin R, f (0 * R + r.val)) (fun k acc => acc + ∑ r : Fin R, f ((k + 1) * R + r.val)) B : M)
      = ∑ i : Fin ((B + 1) * R), f i.val := by
  rw [acc_blocks (fun t => ∑ r : Fin R, f (t * R + r.val)) B, sum_range_eq_fin, sum_blocks_nat]

end Cert.LibBlockSum
-- ==== Proof.AlgebraStats.lean ====
/-
  The statistics of a column, computed in two ways.

  Summing inside each of the 20 tiles of 5000 rows, parking each tile's sum in row 0 of an 8-row block of zeros, and
  then adding up all the blocks gives the sum of the whole column: this is a regrouping of a finite sum, valid at
  infinite values too.  For a column of real numbers x with mean μ = Σ x / N over N entries,
      Σ (x - μ)² / N = Σ x² / N - μ²,
  and the left side is not negative, so the clipping of the right side at zero changes nothing.
-/
import proofs.«156231_j12695923327564_2_alg».proof.Proof.AlgebraConsts
import proofs.«156231_j12695923327564_2_alg».proof.Proof.AlgebraReal
import proofs.«156231_j12695923327564_2_alg».proof.Proof.LibBlockSum

noncomputable section

open scoped BigOperators

namespace Cert.Sage

open Idealize.ShloMosaic Idealize.ShloMosaic.ValueIdx

/-! ## Regrouping -/

/-- Of the 8 rows of a block only row 0 is not zero. -/
theorem sum_row0 (X : EReal) : ∑ s : Fin 8, (if s.val = 0 then X else 0) = X := by
  rw [Finset.sum_eq_single (0 : Fin 8)]
  · exact if_pos rfl
  · intro b _ hb
    exact if_neg fun h => hb (Fin.ext h)
  · intro h
    exact absurd (Finset.mem_univ _) h

/-- The total over the blocks of the tiles' sums is the sum of the whole column. -/
theorem colTotal_tileSums (L : Arr2 100000 128) (j : Fin 128) :
    colTotal (tileSums L) (ix1 j) = 0 + ∑ r : Fin 100000, L (ix2 r j) := by
  show 0 + ∑ t : Fin 20, ∑ s : Fin 8, (if s.val = 0 then ∑ r : Fin 5000, L (ix2 (tileRow t r) j) else 0) = _
  refine congrArg (fun z => (0 : EReal) + z) ?_
  refine (Finset.sum_congr rfl fun t _ => sum_row0 _).trans ?_
  exact (Cert.LibBlockSum.sum_blocks 20 5000 (fun i : Fin (20 * 5000) => L (ix2 i j))).symm

/-- So the two means are the same, whatever the values. -/
theorem meanK_eq (L : Arr2 100000 128) (j : Fin 128) : meanK (tileSums L) (ix2 0 j) = meanR L (ix1 j) := by
  show Ideal.div (colTotal (tileSums L) (ix1 j)) nNodes = Ideal.div (0 + ∑ r : Fin 100000, L (ix2 r j)) nNodes
  rw [colTotal_tileSums]

/-! ## The variance of a real column -/

/-- Over the reals: the mean of the squared deviations is the mean of the squares minus the squared mean. -/
theorem var_real {ι : Type*} [Fintype ι] (x : ι → ℝ) (N : ℝ) (hN : (Fintype.card ι : ℝ) = N) (h0 : N ≠ 0) :
    (∑ i, (x i - (∑ k, x k) * (1 / N)) * (x i - (∑ k, x k) * (1 / N))) * (1 / N)
      = (∑ i, x i * x i) * (1 / N) - ((∑ k, x k) * (1 / N)) * ((∑ k, x k) * (1 / N)) := by
  obtain ⟨S, hS⟩ : ∃ S, S = ∑ k, x k := ⟨_, rfl⟩
  rw [← hS]
  have h1 : ∀ i, (x i - S * (1 / N)) * (x i - S * (1 / N))
      = x i * x i - 2 * (S * (1 / N)) * x i + (S * (1 / N)) * (S * (1 / N)) := fun i => by ring
  have h2 : ∑ i, (x i - S * (1 / N)) * (x i - S * (1 / N))
      = (∑ i, x i * x i) - 2 * (S * (1 / N)) * S + N * ((S * (1 / N)) * (S * (1 / N))) := by
    rw [Finset.sum_congr rfl fun i _ => h1 i, Finset.sum_add_distrib, Finset.sum_sub_distrib, ← Finset.mul_sum,
      Finset.sum_const, Finset.card_univ, nsmul_eq_mul, hN, ← hS]
  rw [h2]
  field_simp
  ring

/-- The statistics of a column of N real numbers, both ways, are real numbers, the variance is not negative, and
    the two ways agree. -/
theorem stats_real {ι : Type*} [Fintype ι] (x : ι → ℝ) (N : ℝ) (hN : (Fintype.card ι : ℝ) = N) (h0 : N ≠ 0) :
    ∃ μ v : ℝ, 0 ≤ v ∧
      Ideal.div (0 + ∑ i, (x i : EReal)) (N : EReal) = (μ : EReal) ∧
      Ideal.div (0 + ∑ i, ((x i : EReal) - (μ : EReal)) * ((x i : EReal) - (μ : EReal))) (N : EReal) = (v : EReal) ∧
      max (Ideal.div (0 + ∑ i, (x i : EReal) * (x i : EReal)) (N : EReal) - (μ : EReal) * (μ : EReal)) 0
        = (v : EReal) := by
  have hpos : 0 < N := lt_of_le_of_ne (hN ▸ Nat.cast_nonneg _) (Ne.symm h0)
  refine ⟨(∑ k, x k) * (1 / N), (∑ i, (x i - (∑ k, x k) * (1 / N)) * (x i - (∑ k, x k) * (1 / N))) * (1 / N),
    ?_, ?_, ?_, ?_⟩
  · exact mul_nonneg (Finset.sum_nonneg fun i _ => mul_self_nonneg _) (le_of_lt (one_div_pos.mpr hpos))
  · rw [zero_add, ← coe_sum, div_real _ h0]
  · rw [zero_add]
    simp only [← EReal.coe_sub, ← EReal.coe_mul]
    rw [← coe_sum, div_real _ h0]
  · rw [zero_add]
    simp only [← EReal.coe_mul]
    rw [← coe_sum, div_real _ h0, ← EReal.coe_sub, ← var_real x N hN h0]
    refine max_eq_left (EReal.coe_nonneg.mpr ?_)
    exact mul_nonneg (Finset.sum_nonneg fun i _ => mul_self_nonneg _) (le_of_lt (one_div_pos.mpr hpos))

/-! ## The two ways on a real table -/

/-- For a real table, column j's mean and variance are real numbers μ and v ≥ 0, the same both ways. -/
theorem stats_col (L : Arr2 100000 128) (hL : IsReal L) (j : Fin 128) :
    ∃ μ v : ℝ, 0 ≤ v ∧ meanR L (ix1 j) = (μ : EReal) ∧ varR L (ix1 j) = (v : EReal) ∧
      meanK (tileSums L) (ix2 0 j) = (μ : EReal) ∧
      varK (tileSums L) (tileSums (sq L)) (ix2 0 j) = (v : EReal) := by
  choose f hf using hL
  obtain ⟨μ, v, hv, h1, h2, h3⟩ :=
    stats_real (fun r : Fin 100000 => f (ix2 r j)) 100000 (by simp) (by norm_num)
  have hmR : meanR L (ix1 j) = (μ : EReal) := by
    show Ideal.div (0 + ∑ r : Fin 100000, L (ix2 r j)) nNodes = (μ : EReal)
    rw [nNodes_eq]
    simp only [hf]
    exact h1
  have hmK : meanK (tileSums L) (ix2 0 j) = (μ : EReal) := (meanK_eq L j).trans hmR
  refine ⟨μ, v, hv, hmR, ?_, hmK, ?_⟩
  · show Ideal.div (0 + ∑ r : Fin 100000,
        (L (ix2 r j) - meanR L (ix1 j)) * (L (ix2 r j) - meanR L (ix1 j))) nNodes = (v : EReal)
    rw [hmR, nNodes_eq]
    simp only [hf]
    exact h2
  · show max (Ideal.div (colTotal (tileSums (sq L)) (ix1 j)) nNodes
        - meanK (tileSums L) (ix2 0 j) * meanK (tileSums L) (ix2 0 j)) 0 = (v : EReal)
    rw [colTotal_tileSums, hmK, nNodes_eq]
    simp only [sq, hf]
    exact h3

end Cert.Sage

end
-- ==== Proof.AlgebraBn.lean ====
/-
  The normalisation.  On a real table the two ways of taking a column's mean and variance agree, so the two
  normalised tables are the same; and the result is again a real table, because the variance is not negative and ε is
  positive, so that the reciprocal square root is taken of a positive real number.
-/
import proofs.«156231_j12695923327564_2_alg».proof.Proof.AlgebraStats

noncomputable section

open scoped BigOperators

namespace Cert.Sage

open Idealize.ShloMosaic Idealize.ShloMosaic.ValueIdx

/-- Clipping a real number at zero stays inside the reals. -/
theorem max_zero_real (x : ℝ) : max (x : EReal) 0 = ((max x 0 : ℝ) : EReal) := by
  rcases le_total x 0 with h | h
  · rw [max_eq_right h, max_eq_right (EReal.coe_nonpos.mpr h)]
    rfl
  · rw [max_eq_left h, max_eq_left (EReal.coe_nonneg.mpr h)]

/-- On a real table the tiled statistics normalise exactly as the whole-column ones. -/
theorem bnRelu_eq (L : Arr2 100000 128) (hL : IsReal L) (γ β : Arr1 128) :
    bnReluK L (meanK (tileSums L)) (varK (tileSums L) (tileSums (sq L))) (rowOf γ) (rowOf β) = bnReluR L γ β := by
  funext i
  obtain ⟨a, b, rfl⟩ : ∃ (a : Fin 100000) (b : Fin 128), i = ix2 a b := ⟨i 0, i 1, eq_ix2 i⟩
  obtain ⟨μ, v, _, hmR, hvR, hmK, hvK⟩ := stats_col L hL b
  show max ((((L (ix2 a b) - meanK (tileSums L) (ix2 0 b))
        * Ideal.rsqrt (varK (tileSums L) (tileSums (sq L)) (ix2 0 b) + eps)) * γ (ix1 b)) + β (ix1 b)) 0
      = max ((((L (ix2 a b) - meanR L (ix1 b)) * Ideal.rsqrt (varR L (ix1 b) + eps)) * γ (ix1 b)) + β (ix1 b)) 0
  rw [hmK, hvK, hmR, hvR]

/-- The normalised table of a real table with real scale and shift is real. -/
theorem bnReluR_real (L : Arr2 100000 128) (hL : IsReal L) (γ β : Arr1 128) (hγ : IsReal γ) (hβ : IsReal β) :
    IsReal (bnReluR L γ β) := by
  intro i
  obtain ⟨a, b, rfl⟩ : ∃ (a : Fin 100000) (b : Fin 128), i = ix2 a b := ⟨i 0, i 1, eq_ix2 i⟩
  obtain ⟨μ, v, hv, hmR, hvR, _, _⟩ := stats_col L hL b
  obtain ⟨e, he, hee⟩ := eps_pos
  obtain ⟨l, hl⟩ := hL (ix2 a b)
  obtain ⟨g, hg⟩ := hγ (ix1 b)
  obtain ⟨c, hc⟩ := hβ (ix1 b)
  have hpos : 0 < v + e := add_pos_of_nonneg_of_pos hv he
  refine ⟨max ((((l - μ) * (Real.sqrt (v + e))⁻¹) * g) + c) 0, ?_⟩
  show max ((((L (ix2 a b) - meanR L (ix1 b)) * Ideal.rsqrt (varR L (ix1 b) + eps)) * γ (ix1 b)) + β (ix1 b)) 0 = _
  rw [hmR, hvR, hee, hl, hg, hc, ← EReal.coe_add, Ideal.rsqrt_coe, if_neg (not_lt.mpr hpos.le), if_neg hpos.ne',
    ← EReal.coe_sub, ← EReal.coe_mul, ← EReal.coe_mul, ← EReal.coe_add, max_zero_real]

end Cert.Sage

end
-- ==== Proof.AlgebraNet.lean ====
/-
  The two networks are the same function of their inputs.

  Layer by layer: the linear parts agree entry by entry; on real inputs the linear part is a real table, so the two
  normalisations agree and give a real table again, which is the next layer's input.  The last layer is linear, with a
  bias row that is the bias vector read along its only axis.
-/
import proofs.«156231_j12695923327564_2_alg».proof.Proof.AlgebraLin
import proofs.«156231_j12695923327564_2_alg».proof.Proof.AlgebraBn

noncomputable section

open scoped BigOperators

namespace Cert.Sage

open Idealize.ShloMosaic Idealize.ShloMosaic.ValueIdx

/-- Adding the bias laid as a one-row table is adding the bias vector. -/
theorem addBias_eq (X : Arr2 100000 40) (b : Arr1 40) : addBiasK X (rowOf b) = addBiasR X b := by
  funext i
  rfl

/-- One normalised layer on a real input with real parameters: both ways give the same table, and it is real. -/
theorem layer_eq (A : Arr2 100000 128 → Arr2 100000 128) (hA : ∀ h, IsReal h → IsReal (A h))
    (d : Arr1 100000) (hd : ∀ i : Fin 100000, ∃ r : ℝ, r ≠ 0 ∧ d (ix1 i) = (r : EReal))
    (δ : Arr2 100000 1) (hδ : ∀ i : Fin 100000, δ (ix2 i 0) = Ideal.div 1 (d (ix1 i)))
    (h : Arr2 100000 128) (Ws Wn : Arr2 128 128) (γ β : Arr1 128)
    (hh : IsReal h) (hWs : IsReal Ws) (hWn : IsReal Wn) (hγ : IsReal γ) (hβ : IsReal β) :
    layerK A δ h Ws Wn γ β = layerR A d h Ws Wn γ β ∧ IsReal (layerR A d h Ws Wn γ β) := by
  have hL : IsReal (linR h (A h) d Ws Wn) := linR_real h (A h) d Ws Wn hh (hA h hh) hWs hWn hd
  refine ⟨?_, bnReluR_real _ hL γ β hγ hβ⟩
  unfold layerK layerR
  rw [linK_eq h (A h) δ d Ws Wn hd hδ]
  exact bnRelu_eq _ hL γ β

/-- The whole network. -/
theorem net_eq (A : Arr2 100000 128 → Arr2 100000 128) (hA : ∀ h, IsReal h → IsReal (A h))
    (d : Arr1 100000) (hd : ∀ i : Fin 100000, ∃ r : ℝ, r ≠ 0 ∧ d (ix1 i) = (r : EReal))
    (δ : Arr2 100000 1) (hδ : ∀ i : Fin 100000, δ (ix2 i 0) = Ideal.div 1 (d (ix1 i)))
    (feat : Arr2 100000 128) (Ws0 Wn0 : Arr2 128 128) (γ0 β0 : Arr1 128) (Ws1 Wn1 : Arr2 128 128) (γ1 β1 : Arr1 128)
    (Ws2 Wn2 : Arr2 128 40) (b2 : Arr1 40)
    (hfeat : IsReal feat) (hWs0 : IsReal Ws0) (hWn0 : IsReal Wn0) (hγ0 : IsReal γ0) (hβ0 : IsReal β0)
    (hWs1 : IsReal Ws1) (hWn1 : IsReal Wn1) (hγ1 : IsReal γ1) (hβ1 : IsReal β1)
    (hWs2 : IsReal Ws2) (hWn2 : IsReal Wn2) (hb2 : IsReal b2) :
    netK A δ feat Ws0 Wn0 γ0 β0 Ws1 Wn1 γ1 β1 Ws2 Wn2 b2 = netR A d feat Ws0 Wn0 γ0 β0 Ws1 Wn1 γ1 β1 Ws2 Wn2 b2 := by
  obtain ⟨e1, r1⟩ := layer_eq A hA d hd δ hδ feat Ws0 Wn0 γ0 β0 hfeat hWs0 hWn0 hγ0 hβ0
  obtain ⟨e2, _⟩ := layer_eq A hA d hd δ hδ (layerR A d feat Ws0 Wn0 γ0 β0) Ws1 Wn1 γ1 β1 r1 hWs1 hWn1 hγ1 hβ1
  unfold netK netR
  rw [e1, e2, linK_eq _ _ δ d Ws2 Wn2 hd hδ]
  exact addBias_eq _ b2

end Cert.Sage

end
-- ==== Proof.PreReal.lean ====
/-
  From the precondition to real entries.

  The precondition is the conjunction, over the twelve float inputs, of "every entry x has |x| < +∞".  At the extended
  reals |x| is max x (-x), which is below +∞ exactly when x is neither infinity, that is, when x is a real number.  A
  conjunction over a whole array that came out 1 had a 1 at every entry, and a conjunction of two bits is 1 only when
  both are; so each of the twelve inputs has only real entries.
-/
import proofs.«156231_j12695923327564_2_alg».proof.Defs
import proofs.«156231_j12695923327564_2_alg».proof.Proof.Spec
import Idealize.ShloMosaic.Lib.ReduceAll
import Idealize.ShloMosaic.PureOps.Ideal.Laws

noncomputable section

namespace Cert.Sage

open Idealize.ShloMosaic Idealize.ShloMosaic.ValueIdx Idealize.SL.Sem

/-- The shape with no axes has exactly one index. -/
instance subsingleton_noAxesIdx : Subsingleton Cert.Pre_finite_inputs.S_.Idx := ⟨fun a b => funext fun d => d.elim0⟩

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- If the conjunction over all entries of |x| < +∞ came out 1, every entry of x is a real number. -/
theorem isReal_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x) (broadcastInDim s ![] bc (constant (F := Ideal) Cert.Pre_finite_inputs.S_ .f32 0x7F800000#32)))
        (constantI Cert.Pre_finite_inputs.S_ 1 1#1) hr hu ix0 = 1#1) : IsReal x := by
  intro i
  have hi := Host.reduce_andi_all _ _ hr hu ix0 h i
  have htop : Ideal.ofBits .f32 0x7F800000#32 = ⊤ := by simp [Ideal.ofBits, Ideal.ieee]
  have hi' : Ideal.cmp .olt (max (x i) (-(x i))) (Ideal.ofBits .f32 0x7F800000#32) = 1#1 := hi
  rw [htop] at hi'
  unfold Ideal.cmp at hi'
  refine real_of_abs_lt_top (x i) ?_
  by_contra hn
  simp [hn] at hi'

/-- Under the precondition each of the twelve float inputs has only real entries, on every device. -/
theorem pre_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0))
      ∧ IsReal (m ((c.tc : Thread Cert.KernelIdeal.nD Cert.KernelIdeal.τ).loc Cert.KernelIdeal.main_arg3))
      ∧ IsReal (m ((c.tc : Thread Cert.KernelIdeal.nD Cert.KernelIdeal.τ).loc Cert.KernelIdeal.main_arg4))
      ∧ IsReal (m ((c.tc : Thread Cert.KernelIdeal.nD Cert.KernelIdeal.τ).loc Cert.KernelIdeal.main_arg5))
      ∧ IsReal (m ((c.tc : Thread Cert.KernelIdeal.nD Cert.KernelIdeal.τ).loc Cert.KernelIdeal.main_arg6))
      ∧ IsReal (m ((c.tc : Thread Cert.KernelIdeal.nD Cert.KernelIdeal.τ).loc Cert.KernelIdeal.main_arg7))
      ∧ IsReal (m ((c.tc : Thread Cert.KernelIdeal.nD Cert.KernelIdeal.τ).loc Cert.KernelIdeal.main_arg8))
      ∧ IsReal (m ((c.tc : Thread Cert.KernelIdeal.nD Cert.KernelIdeal.τ).loc Cert.KernelIdeal.main_arg9))
      ∧ IsReal (m ((c.tc : Thread Cert.KernelIdeal.nD Cert.KernelIdeal.τ).loc Cert.KernelIdeal.main_arg10))
      ∧ IsReal (m ((c.tc : Thread Cert.KernelIdeal.nD Cert.KernelIdeal.τ).loc Cert.KernelIdeal.main_arg11))
      ∧ IsReal (m ((c.tc : Thread Cert.KernelIdeal.nD Cert.KernelIdeal.τ).loc Cert.KernelIdeal.main_arg12))
      ∧ IsReal (m ((c.tc : Thread Cert.KernelIdeal.nD Cert.KernelIdeal.τ).loc Cert.KernelIdeal.main_arg13)) := by
  have h := congrFun (hpre c) ValueIdx.ix0
  dsimp only [Cert.Pre_finite_inputs.fn, Cert.Pre_finite_inputs.fn_part1, Cert.Pre_finite_inputs.fn_part2,
    Cert.Pre_finite_inputs.fn_part3] at h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h0, h3⟩ := IntOp.andi_eq_one.1 h
  exact ⟨isReal_of_all _ _ _ _ h0,
    isReal_of_all _ _ _ _ h3,
    isReal_of_all _ _ _ _ h4,
    isReal_of_all _ _ _ _ h5,
    isReal_of_all _ _ _ _ h6,
    isReal_of_all _ _ _ _ h7,
    isReal_of_all _ _ _ _ h8,
    isReal_of_all _ _ _ _ h9,
    isReal_of_all _ _ _ _ h10,
    isReal_of_all _ _ _ _ h11,
    isReal_of_all _ _ _ _ h12,
    isReal_of_all _ _ _ _ h13⟩

end Cert.Sage

end
-- ==== Proof.RefTerm.lean ====
/-
  The reference network's result written as one term over its inputs.

  Each definition composes, in order, the array operations of one stretch of the program: the aggregation of the
  neighbours' rows, the degree, the linear part, the normalisation with the statistics of whole columns, and the
  three layers.  The operations, the dimension records and the shape facts are the program's own, so that the value
  the program leaves in its last buffer is this term by unfolding alone.
-/
import proofs.«156231_j12695923327564_2_alg».proof.ReferenceIdeal
import proofs.«156231_j12695923327564_2_alg».proof.Proof.Spec
import proofs.«156231_j12695923327564_2_alg».proof.Proof.Agg

noncomputable section

namespace Cert.Sage.Ref

open Idealize.ShloMosaic
open Cert.ReferenceIdeal Cert.ReferenceIdeal.Facts₀

variable [Cert.ReferenceIdeal.Facts]

/-- Row i of the result is the sum of the rows of h at the (wrapped) sources of the edges that end in i:
    a negative source index has N added, the rows at the sources are gathered into an [E, 128] table, and that table
    is added row by row into a zero [N, 128] table at the destinations. -/
def aggT (src dst : IVec S800000 32) (h : FVec Ideal S100000x128 .f32) : FVec Ideal S100000x128 .f32 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 dst)
    (Host.gather gather_S100000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The number of edges that end in each node, at least 1: ones added into a zero vector at the destinations,
    then the maximum with 1. -/
def degT (dst : IVec S800000 32) : FVec Ideal S100000 .f32 :=
  maximumf (F := Ideal)
    (Host.scatterAdd (F := Ideal) scatter_S100000_S800000x1_S800000_n_0_0_1
      (broadcastInDim S100000 ![] bcast_S_S100000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S100000 ![] bcast_S_S100000 (constant (F := Ideal) S_ .f32 0x3F800000#32))

/-- h · Ws + (a / d) · Wn, the vector d laid as a column and repeated along the 128 columns before the division. -/
def linT (h a : FVec Ideal S100000x128 .f32) (d : FVec Ideal S100000 .f32) (Ws Wn : FVec Ideal S128x128 .f32) :
    FVec Ideal S100000x128 .f32 :=
  addf (F := Ideal)
    (Host.dotGeneral (F := Ideal) dot_S100000x128_S128x128_S100000x128_1_0_0_1_n_n none h Ws)
    (Host.dotGeneral (F := Ideal) dot_S100000x128_S128x128_S100000x128_1_0_0_1_n_n none
      (Host.divf (F := Ideal) a
        (broadcastInDim S100000x128 ![0, 1] bcast_S100000x1_S100000x128_0_1
          (broadcastInDim S100000x1 ![0] bcast_S100000_S100000x1_0 d)))
      Wn)

/-- The same with [128, 40] weights, for the last layer. -/
def linT40 (h a : FVec Ideal S100000x128 .f32) (d : FVec Ideal S100000 .f32) (Ws Wn : FVec Ideal S128x40 .f32) :
    FVec Ideal S100000x40 .f32 :=
  addf (F := Ideal)
    (Host.dotGeneral (F := Ideal) dot_S100000x128_S128x40_S100000x40_1_0_0_1_n_n none h Ws)
    (Host.dotGeneral (F := Ideal) dot_S100000x128_S128x40_S100000x40_1_0_0_1_n_n none
      (Host.divf (F := Ideal) a
        (broadcastInDim S100000x128 ![0, 1] bcast_S100000x1_S100000x128_0_1
          (broadcastInDim S100000x1 ![0] bcast_S100000_S100000x1_0 d)))
      Wn)

/-- A vector [128] laid as one row and repeated along the N rows. -/
def rowsT (x : FVec Ideal S128 .f32) : FVec Ideal S100000x128 .f32 :=
  broadcastInDim S100000x128 ![0, 1] bcast_S1x128_S100000x128_0_1 (broadcastInDim S1x128 ![1] bcast_S128_S1x128_1 x)

/-- The mean of each column: its sum from 0, divided by N. -/
def meanT (L : FVec Ideal S100000x128 .f32) : FVec Ideal S128 .f32 :=
  Host.divf (F := Ideal)
    (Host.reduceAdd (F := Ideal) L (constant (F := Ideal) S_ .f32 0x00000000#32) reducesTo_S100000x128_S128_d0 h_S_)
    (broadcastInDim S128 ![] bcast_S_S128 (constant (F := Ideal) S_ .f32 0x47C35000#32))

/-- The deviation of every entry from its column's mean. -/
def devT (L : FVec Ideal S100000x128 .f32) : FVec Ideal S100000x128 .f32 :=
  subf (F := Ideal) L (rowsT (meanT L))

/-- The mean of the squared deviations of each column. -/
def varT (L : FVec Ideal S100000x128 .f32) : FVec Ideal S128 .f32 :=
  Host.divf (F := Ideal)
    (Host.reduceAdd (F := Ideal) (mulf (F := Ideal) (devT L) (devT L)) (constant (F := Ideal) S_ .f32 0x00000000#32)
      reducesTo_S100000x128_S128_d0 h_S_)
    (broadcastInDim S128 ![] bcast_S_S128 (constant (F := Ideal) S_ .f32 0x47C35000#32))

/-- max (((L - μ) · rsqrt (v + ε)) · γ + β) 0 with the statistics of whole columns. -/
def bnT (L : FVec Ideal S100000x128 .f32) (γ β : FVec Ideal S128 .f32) : FVec Ideal S100000x128 .f32 :=
  maximumf (F := Ideal)
    (addf (F := Ideal)
      (mulf (F := Ideal)
        (mulf (F := Ideal) (devT L)
          (rowsT (Host.rsqrt (F := Ideal)
            (addf (F := Ideal) (varT L) (broadcastInDim S128 ![] bcast_S_S128 (constant (F := Ideal) S_ .f32 0x3727C5AC#32))))))
        (rowsT γ))
      (rowsT β))
    (broadcastInDim S100000x128 ![] bcast_S_S100000x128 (constant (F := Ideal) S_ .f32 0x00000000#32))

/-- One normalised layer. -/
def layerT (src dst : IVec S800000 32) (h : FVec Ideal S100000x128 .f32) (Ws Wn : FVec Ideal S128x128 .f32)
    (γ β : FVec Ideal S128 .f32) : FVec Ideal S100000x128 .f32 :=
  bnT (linT h (aggT src dst h) (degT dst) Ws Wn) γ β

/-- The three layers: two normalised ones, then a linear one with a bias row added. -/
def netT (src dst : IVec S800000 32) (feat : FVec Ideal S100000x128 .f32)
    (Ws0 Wn0 : FVec Ideal S128x128 .f32) (γ0 β0 : FVec Ideal S128 .f32)
    (Ws1 Wn1 : FVec Ideal S128x128 .f32) (γ1 β1 : FVec Ideal S128 .f32)
    (Ws2 Wn2 : FVec Ideal S128x40 .f32) (b2 : FVec Ideal S40 .f32) : FVec Ideal S100000x40 .f32 :=
  addf (F := Ideal)
    (linT40 (layerT src dst (layerT src dst feat Ws0 Wn0 γ0 β0) Ws1 Wn1 γ1 β1)
      (aggT src dst (layerT src dst (layerT src dst feat Ws0 Wn0 γ0 β0) Ws1 Wn1 γ1 β1)) (degT dst) Ws2 Wn2)
    (broadcastInDim S100000x40 ![0, 1] bcast_S1x40_S100000x40_0_1 (broadcastInDim S1x40 ![1] bcast_S40_S1x40_1 b2))

end Cert.Sage.Ref

end
-- ==== Proof.RefLayout.lean ====
/-
  Array layouts read at an index given by coordinates, beside the library's forms: a column [a, 1] repeated along b
  columns reads its entry p at (p, c); a vector [n] laid as one row [1, n] reads its entry t at (u, t).  And the two
  host operations that act entry by entry at the extended reals: the division and the reciprocal square root.
-/
import Idealize.ShloMosaic.Lib.KernelVsHost
import Idealize.ShloMosaic.Lib.IdealHost

noncomputable section

namespace Cert.Sage.Ref

open Idealize.ShloMosaic Idealize.ShloMosaic.ValueIdx

/-! ## Layouts read at an index -/

section Layout
variable {α : Type}

/-- A column [a, 1] repeated along b columns reads, at (p, c), the column's entry p. -/
theorem broadcastInDim_colRep_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  fin_cases ax
  · show p.val = if a = 1 then 0 else p.val
    split_ifs with hn
    · have := p.isLt; omega
    · rfl
  · show (0 : ℕ) = if (1 : ℕ) = 1 then 0 else _
    simp

/-- A vector [n] laid as one row [1, n] reads, at (u, t), the vector's entry t. -/
theorem broadcastInDim_asRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) ?_
  intro ax
  fin_cases ax
  show t.val = if n = 1 then 0 else t.val
  split_ifs with hn
  · have := t.isLt; omega
  · rfl

end Layout

/-- The host's division is entrywise the division of the extended reals. -/
theorem hostDivf_apply {s : Shape} (a b : FVec Ideal s .f32) (i : s.Idx) :
    Host.divf (F := Ideal) a b i = Ideal.div (a i) (b i) := rfl

/-- The host's reciprocal square root is entrywise. -/
theorem hostRsqrt_apply {s : Shape} (a : FVec Ideal s .f32) (i : s.Idx) :
    Host.rsqrt (F := Ideal) a i = Ideal.rsqrt (a i) := rfl

end Cert.Sage.Ref

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.RefLin.lean ====
/-
  The linear part of a layer, read entry by entry.

  At (r, j) a plain product is the sum over the contracted coordinate k of the products of the entries (r, k) and
  (k, j).  The degree vector is laid as a column and repeated along the 128 columns before the division, so the
  divided table holds a (r, k) / d r at (r, k).  Together: the program's h · Ws + (a / d) · Wn is, at every index,
  the two sums the specification writes.
-/
import proofs.«156231_j12695923327564_2_alg».proof.Proof.RefTerm
import proofs.«156231_j12695923327564_2_alg».proof.Proof.RefLayout
import proofs.«156231_j12695923327564_2_alg».proof.Proof.LibTileMatmul
import proofs.«156231_j12695923327564_2_alg».proof.Proof.LibScatterRows

noncomputable section

open scoped BigOperators

namespace Cert.Sage.Ref

open Idealize.ShloMosaic Idealize.ShloMosaic.ValueIdx
open Cert.ReferenceIdeal Cert.ReferenceIdeal.Facts₀

variable [Cert.ReferenceIdeal.Facts]

/-! ## The linear part -/

/-- The [N, 128] × [128, 128] product at (r, j). -/
theorem dot128_apply (A : FVec Ideal S100000x128 .f32) (B : FVec Ideal S128x128 .f32) (r : Fin 100000) (j : Fin 128) :
    Host.dotGeneral (F := Ideal) dot_S100000x128_S128x128_S100000x128_1_0_0_1_n_n none A B (ix2 r j)
      = ∑ k : Fin 128, A (ix2 r k) * B (ix2 k j) :=
  TileMatmul.dotGeneral_apply dot_S100000x128_S128x128_S100000x128_1_0_0_1_n_n_wf none A B r j

/-- The [N, 128] × [128, 40] product at (r, j). -/
theorem dot40_apply (A : FVec Ideal S100000x128 .f32) (B : FVec Ideal S128x40 .f32) (r : Fin 100000) (j : Fin 40) :
    Host.dotGeneral (F := Ideal) dot_S100000x128_S128x40_S100000x40_1_0_0_1_n_n none A B (ix2 r j)
      = ∑ k : Fin 128, A (ix2 r k) * B (ix2 k j) :=
  TileMatmul.dotGeneral_apply dot_S100000x128_S128x40_S100000x40_1_0_0_1_n_n_wf none A B r j

/-- The table a divided by the degree column repeated along the 128 columns, at (r, k): a (r, k) / d r. -/
theorem divcol_apply (a : FVec Ideal S100000x128 .f32) (d : FVec Ideal S100000 .f32) (r : Fin 100000) (k : Fin 128) :
    Host.divf (F := Ideal) a
        (broadcastInDim S100000x128 ![0, 1] bcast_S100000x1_S100000x128_0_1
          (broadcastInDim S100000x1 ![0] bcast_S100000_S100000x1_0 d)) (ix2 r k)
      = Ideal.div (a (ix2 r k)) (d (ix1 r)) := by
  rw [hostDivf_apply, broadcastInDim_colRep_apply, Cert.Lib.ScatterRows.broadcastInDim_col_apply]

theorem linT_eq (h a : FVec Ideal S100000x128 .f32) (d : FVec Ideal S100000 .f32) (Ws Wn : FVec Ideal S128x128 .f32) :
    linT h a d Ws Wn = linR h a d Ws Wn := by
  funext i
  obtain ⟨r, j, rfl⟩ : ∃ (r : Fin 100000) (j : Fin 128), i = ix2 r j := ⟨i 0, i 1, eq_ix2 i⟩
  unfold linT
  rw [addf_apply, dot128_apply, dot128_apply]
  show _ = linRAt h a d Ws Wn r j
  unfold linRAt
  refine congrArg (fun z => (∑ k : Fin 128, h (ix2 r k) * Ws (ix2 k j)) + z) (Finset.sum_congr rfl fun k _ => ?_)
  rw [divcol_apply]

theorem linT40_eq (h a : FVec Ideal S100000x128 .f32) (d : FVec Ideal S100000 .f32) (Ws Wn : FVec Ideal S128x40 .f32) :
    linT40 h a d Ws Wn = linR h a d Ws Wn := by
  funext i
  obtain ⟨r, j, rfl⟩ : ∃ (r : Fin 100000) (j : Fin 40), i = ix2 r j := ⟨i 0, i 1, eq_ix2 i⟩
  unfold linT40
  rw [addf_apply, dot40_apply, dot40_apply]
  show _ = linRAt h a d Ws Wn r j
  unfold linRAt
  refine congrArg (fun z => (∑ k : Fin 128, h (ix2 r k) * Ws (ix2 k j)) + z) (Finset.sum_congr rfl fun k _ => ?_)
  rw [divcol_apply]

end Cert.Sage.Ref

end
-- ==== Proof.RefNorm.lean ====
/-
  The normalisation of a layer, read entry by entry.

  The sum over axis 0 of an [N, 128] table, taken from the zero word, is at column j the sum over the N rows of the
  entries (r, j): the index lifted from j with r on the dropped axis is (r, j).  Dividing by the word of N gives the
  column's mean; the deviations are taken from that mean laid along every row; the variance is the mean of their
  squares.  With the scale and the shift laid along every row too, and the zero word of the final maximum read as 0,
  the program's term is the specification's max (((L - μ) · rsqrt (v + ε)) · γ + β) 0 at every index.
-/
import proofs.«156231_j12695923327564_2_alg».proof.Proof.RefTerm
import proofs.«156231_j12695923327564_2_alg».proof.Proof.RefLayout
import Idealize.ShloMosaic.PureOps.Ideal.Laws

noncomputable section

open scoped BigOperators

namespace Cert.Sage.Ref

open Idealize.ShloMosaic Idealize.ShloMosaic.ValueIdx
open Cert.ReferenceIdeal Cert.ReferenceIdeal.Facts₀

variable [Cert.ReferenceIdeal.Facts]

/-! ## The normalisation -/

/-- The sum of column j over all N rows, from the zero word. -/
theorem colsum_apply (L : FVec Ideal S100000x128 .f32) (j : Fin 128) :
    Host.reduceAdd (F := Ideal) L (constant (F := Ideal) S_ .f32 0x00000000#32) reducesTo_S100000x128_S128_d0 h_S_ (ix1 j)
      = 0 + ∑ r : Fin 100000, L (ix2 r j) := by
  have hR : S100000x128.Reduces [0] S128 := by decide
  rw [hostReduceAdd_apply, Ideal.hostReduceAdd_single reducesTo_S100000x128_S128_d0 hR, constant_apply,
    Ideal.ofBits_zero_f32]
  refine congrArg (fun z => (0 : EReal) + z) (Finset.sum_congr rfl fun r _ => congrArg L ?_)
  funext c
  apply Fin.ext
  match c with
  | ⟨0, _⟩ => rfl
  | ⟨1, _⟩ => rfl

/-- A vector laid as one row and repeated along the rows reads, at (r, j), its entry j. -/
theorem rowsT_apply (x : FVec Ideal S128 .f32) (r : Fin 100000) (j : Fin 128) : rowsT x (ix2 r j) = x (ix1 j) := by
  unfold rowsT
  rw [broadcastInDim_oneRow_apply, broadcastInDim_asRow_apply]

theorem meanT_apply (L : FVec Ideal S100000x128 .f32) (j : Fin 128) : meanT L (ix1 j) = meanR L (ix1 j) := by
  unfold meanT
  rw [hostDivf_apply, colsum_apply, broadcastInDim_scalar_apply, constant_apply]
  rfl

theorem meanT_eq (L : FVec Ideal S100000x128 .f32) : meanT L = meanR L := by
  funext i
  rw [eq_ix1 i]
  exact meanT_apply L (i 0)

/-- The deviation at (r, j). -/
theorem devT_apply (L : FVec Ideal S100000x128 .f32) (r : Fin 100000) (j : Fin 128) :
    devT L (ix2 r j) = L (ix2 r j) - meanR L (ix1 j) := by
  unfold devT
  rw [subf_apply, rowsT_apply, meanT_apply]

theorem varT_apply (L : FVec Ideal S100000x128 .f32) (j : Fin 128) : varT L (ix1 j) = varR L (ix1 j) := by
  unfold varT
  rw [hostDivf_apply, colsum_apply, broadcastInDim_scalar_apply, constant_apply]
  simp only [mulf_apply, devT_apply]
  rfl

theorem varT_eq (L : FVec Ideal S100000x128 .f32) : varT L = varR L := by
  funext i
  rw [eq_ix1 i]
  exact varT_apply L (i 0)

theorem bnT_eq (L : FVec Ideal S100000x128 .f32) (γ β : FVec Ideal S128 .f32) : bnT L γ β = bnReluR L γ β := by
  funext i
  obtain ⟨r, j, rfl⟩ : ∃ (r : Fin 100000) (j : Fin 128), i = ix2 r j := ⟨i 0, i 1, eq_ix2 i⟩
  unfold bnT
  rw [maximumf_apply, addf_apply, mulf_apply, mulf_apply, devT_apply, rowsT_apply, rowsT_apply, rowsT_apply,
    hostRsqrt_apply, addf_apply, varT_apply, broadcastInDim_scalar_apply, constant_apply,
    broadcastInDim_scalar_apply, constant_apply, Ideal.ofBits_zero_f32]
  rfl

end Cert.Sage.Ref

end
-- ==== Proof.RefRead.lean ====
/-
  The reference network's term is the specification's whole-column network.

  The aggregation and the degree are spelt with the same operations on both sides, so they agree by unfolding.  A
  normalised layer is the normalisation of the linear part of the aggregated rows, and the last layer adds the bias
  vector, laid along every row, to a linear part with [128, 40] weights: rewriting each piece by its reading gives the
  specification's network over the program's own aggregation map and degree vector.
-/
import proofs.«156231_j12695923327564_2_alg».proof.Proof.RefLin
import proofs.«156231_j12695923327564_2_alg».proof.Proof.RefNorm

noncomputable section

namespace Cert.Sage.Ref

open Idealize.ShloMosaic Idealize.ShloMosaic.ValueIdx
open Cert.ReferenceIdeal Cert.ReferenceIdeal.Facts₀

variable [Cert.ReferenceIdeal.Facts]

/-! ## The layers -/

theorem aggT_eq (src dst : IVec S800000 32) (h : FVec Ideal S100000x128 .f32) :
    aggT src dst h = aggOf gather_S100000x128_S800000x1_S800000x128_1_0_n_n_0_1_1128
      scatter_S100000x128_S800000x1_S800000x128_1_0_0_1 bcast_S_S800000 bcast_S800000_S800000x1_0 bcast_S_S100000x128
      src dst h := rfl

theorem degT_eq (dst : IVec S800000 32) :
    degT dst = degOf scatter_S100000_S800000x1_S800000_n_0_0_1 bcast_S_S800000 bcast_S800000_S800000x1_0
      bcast_S_S100000 dst := rfl

theorem layerT_eq (src dst : IVec S800000 32) (h : FVec Ideal S100000x128 .f32) (Ws Wn : FVec Ideal S128x128 .f32)
    (γ β : FVec Ideal S128 .f32) :
    layerT src dst h Ws Wn γ β
      = layerR (aggOf gather_S100000x128_S800000x1_S800000x128_1_0_n_n_0_1_1128
          scatter_S100000x128_S800000x1_S800000x128_1_0_0_1 bcast_S_S800000 bcast_S800000_S800000x1_0
          bcast_S_S100000x128 src dst)
        (degOf scatter_S100000_S800000x1_S800000_n_0_0_1 bcast_S_S800000 bcast_S800000_S800000x1_0 bcast_S_S100000 dst)
        h Ws Wn γ β := by
  unfold layerT layerR
  rw [bnT_eq, linT_eq, aggT_eq, degT_eq]

/-- The bias vector laid as one row and repeated along the rows, added entrywise. -/
theorem biasT_eq (X : FVec Ideal S100000x40 .f32) (b : FVec Ideal S40 .f32) :
    addf (F := Ideal) X
        (broadcastInDim S100000x40 ![0, 1] bcast_S1x40_S100000x40_0_1 (broadcastInDim S1x40 ![1] bcast_S40_S1x40_1 b))
      = addBiasR X b := by
  funext i
  obtain ⟨r, j, rfl⟩ : ∃ (r : Fin 100000) (j : Fin 40), i = ix2 r j := ⟨i 0, i 1, eq_ix2 i⟩
  rw [addf_apply, broadcastInDim_oneRow_apply, broadcastInDim_asRow_apply]
  rfl

theorem netT_eq (src dst : IVec S800000 32) (feat : FVec Ideal S100000x128 .f32)
    (Ws0 Wn0 : FVec Ideal S128x128 .f32) (γ0 β0 : FVec Ideal S128 .f32)
    (Ws1 Wn1 : FVec Ideal S128x128 .f32) (γ1 β1 : FVec Ideal S128 .f32)
    (Ws2 Wn2 : FVec Ideal S128x40 .f32) (b2 : FVec Ideal S40 .f32) :
    netT src dst feat Ws0 Wn0 γ0 β0 Ws1 Wn1 γ1 β1 Ws2 Wn2 b2
      = netR (aggOf gather_S100000x128_S800000x1_S800000x128_1_0_n_n_0_1_1128
          scatter_S100000x128_S800000x1_S800000x128_1_0_0_1 bcast_S_S800000 bcast_S800000_S800000x1_0
          bcast_S_S100000x128 src dst)
        (degOf scatter_S100000_S800000x1_S800000_n_0_0_1 bcast_S_S800000 bcast_S800000_S800000x1_0 bcast_S_S100000 dst)
        feat Ws0 Wn0 γ0 β0 Ws1 Wn1 γ1 β1 Ws2 Wn2 b2 := by
  unfold netT netR
  rw [biasT_eq, linT40_eq, layerT_eq, layerT_eq, aggT_eq, degT_eq]

end Cert.Sage.Ref

end
-- ==== Proof.RefRun.lean ====
/-
  The reference's run read back, stretch by stretch: every weakly fair execution ends with the result buffer at the network
  of the arguments, as one folded term, and the arguments unchanged.

  The mathematics. The reference computes three layers over the N nodes. A layer reads the node table h, the two edge
  lists and its parameters, and runs, in this order: (A) the rows of h at the edges' sources added into the rows at their
  destinations; (B) the number of edges that end in each node, at least 1; (C) h · Ws + (A h / d) · Wn; then, for the
  first two layers, (D) the mean and the variance of every column of that table and (E) the normalisation with them, the
  scale and the shift rows and the clip at zero; for the last layer, (F) a bias row added. Every operation writes a
  buffer of its own, once, and no operation writes an argument. So what a stretch leaves in the buffer of its last
  operation is a function of what the buffers held, before the stretch, that it reads and does not write; every buffer it
  does not write holds what it held. Running a stretch after another is running the second from the valuation the first
  leaves, and these two kinds of facts, instantiated there, compose: five stretches into a layer, three layers into the
  network. Each stretch's term is one of the reference's layer terms applied to buffer contents, so the composition never
  opens a term: it only rewrites.
-/
import proofs.«156231_j12695923327564_2_alg».proof.Proof.RefOps
import proofs.«156231_j12695923327564_2_alg».proof.Proof.RefTerm
import Idealize.ShloMosaic.Lib.StableHlo.Run
import Idealize.ShloMosaic.Lib.Pipeline.Frame

noncomputable section

namespace Cert.Sage.Ref

open Cert.ReferenceIdeal Cert.ReferenceIdeal.Facts₀ Idealize.ShloMosaic Idealize.ShloMosaic.TcCoe Idealize.SL.Sem Idealize.ShloMosaic.StableHlo

variable [Cert.ReferenceIdeal.Facts]

variable {F : FTy → Type} [FloatOps F]

/-! ## Every operation touches TensorCore buffers only and determines its result -/

theorem subA0 : (opsA0 (F := F)).Forall fun op => op.bufs ⊆ tcRefs τ sig := by
  unfold opsA0
  exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem freshA0 : (opsA0 (F := F)).Forall fun op => op.fresh = ∅ := by
  unfold opsA0
  exact ⟨rfl, rfl, rfl, rfl, rfl, rfl, rfl, rfl, rfl, rfl, rfl, rfl, rfl⟩

theorem subB0 : (opsB0 (F := F)).Forall fun op => op.bufs ⊆ tcRefs τ sig := by
  unfold opsB0
  exact ⟨nullary_bufs_sub .., unary_bufs_sub .., nullary_bufs_sub .., unary_bufs_sub .., unary_bufs_sub .., ternary_bufs_sub .., nullary_bufs_sub .., unary_bufs_sub .., binary_bufs_sub ..⟩
theorem freshB0 : (opsB0 (F := F)).Forall fun op => op.fresh = ∅ := by
  unfold opsB0
  exact ⟨rfl, rfl, rfl, rfl, rfl, rfl, rfl, rfl, rfl⟩

theorem subC0 : (opsC0 (F := F)).Forall fun op => op.bufs ⊆ tcRefs τ sig := by
  unfold opsC0
  exact ⟨unary_bufs_sub .., unary_bufs_sub .., binary_bufs_sub .., binary_bufs_sub .., binary_bufs_sub .., binary_bufs_sub ..⟩
theorem freshC0 : (opsC0 (F := F)).Forall fun op => op.fresh = ∅ := by
  unfold opsC0
  exact ⟨rfl, rfl, rfl, rfl, rfl, rfl⟩

theorem subD0 : (opsD0 (F := F)).Forall fun op => op.bufs ⊆ tcRefs τ sig := by
  unfold opsD0
  exact ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem freshD0 : (opsD0 (F := F)).Forall fun op => op.fresh = ∅ := by
  unfold opsD0
  exact ⟨rfl, rfl, rfl, rfl, rfl, rfl, rfl, rfl, rfl, rfl, rfl, rfl, rfl, rfl⟩

theorem subE0 : (opsE0 (F := F)).Forall fun op => op.bufs ⊆ tcRefs τ sig := by
  unfold opsE0
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem freshE0 : (opsE0 (F := F)).Forall fun op => op.fresh = ∅ := by
  unfold opsE0
  exact ⟨rfl, rfl, rfl, rfl, rfl, rfl, rfl, rfl, rfl, rfl, rfl, rfl, rfl, rfl, rfl, rfl, rfl, rfl, rfl⟩

theorem subA1 : (opsA1 (F := F)).Forall fun op => op.bufs ⊆ tcRefs τ sig := by
  unfold opsA1
  exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem freshA1 : (opsA1 (F := F)).Forall fun op => op.fresh = ∅ := by
  unfold opsA1
  exact ⟨rfl, rfl, rfl, rfl, rfl, rfl, rfl, rfl, rfl, rfl, rfl, rfl, rfl⟩

theorem subB1 : (opsB1 (F := F)).Forall fun op => op.bufs ⊆ tcRefs τ sig := by
  unfold opsB1
  exact ⟨nullary_bufs_sub .., unary_bufs_sub .., nullary_bufs_sub .., unary_bufs_sub .., unary_bufs_sub .., ternary_bufs_sub .., nullary_bufs_sub .., unary_bufs_sub .., binary_bufs_sub ..⟩
theorem freshB1 : (opsB1 (F := F)).Forall fun op => op.fresh = ∅ := by
  unfold opsB1
  exact ⟨rfl, rfl, rfl, rfl, rfl, rfl, rfl, rfl, rfl⟩

theorem subC1 : (opsC1 (F := F)).Forall fun op => op.bufs ⊆ tcRefs τ sig := by
  unfold opsC1
  exact ⟨unary_bufs_sub .., unary_bufs_sub .., binary_bufs_sub .., binary_bufs_sub .., binary_bufs_sub .., binary_bufs_sub ..⟩
theorem freshC1 : (opsC1 (F := F)).Forall fun op => op.fresh = ∅ := by
  unfold opsC1
  exact ⟨rfl, rfl, rfl, rfl, rfl, rfl⟩

theorem subD1 : (opsD1 (F := F)).Forall fun op => op.bufs ⊆ tcRefs τ sig := by
  unfold opsD1
  exact ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem freshD1 : (opsD1 (F := F)).Forall fun op => op.fresh = ∅ := by
  unfold opsD1
  exact ⟨rfl, rfl, rfl, rfl, rfl, rfl, rfl, rfl, rfl, rfl, rfl, rfl, rfl, rfl⟩

theorem subE1 : (opsE1 (F := F)).Forall fun op => op.bufs ⊆ tcRefs τ sig := by
  unfold opsE1
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem freshE1 : (opsE1 (F := F)).Forall fun op => op.fresh = ∅ := by
  unfold opsE1
  exact ⟨rfl, rfl, rfl, rfl, rfl, rfl, rfl, rfl, rfl, rfl, rfl, rfl, rfl, rfl, rfl, rfl, rfl, rfl, rfl⟩

theorem subA2 : (opsA2 (F := F)).Forall fun op => op.bufs ⊆ tcRefs τ sig := by
  unfold opsA2
  exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem freshA2 : (opsA2 (F := F)).Forall fun op => op.fresh = ∅ := by
  unfold opsA2
  exact ⟨rfl, rfl, rfl, rfl, rfl, rfl, rfl, rfl, rfl, rfl, rfl, rfl, rfl⟩

theorem subB2 : (opsB2 (F := F)).Forall fun op => op.bufs ⊆ tcRefs τ sig := by
  unfold opsB2
  exact ⟨nullary_bufs_sub .., unary_bufs_sub .., nullary_bufs_sub .., unary_bufs_sub .., unary_bufs_sub .., ternary_bufs_sub .., nullary_bufs_sub .., unary_bufs_sub .., binary_bufs_sub ..⟩
theorem freshB2 : (opsB2 (F := F)).Forall fun op => op.fresh = ∅ := by
  unfold opsB2
  exact ⟨rfl, rfl, rfl, rfl, rfl, rfl, rfl, rfl, rfl⟩

theorem subC2 : (opsC2 (F := F)).Forall fun op => op.bufs ⊆ tcRefs τ sig := by
  unfold opsC2
  exact ⟨unary_bufs_sub .., unary_bufs_sub .., binary_bufs_sub .., binary_bufs_sub .., binary_bufs_sub .., binary_bufs_sub ..⟩
theorem freshC2 : (opsC2 (F := F)).Forall fun op => op.fresh = ∅ := by
  unfold opsC2
  exact ⟨rfl, rfl, rfl, rfl, rfl, rfl⟩

theorem subF2 : (opsF2 (F := F)).Forall fun op => op.bufs ⊆ tcRefs τ sig := by
  unfold opsF2
  exact ⟨unary_bufs_sub .., unary_bufs_sub .., binary_bufs_sub ..⟩
theorem freshF2 : (opsF2 (F := F)).Forall fun op => op.fresh = ∅ := by
  unfold opsF2
  exact ⟨rfl, rfl, rfl⟩

/-! ## The two terms a stretch leaves that the reference's layer terms do not name -/

/-- The normalisation and the clip at zero with the column statistics as ARGUMENTS: the term the last stretch of a
    normalised layer leaves, before the statistics are known to be those of the linear part. -/
def bnX (L : FVec Ideal S100000x128 .f32) (μ v γ β : FVec Ideal S128 .f32) : FVec Ideal S100000x128 .f32 :=
  maximumf (F := Ideal)
    (addf (F := Ideal)
      (mulf (F := Ideal)
        (mulf (F := Ideal) (subf (F := Ideal) L (rowsT μ))
          (rowsT (Host.rsqrt (F := Ideal)
            (addf (F := Ideal) v (broadcastInDim S128 ![] bcast_S_S128 (constant (F := Ideal) S_ .f32 0x3727C5AC#32))))))
        (rowsT γ))
      (rowsT β))
    (broadcastInDim S100000x128 ![] bcast_S_S100000x128 (constant (F := Ideal) S_ .f32 0x00000000#32))

/-- With the mean and the variance of L itself it is the normalised layer's term. -/
theorem bnT_stats (L : FVec Ideal S100000x128 .f32) (γ β : FVec Ideal S128 .f32) :
    bnT L γ β = bnX L (meanT L) (varT L) γ β := rfl

/-- A bias row [40] laid as one row, repeated along the N rows and added. -/
def biasT (L : FVec Ideal S100000x40 .f32) (b : FVec Ideal S40 .f32) : FVec Ideal S100000x40 .f32 :=
  addf (F := Ideal) L
    (broadcastInDim S100000x40 ![0, 1] bcast_S1x40_S100000x40_0_1 (broadcastInDim S1x40 ![1] bcast_S40_S1x40_1 b))

/-- The network is two normalised layers, then the linear layer of their result with its bias. -/
theorem netT_bias (src dst : IVec S800000 32) (feat : FVec Ideal S100000x128 .f32)
    (Ws0 Wn0 : FVec Ideal S128x128 .f32) (γ0 β0 : FVec Ideal S128 .f32)
    (Ws1 Wn1 : FVec Ideal S128x128 .f32) (γ1 β1 : FVec Ideal S128 .f32)
    (Ws2 Wn2 : FVec Ideal S128x40 .f32) (b2 : FVec Ideal S40 .f32) :
    netT src dst feat Ws0 Wn0 γ0 β0 Ws1 Wn1 γ1 β1 Ws2 Wn2 b2
      = biasT (linT40 (layerT src dst (layerT src dst feat Ws0 Wn0 γ0 β0) Ws1 Wn1 γ1 β1)
          (aggT src dst (layerT src dst (layerT src dst feat Ws0 Wn0 γ0 β0) Ws1 Wn1 γ1 β1)) (degT dst) Ws2 Wn2) b2 := rfl

/-! ## Layer 0

What each stretch leaves in the buffer of its last operation, as a function of what an arbitrary valuation holds in the
buffers the stretch reads and does not write; and that the buffers a later stretch still reads are left as they were. -/

theorem readA0 (W : Valuation τ sig (Elt Ideal)) :
    after (opsA0 (F := Ideal)) W (Proc.devRef .tc main_v9) = aggT (W (Proc.devRef .tc main_arg1)) (W (Proc.devRef .tc main_arg2)) (W (Proc.devRef .tc main_arg0)) := by
  unfold opsA0
  after_results_simp
  rfl
theorem keepA0_arg0 (W : Valuation τ sig (Elt Ideal)) :
    after (opsA0 (F := Ideal)) W (Proc.devRef .tc main_arg0) = W (Proc.devRef .tc main_arg0) := by
  unfold opsA0
  after_results_simp
theorem keepA0_arg2 (W : Valuation τ sig (Elt Ideal)) :
    after (opsA0 (F := Ideal)) W (Proc.devRef .tc main_arg2) = W (Proc.devRef .tc main_arg2) := by
  unfold opsA0
  after_results_simp
theorem keepA0_arg3 (W : Valuation τ sig (Elt Ideal)) :
    after (opsA0 (F := Ideal)) W (Proc.devRef .tc main_arg3) = W (Proc.devRef .tc main_arg3) := by
  unfold opsA0
  after_results_simp
theorem keepA0_arg4 (W : Valuation τ sig (Elt Ideal)) :
    after (opsA0 (F := Ideal)) W (Proc.devRef .tc main_arg4) = W (Proc.devRef .tc main_arg4) := by
  unfold opsA0
  after_results_simp
theorem keepA0_arg5 (W : Valuation τ sig (Elt Ideal)) :
    after (opsA0 (F := Ideal)) W (Proc.devRef .tc main_arg5) = W (Proc.devRef .tc main_arg5) := by
  unfold opsA0
  after_results_simp
theorem keepA0_arg6 (W : Valuation τ sig (Elt Ideal)) :
    after (opsA0 (F := Ideal)) W (Proc.devRef .tc main_arg6) = W (Proc.devRef .tc main_arg6) := by
  unfold opsA0
  after_results_simp
theorem readB0 (W : Valuation τ sig (Elt Ideal)) :
    after (opsB0 (F := Ideal)) W (Proc.devRef .tc main_v15) = degT (W (Proc.devRef .tc main_arg2)) := by
  unfold opsB0
  after_results_simp
  rfl
theorem keepB0_arg0 (W : Valuation τ sig (Elt Ideal)) :
    after (opsB0 (F := Ideal)) W (Proc.devRef .tc main_arg0) = W (Proc.devRef .tc main_arg0) := by
  unfold opsB0
  after_results_simp
theorem keepB0_v9 (W : Valuation τ sig (Elt Ideal)) :
    after (opsB0 (F := Ideal)) W (Proc.devRef .tc main_v9) = W (Proc.devRef .tc main_v9) := by
  unfold opsB0
  after_results_simp
theorem keepB0_arg3 (W : Valuation τ sig (Elt Ideal)) :
    after (opsB0 (F := Ideal)) W (Proc.devRef .tc main_arg3) = W (Proc.devRef .tc main_arg3) := by
  unfold opsB0
  after_results_simp
theorem keepB0_arg4 (W : Valuation τ sig (Elt Ideal)) :
    after (opsB0 (F := Ideal)) W (Proc.devRef .tc main_arg4) = W (Proc.devRef .tc main_arg4) := by
  unfold opsB0
  after_results_simp
theorem keepB0_arg5 (W : Valuation τ sig (Elt Ideal)) :
    after (opsB0 (F := Ideal)) W (Proc.devRef .tc main_arg5) = W (Proc.devRef .tc main_arg5) := by
  unfold opsB0
  after_results_simp
theorem keepB0_arg6 (W : Valuation τ sig (Elt Ideal)) :
    after (opsB0 (F := Ideal)) W (Proc.devRef .tc main_arg6) = W (Proc.devRef .tc main_arg6) := by
  unfold opsB0
  after_results_simp
theorem readC0 (W : Valuation τ sig (Elt Ideal)) :
    after (opsC0 (F := Ideal)) W (Proc.devRef .tc main_v21) = linT (W (Proc.devRef .tc main_arg0)) (W (Proc.devRef .tc main_v9)) (W (Proc.devRef .tc main_v15)) (W (Proc.devRef .tc main_arg3)) (W (Proc.devRef .tc main_arg4)) := by
  unfold opsC0
  after_results_simp
  rfl
theorem keepC0_arg5 (W : Valuation τ sig (Elt Ideal)) :
    after (opsC0 (F := Ideal)) W (Proc.devRef .tc main_arg5) = W (Proc.devRef .tc main_arg5) := by
  unfold opsC0
  after_results_simp
theorem keepC0_arg6 (W : Valuation τ sig (Elt Ideal)) :
    after (opsC0 (F := Ideal)) W (Proc.devRef .tc main_arg6) = W (Proc.devRef .tc main_arg6) := by
  unfold opsC0
  after_results_simp
theorem readDm0 (W : Valuation τ sig (Elt Ideal)) :
    after (opsD0 (F := Ideal)) W (Proc.devRef .tc main_v24) = meanT (W (Proc.devRef .tc main_v21)) := by
  unfold opsD0
  after_results_simp
  rfl
theorem readDv0 (W : Valuation τ sig (Elt Ideal)) :
    after (opsD0 (F := Ideal)) W (Proc.devRef .tc main_v31) = varT (W (Proc.devRef .tc main_v21)) := by
  unfold opsD0
  after_results_simp
  rfl
theorem keepD0_v21 (W : Valuation τ sig (Elt Ideal)) :
    after (opsD0 (F := Ideal)) W (Proc.devRef .tc main_v21) = W (Proc.devRef .tc main_v21) := by
  unfold opsD0
  after_results_simp
theorem keepD0_arg5 (W : Valuation τ sig (Elt Ideal)) :
    after (opsD0 (F := Ideal)) W (Proc.devRef .tc main_arg5) = W (Proc.devRef .tc main_arg5) := by
  unfold opsD0
  after_results_simp
theorem keepD0_arg6 (W : Valuation τ sig (Elt Ideal)) :
    after (opsD0 (F := Ideal)) W (Proc.devRef .tc main_arg6) = W (Proc.devRef .tc main_arg6) := by
  unfold opsD0
  after_results_simp
theorem readE0 (W : Valuation τ sig (Elt Ideal)) :
    after (opsE0 (F := Ideal)) W (Proc.devRef .tc main_v47) = bnX (W (Proc.devRef .tc main_v21)) (W (Proc.devRef .tc main_v24)) (W (Proc.devRef .tc main_v31)) (W (Proc.devRef .tc main_arg5)) (W (Proc.devRef .tc main_arg6)) := by
  unfold opsE0
  after_results_simp
  try simp only [TRef.toBuf, TRef.ofBuf, cast_eq, id]
  rfl

/-- Layer 0 leaves, in its last buffer, one normalised layer of what the valuation held in its input and parameter
    buffers: the five stretches composed, the statistics recognised as those of the linear part. -/
theorem readL0 (W : Valuation τ sig (Elt Ideal)) :
    after (opsL0 (F := Ideal)) W (Proc.devRef .tc main_v47) = layerT (W (Proc.devRef .tc main_arg1)) (W (Proc.devRef .tc main_arg2)) (W (Proc.devRef .tc main_arg0)) (W (Proc.devRef .tc main_arg3)) (W (Proc.devRef .tc main_arg4)) (W (Proc.devRef .tc main_arg5)) (W (Proc.devRef .tc main_arg6)) := by
  unfold opsL0
  simp only [after_append]
  rw [readE0, keepD0_v21, readDm0, readDv0, keepD0_arg5, keepD0_arg6]
  rw [readC0, keepC0_arg5, keepC0_arg6]
  rw [readB0, keepB0_arg0, keepB0_v9, keepB0_arg3, keepB0_arg4, keepB0_arg5, keepB0_arg6]
  rw [readA0, keepA0_arg0, keepA0_arg2, keepA0_arg3, keepA0_arg4, keepA0_arg5, keepA0_arg6]
  rw [layerT, bnT_stats]

/-! ## Layer 1

What each stretch leaves in the buffer of its last operation, as a function of what an arbitrary valuation holds in the
buffers the stretch reads and does not write; and that the buffers a later stretch still reads are left as they were. -/

theorem readA1 (W : Valuation τ sig (Elt Ideal)) :
    after (opsA1 (F := Ideal)) W (Proc.devRef .tc main_v57) = aggT (W (Proc.devRef .tc main_arg1)) (W (Proc.devRef .tc main_arg2)) (W (Proc.devRef .tc main_v47)) := by
  unfold opsA1
  after_results_simp
  rfl
theorem keepA1_v47 (W : Valuation τ sig (Elt Ideal)) :
    after (opsA1 (F := Ideal)) W (Proc.devRef .tc main_v47) = W (Proc.devRef .tc main_v47) := by
  unfold opsA1
  after_results_simp
theorem keepA1_arg2 (W : Valuation τ sig (Elt Ideal)) :
    after (opsA1 (F := Ideal)) W (Proc.devRef .tc main_arg2) = W (Proc.devRef .tc main_arg2) := by
  unfold opsA1
  after_results_simp
theorem keepA1_arg7 (W : Valuation τ sig (Elt Ideal)) :
    after (opsA1 (F := Ideal)) W (Proc.devRef .tc main_arg7) = W (Proc.devRef .tc main_arg7) := by
  unfold opsA1
  after_results_simp
theorem keepA1_arg8 (W : Valuation τ sig (Elt Ideal)) :
    after (opsA1 (F := Ideal)) W (Proc.devRef .tc main_arg8) = W (Proc.devRef .tc main_arg8) := by
  unfold opsA1
  after_results_simp
theorem keepA1_arg9 (W : Valuation τ sig (Elt Ideal)) :
    after (opsA1 (F := Ideal)) W (Proc.devRef .tc main_arg9) = W (Proc.devRef .tc main_arg9) := by
  unfold opsA1
  after_results_simp
theorem keepA1_arg10 (W : Valuation τ sig (Elt Ideal)) :
    after (opsA1 (F := Ideal)) W (Proc.devRef .tc main_arg10) = W (Proc.devRef .tc main_arg10) := by
  unfold opsA1
  after_results_simp
theorem readB1 (W : Valuation τ sig (Elt Ideal)) :
    after (opsB1 (F := Ideal)) W (Proc.devRef .tc main_v63) = degT (W (Proc.devRef .tc main_arg2)) := by
  unfold opsB1
  after_results_simp
  rfl
theorem keepB1_v47 (W : Valuation τ sig (Elt Ideal)) :
    after (opsB1 (F := Ideal)) W (Proc.devRef .tc main_v47) = W (Proc.devRef .tc main_v47) := by
  unfold opsB1
  after_results_simp
theorem keepB1_v57 (W : Valuation τ sig (Elt Ideal)) :
    after (opsB1 (F := Ideal)) W (Proc.devRef .tc main_v57) = W (Proc.devRef .tc main_v57) := by
  unfold opsB1
  after_results_simp
theorem keepB1_arg7 (W : Valuation τ sig (Elt Ideal)) :
    after (opsB1 (F := Ideal)) W (Proc.devRef .tc main_arg7) = W (Proc.devRef .tc main_arg7) := by
  unfold opsB1
  after_results_simp
theorem keepB1_arg8 (W : Valuation τ sig (Elt Ideal)) :
    after (opsB1 (F := Ideal)) W (Proc.devRef .tc main_arg8) = W (Proc.devRef .tc main_arg8) := by
  unfold opsB1
  after_results_simp
theorem keepB1_arg9 (W : Valuation τ sig (Elt Ideal)) :
    after (opsB1 (F := Ideal)) W (Proc.devRef .tc main_arg9) = W (Proc.devRef .tc main_arg9) := by
  unfold opsB1
  after_results_simp
theorem keepB1_arg10 (W : Valuation τ sig (Elt Ideal)) :
    after (opsB1 (F := Ideal)) W (Proc.devRef .tc main_arg10) = W (Proc.devRef .tc main_arg10) := by
  unfold opsB1
  after_results_simp
theorem readC1 (W : Valuation τ sig (Elt Ideal)) :
    after (opsC1 (F := Ideal)) W (Proc.devRef .tc main_v69) = linT (W (Proc.devRef .tc main_v47)) (W (Proc.devRef .tc main_v57)) (W (Proc.devRef .tc main_v63)) (W (Proc.devRef .tc main_arg7)) (W (Proc.devRef .tc main_arg8)) := by
  unfold opsC1
  after_results_simp
  rfl
theorem keepC1_arg9 (W : Valuation τ sig (Elt Ideal)) :
    after (opsC1 (F := Ideal)) W (Proc.devRef .tc main_arg9) = W (Proc.devRef .tc main_arg9) := by
  unfold opsC1
  after_results_simp
theorem keepC1_arg10 (W : Valuation τ sig (Elt Ideal)) :
    after (opsC1 (F := Ideal)) W (Proc.devRef .tc main_arg10) = W (Proc.devRef .tc main_arg10) := by
  unfold opsC1
  after_results_simp
theorem readDm1 (W : Valuation τ sig (Elt Ideal)) :
    after (opsD1 (F := Ideal)) W (Proc.devRef .tc main_v72) = meanT (W (Proc.devRef .tc main_v69)) := by
  unfold opsD1
  after_results_simp
  rfl
theorem readDv1 (W : Valuation τ sig (Elt Ideal)) :
    after (opsD1 (F := Ideal)) W (Proc.devRef .tc main_v79) = varT (W (Proc.devRef .tc main_v69)) := by
  unfold opsD1
  after_results_simp
  rfl
theorem keepD1_v69 (W : Valuation τ sig (Elt Ideal)) :
    after (opsD1 (F := Ideal)) W (Proc.devRef .tc main_v69) = W (Proc.devRef .tc main_v69) := by
  unfold opsD1
  after_results_simp
theorem keepD1_arg9 (W : Valuation τ sig (Elt Ideal)) :
    after (opsD1 (F := Ideal)) W (Proc.devRef .tc main_arg9) = W (Proc.devRef .tc main_arg9) := by
  unfold opsD1
  after_results_simp
theorem keepD1_arg10 (W : Valuation τ sig (Elt Ideal)) :
    after (opsD1 (F := Ideal)) W (Proc.devRef .tc main_arg10) = W (Proc.devRef .tc main_arg10) := by
  unfold opsD1
  after_results_simp
theorem readE1 (W : Valuation τ sig (Elt Ideal)) :
    after (opsE1 (F := Ideal)) W (Proc.devRef .tc main_v95) = bnX (W (Proc.devRef .tc main_v69)) (W (Proc.devRef .tc main_v72)) (W (Proc.devRef .tc main_v79)) (W (Proc.devRef .tc main_arg9)) (W (Proc.devRef .tc main_arg10)) := by
  unfold opsE1
  after_results_simp
  try simp only [TRef.toBuf, TRef.ofBuf, cast_eq, id]
  rfl

/-- Layer 1 leaves, in its last buffer, one normalised layer of what the valuation held in its input and parameter
    buffers: the five stretches composed, the statistics recognised as those of the linear part. -/
theorem readL1 (W : Valuation τ sig (Elt Ideal)) :
    after (opsL1 (F := Ideal)) W (Proc.devRef .tc main_v95) = layerT (W (Proc.devRef .tc main_arg1)) (W (Proc.devRef .tc main_arg2)) (W (Proc.devRef .tc main_v47)) (W (Proc.devRef .tc main_arg7)) (W (Proc.devRef .tc main_arg8)) (W (Proc.devRef .tc main_arg9)) (W (Proc.devRef .tc main_arg10)) := by
  unfold opsL1
  simp only [after_append]
  rw [readE1, keepD1_v69, readDm1, readDv1, keepD1_arg9, keepD1_arg10]
  rw [readC1, keepC1_arg9, keepC1_arg10]
  rw [readB1, keepB1_v47, keepB1_v57, keepB1_arg7, keepB1_arg8, keepB1_arg9, keepB1_arg10]
  rw [readA1, keepA1_v47, keepA1_arg2, keepA1_arg7, keepA1_arg8, keepA1_arg9, keepA1_arg10]
  rw [layerT, bnT_stats]

/-! ## Layer 2

What each stretch leaves in the buffer of its last operation, as a function of what an arbitrary valuation holds in the
buffers the stretch reads and does not write; and that the buffers a later stretch still reads are left as they were. -/

theorem readA2 (W : Valuation τ sig (Elt Ideal)) :
    after (opsA2 (F := Ideal)) W (Proc.devRef .tc main_v105) = aggT (W (Proc.devRef .tc main_arg1)) (W (Proc.devRef .tc main_arg2)) (W (Proc.devRef .tc main_v95)) := by
  unfold opsA2
  after_results_simp
  rfl
theorem keepA2_v95 (W : Valuation τ sig (Elt Ideal)) :
    after (opsA2 (F := Ideal)) W (Proc.devRef .tc main_v95) = W (Proc.devRef .tc main_v95) := by
  unfold opsA2
  after_results_simp
theorem keepA2_arg2 (W : Valuation τ sig (Elt Ideal)) :
    after (opsA2 (F := Ideal)) W (Proc.devRef .tc main_arg2) = W (Proc.devRef .tc main_arg2) := by
  unfold opsA2
  after_results_simp
theorem keepA2_arg11 (W : Valuation τ sig (Elt Ideal)) :
    after (opsA2 (F := Ideal)) W (Proc.devRef .tc main_arg11) = W (Proc.devRef .tc main_arg11) := by
  unfold opsA2
  after_results_simp
theorem keepA2_arg12 (W : Valuation τ sig (Elt Ideal)) :
    after (opsA2 (F := Ideal)) W (Proc.devRef .tc main_arg12) = W (Proc.devRef .tc main_arg12) := by
  unfold opsA2
  after_results_simp
theorem keepA2_arg13 (W : Valuation τ sig (Elt Ideal)) :
    after (opsA2 (F := Ideal)) W (Proc.devRef .tc main_arg13) = W (Proc.devRef .tc main_arg13) := by
  unfold opsA2
  after_results_simp
theorem readB2 (W : Valuation τ sig (Elt Ideal)) :
    after (opsB2 (F := Ideal)) W (Proc.devRef .tc main_v111) = degT (W (Proc.devRef .tc main_arg2)) := by
  unfold opsB2
  after_results_simp
  rfl
theorem keepB2_v95 (W : Valuation τ sig (Elt Ideal)) :
    after (opsB2 (F := Ideal)) W (Proc.devRef .tc main_v95) = W (Proc.devRef .tc main_v95) := by
  unfold opsB2
  after_results_simp
theorem keepB2_v105 (W : Valuation τ sig (Elt Ideal)) :
    after (opsB2 (F := Ideal)) W (Proc.devRef .tc main_v105) = W (Proc.devRef .tc main_v105) := by
  unfold opsB2
  after_results_simp
theorem keepB2_arg11 (W : Valuation τ sig (Elt Ideal)) :
    after (opsB2 (F := Ideal)) W (Proc.devRef .tc main_arg11) = W (Proc.devRef .tc main_arg11) := by
  unfold opsB2
  after_results_simp
theorem keepB2_arg12 (W : Valuation τ sig (Elt Ideal)) :
    after (opsB2 (F := Ideal)) W (Proc.devRef .tc main_arg12) = W (Proc.devRef .tc main_arg12) := by
  unfold opsB2
  after_results_simp
theorem keepB2_arg13 (W : Valuation τ sig (Elt Ideal)) :
    after (opsB2 (F := Ideal)) W (Proc.devRef .tc main_arg13) = W (Proc.devRef .tc main_arg13) := by
  unfold opsB2
  after_results_simp
theorem readC2 (W : Valuation τ sig (Elt Ideal)) :
    after (opsC2 (F := Ideal)) W (Proc.devRef .tc main_v117) = linT40 (W (Proc.devRef .tc main_v95)) (W (Proc.devRef .tc main_v105)) (W (Proc.devRef .tc main_v111)) (W (Proc.devRef .tc main_arg11)) (W (Proc.devRef .tc main_arg12)) := by
  unfold opsC2
  after_results_simp
  rfl
theorem keepC2_arg13 (W : Valuation τ sig (Elt Ideal)) :
    after (opsC2 (F := Ideal)) W (Proc.devRef .tc main_arg13) = W (Proc.devRef .tc main_arg13) := by
  unfold opsC2
  after_results_simp
theorem readF2 (W : Valuation τ sig (Elt Ideal)) :
    after (opsF2 (F := Ideal)) W (Proc.devRef .tc main_v120) = biasT (W (Proc.devRef .tc main_v117)) (W (Proc.devRef .tc main_arg13)) := by
  unfold opsF2
  after_results_simp
  rfl

/-- Layer 2 leaves, in the result buffer, the linear layer with its bias of what the valuation held in its input and
    parameter buffers. -/
theorem readL2 (W : Valuation τ sig (Elt Ideal)) :
    after (opsL2 (F := Ideal)) W (Proc.devRef .tc main_v120) = biasT (linT40 (W (Proc.devRef .tc main_v95)) (aggT (W (Proc.devRef .tc main_arg1)) (W (Proc.devRef .tc main_arg2)) (W (Proc.devRef .tc main_v95))) (degT (W (Proc.devRef .tc main_arg2))) (W (Proc.devRef .tc main_arg11)) (W (Proc.devRef .tc main_arg12))) (W (Proc.devRef .tc main_arg13)) := by
  unfold opsL2
  simp only [after_append]
  rw [readF2]
  rw [readC2, keepC2_arg13]
  rw [readB2, keepB2_v95, keepB2_v105, keepB2_arg11, keepB2_arg12, keepB2_arg13]
  rw [readA2, keepA2_v95, keepA2_arg2, keepA2_arg11, keepA2_arg12, keepA2_arg13]

/-! ## No layer writes an argument -/

theorem keepL0_arg0 (W : Valuation τ sig (Elt Ideal)) :
    after (opsL0 (F := Ideal)) W (Proc.devRef .tc main_arg0) = W (Proc.devRef .tc main_arg0) := by
  unfold opsL0 opsA0 opsB0 opsC0 opsD0 opsE0
  simp only [List.cons_append, List.nil_append]
  after_results_simp
theorem keepL0_arg1 (W : Valuation τ sig (Elt Ideal)) :
    after (opsL0 (F := Ideal)) W (Proc.devRef .tc main_arg1) = W (Proc.devRef .tc main_arg1) := by
  unfold opsL0 opsA0 opsB0 opsC0 opsD0 opsE0
  simp only [List.cons_append, List.nil_append]
  after_results_simp
theorem keepL0_arg2 (W : Valuation τ sig (Elt Ideal)) :
    after (opsL0 (F := Ideal)) W (Proc.devRef .tc main_arg2) = W (Proc.devRef .tc main_arg2) := by
  unfold opsL0 opsA0 opsB0 opsC0 opsD0 opsE0
  simp only [List.cons_append, List.nil_append]
  after_results_simp
theorem keepL0_arg3 (W : Valuation τ sig (Elt Ideal)) :
    after (opsL0 (F := Ideal)) W (Proc.devRef .tc main_arg3) = W (Proc.devRef .tc main_arg3) := by
  unfold opsL0 opsA0 opsB0 opsC0 opsD0 opsE0
  simp only [List.cons_append, List.nil_append]
  after_results_simp
theorem keepL0_arg4 (W : Valuation τ sig (Elt Ideal)) :
    after (opsL0 (F := Ideal)) W (Proc.devRef .tc main_arg4) = W (Proc.devRef .tc main_arg4) := by
  unfold opsL0 opsA0 opsB0 opsC0 opsD0 opsE0
  simp only [List.cons_append, List.nil_append]
  after_results_simp
theorem keepL0_arg5 (W : Valuation τ sig (Elt Ideal)) :
    after (opsL0 (F := Ideal)) W (Proc.devRef .tc main_arg5) = W (Proc.devRef .tc main_arg5) := by
  unfold opsL0 opsA0 opsB0 opsC0 opsD0 opsE0
  simp only [List.cons_append, List.nil_append]
  after_results_simp
theorem keepL0_arg6 (W : Valuation τ sig (Elt Ideal)) :
    after (opsL0 (F := Ideal)) W (Proc.devRef .tc main_arg6) = W (Proc.devRef .tc main_arg6) := by
  unfold opsL0 opsA0 opsB0 opsC0 opsD0 opsE0
  simp only [List.cons_append, List.nil_append]
  after_results_simp
theorem keepL0_arg7 (W : Valuation τ sig (Elt Ideal)) :
    after (opsL0 (F := Ideal)) W (Proc.devRef .tc main_arg7) = W (Proc.devRef .tc main_arg7) := by
  unfold opsL0 opsA0 opsB0 opsC0 opsD0 opsE0
  simp only [List.cons_append, List.nil_append]
  after_results_simp
theorem keepL0_arg8 (W : Valuation τ sig (Elt Ideal)) :
    after (opsL0 (F := Ideal)) W (Proc.devRef .tc main_arg8) = W (Proc.devRef .tc main_arg8) := by
  unfold opsL0 opsA0 opsB0 opsC0 opsD0 opsE0
  simp only [List.cons_append, List.nil_append]
  after_results_simp
theorem keepL0_arg9 (W : Valuation τ sig (Elt Ideal)) :
    after (opsL0 (F := Ideal)) W (Proc.devRef .tc main_arg9) = W (Proc.devRef .tc main_arg9) := by
  unfold opsL0 opsA0 opsB0 opsC0 opsD0 opsE0
  simp only [List.cons_append, List.nil_append]
  after_results_simp
theorem keepL0_arg10 (W : Valuation τ sig (Elt Ideal)) :
    after (opsL0 (F := Ideal)) W (Proc.devRef .tc main_arg10) = W (Proc.devRef .tc main_arg10) := by
  unfold opsL0 opsA0 opsB0 opsC0 opsD0 opsE0
  simp only [List.cons_append, List.nil_append]
  after_results_simp
theorem keepL0_arg11 (W : Valuation τ sig (Elt Ideal)) :
    after (opsL0 (F := Ideal)) W (Proc.devRef .tc main_arg11) = W (Proc.devRef .tc main_arg11) := by
  unfold opsL0 opsA0 opsB0 opsC0 opsD0 opsE0
  simp only [List.cons_append, List.nil_append]
  after_results_simp
theorem keepL0_arg12 (W : Valuation τ sig (Elt Ideal)) :
    after (opsL0 (F := Ideal)) W (Proc.devRef .tc main_arg12) = W (Proc.devRef .tc main_arg12) := by
  unfold opsL0 opsA0 opsB0 opsC0 opsD0 opsE0
  simp only [List.cons_append, List.nil_append]
  after_results_simp
theorem keepL0_arg13 (W : Valuation τ sig (Elt Ideal)) :
    after (opsL0 (F := Ideal)) W (Proc.devRef .tc main_arg13) = W (Proc.devRef .tc main_arg13) := by
  unfold opsL0 opsA0 opsB0 opsC0 opsD0 opsE0
  simp only [List.cons_append, List.nil_append]
  after_results_simp
theorem keepL1_arg0 (W : Valuation τ sig (Elt Ideal)) :
    after (opsL1 (F := Ideal)) W (Proc.devRef .tc main_arg0) = W (Proc.devRef .tc main_arg0) := by
  unfold opsL1 opsA1 opsB1 opsC1 opsD1 opsE1
  simp only [List.cons_append, List.nil_append]
  after_results_simp
theorem keepL1_arg1 (W : Valuation τ sig (Elt Ideal)) :
    after (opsL1 (F := Ideal)) W (Proc.devRef .tc main_arg1) = W (Proc.devRef .tc main_arg1) := by
  unfold opsL1 opsA1 opsB1 opsC1 opsD1 opsE1
  simp only [List.cons_append, List.nil_append]
  after_results_simp
theorem keepL1_arg2 (W : Valuation τ sig (Elt Ideal)) :
    after (opsL1 (F := Ideal)) W (Proc.devRef .tc main_arg2) = W (Proc.devRef .tc main_arg2) := by
  unfold opsL1 opsA1 opsB1 opsC1 opsD1 opsE1
  simp only [List.cons_append, List.nil_append]
  after_results_simp
theorem keepL1_arg3 (W : Valuation τ sig (Elt Ideal)) :
    after (opsL1 (F := Ideal)) W (Proc.devRef .tc main_arg3) = W (Proc.devRef .tc main_arg3) := by
  unfold opsL1 opsA1 opsB1 opsC1 opsD1 opsE1
  simp only [List.cons_append, List.nil_append]
  after_results_simp
theorem keepL1_arg4 (W : Valuation τ sig (Elt Ideal)) :
    after (opsL1 (F := Ideal)) W (Proc.devRef .tc main_arg4) = W (Proc.devRef .tc main_arg4) := by
  unfold opsL1 opsA1 opsB1 opsC1 opsD1 opsE1
  simp only [List.cons_append, List.nil_append]
  after_results_simp
theorem keepL1_arg5 (W : Valuation τ sig (Elt Ideal)) :
    after (opsL1 (F := Ideal)) W (Proc.devRef .tc main_arg5) = W (Proc.devRef .tc main_arg5) := by
  unfold opsL1 opsA1 opsB1 opsC1 opsD1 opsE1
  simp only [List.cons_append, List.nil_append]
  after_results_simp
theorem keepL1_arg6 (W : Valuation τ sig (Elt Ideal)) :
    after (opsL1 (F := Ideal)) W (Proc.devRef .tc main_arg6) = W (Proc.devRef .tc main_arg6) := by
  unfold opsL1 opsA1 opsB1 opsC1 opsD1 opsE1
  simp only [List.cons_append, List.nil_append]
  after_results_simp
theorem keepL1_arg7 (W : Valuation τ sig (Elt Ideal)) :
    after (opsL1 (F := Ideal)) W (Proc.devRef .tc main_arg7) = W (Proc.devRef .tc main_arg7) := by
  unfold opsL1 opsA1 opsB1 opsC1 opsD1 opsE1
  simp only [List.cons_append, List.nil_append]
  after_results_simp
theorem keepL1_arg8 (W : Valuation τ sig (Elt Ideal)) :
    after (opsL1 (F := Ideal)) W (Proc.devRef .tc main_arg8) = W (Proc.devRef .tc main_arg8) := by
  unfold opsL1 opsA1 opsB1 opsC1 opsD1 opsE1
  simp only [List.cons_append, List.nil_append]
  after_results_simp
theorem keepL1_arg9 (W : Valuation τ sig (Elt Ideal)) :
    after (opsL1 (F := Ideal)) W (Proc.devRef .tc main_arg9) = W (Proc.devRef .tc main_arg9) := by
  unfold opsL1 opsA1 opsB1 opsC1 opsD1 opsE1
  simp only [List.cons_append, List.nil_append]
  after_results_simp
theorem keepL1_arg10 (W : Valuation τ sig (Elt Ideal)) :
    after (opsL1 (F := Ideal)) W (Proc.devRef .tc main_arg10) = W (Proc.devRef .tc main_arg10) := by
  unfold opsL1 opsA1 opsB1 opsC1 opsD1 opsE1
  simp only [List.cons_append, List.nil_append]
  after_results_simp
theorem keepL1_arg11 (W : Valuation τ sig (Elt Ideal)) :
    after (opsL1 (F := Ideal)) W (Proc.devRef .tc main_arg11) = W (Proc.devRef .tc main_arg11) := by
  unfold opsL1 opsA1 opsB1 opsC1 opsD1 opsE1
  simp only [List.cons_append, List.nil_append]
  after_results_simp
theorem keepL1_arg12 (W : Valuation τ sig (Elt Ideal)) :
    after (opsL1 (F := Ideal)) W (Proc.devRef .tc main_arg12) = W (Proc.devRef .tc main_arg12) := by
  unfold opsL1 opsA1 opsB1 opsC1 opsD1 opsE1
  simp only [List.cons_append, List.nil_append]
  after_results_simp
theorem keepL1_arg13 (W : Valuation τ sig (Elt Ideal)) :
    after (opsL1 (F := Ideal)) W (Proc.devRef .tc main_arg13) = W (Proc.devRef .tc main_arg13) := by
  unfold opsL1 opsA1 opsB1 opsC1 opsD1 opsE1
  simp only [List.cons_append, List.nil_append]
  after_results_simp
theorem keepL2_arg0 (W : Valuation τ sig (Elt Ideal)) :
    after (opsL2 (F := Ideal)) W (Proc.devRef .tc main_arg0) = W (Proc.devRef .tc main_arg0) := by
  unfold opsL2 opsA2 opsB2 opsC2 opsF2
  simp only [List.cons_append, List.nil_append]
  after_results_simp
theorem keepL2_arg1 (W : Valuation τ sig (Elt Ideal)) :
    after (opsL2 (F := Ideal)) W (Proc.devRef .tc main_arg1) = W (Proc.devRef .tc main_arg1) := by
  unfold opsL2 opsA2 opsB2 opsC2 opsF2
  simp only [List.cons_append, List.nil_append]
  after_results_simp
theorem keepL2_arg2 (W : Valuation τ sig (Elt Ideal)) :
    after (opsL2 (F := Ideal)) W (Proc.devRef .tc main_arg2) = W (Proc.devRef .tc main_arg2) := by
  unfold opsL2 opsA2 opsB2 opsC2 opsF2
  simp only [List.cons_append, List.nil_append]
  after_results_simp
theorem keepL2_arg3 (W : Valuation τ sig (Elt Ideal)) :
    after (opsL2 (F := Ideal)) W (Proc.devRef .tc main_arg3) = W (Proc.devRef .tc main_arg3) := by
  unfold opsL2 opsA2 opsB2 opsC2 opsF2
  simp only [List.cons_append, List.nil_append]
  after_results_simp
theorem keepL2_arg4 (W : Valuation τ sig (Elt Ideal)) :
    after (opsL2 (F := Ideal)) W (Proc.devRef .tc main_arg4) = W (Proc.devRef .tc main_arg4) := by
  unfold opsL2 opsA2 opsB2 opsC2 opsF2
  simp only [List.cons_append, List.nil_append]
  after_results_simp
theorem keepL2_arg5 (W : Valuation τ sig (Elt Ideal)) :
    after (opsL2 (F := Ideal)) W (Proc.devRef .tc main_arg5) = W (Proc.devRef .tc main_arg5) := by
  unfold opsL2 opsA2 opsB2 opsC2 opsF2
  simp only [List.cons_append, List.nil_append]
  after_results_simp
theorem keepL2_arg6 (W : Valuation τ sig (Elt Ideal)) :
    after (opsL2 (F := Ideal)) W (Proc.devRef .tc main_arg6) = W (Proc.devRef .tc main_arg6) := by
  unfold opsL2 opsA2 opsB2 opsC2 opsF2
  simp only [List.cons_append, List.nil_append]
  after_results_simp
theorem keepL2_arg7 (W : Valuation τ sig (Elt Ideal)) :
    after (opsL2 (F := Ideal)) W (Proc.devRef .tc main_arg7) = W (Proc.devRef .tc main_arg7) := by
  unfold opsL2 opsA2 opsB2 opsC2 opsF2
  simp only [List.cons_append, List.nil_append]
  after_results_simp
theorem keepL2_arg8 (W : Valuation τ sig (Elt Ideal)) :
    after (opsL2 (F := Ideal)) W (Proc.devRef .tc main_arg8) = W (Proc.devRef .tc main_arg8) := by
  unfold opsL2 opsA2 opsB2 opsC2 opsF2
  simp only [List.cons_append, List.nil_append]
  after_results_simp
theorem keepL2_arg9 (W : Valuation τ sig (Elt Ideal)) :
    after (opsL2 (F := Ideal)) W (Proc.devRef .tc main_arg9) = W (Proc.devRef .tc main_arg9) := by
  unfold opsL2 opsA2 opsB2 opsC2 opsF2
  simp only [List.cons_append, List.nil_append]
  after_results_simp
theorem keepL2_arg10 (W : Valuation τ sig (Elt Ideal)) :
    after (opsL2 (F := Ideal)) W (Proc.devRef .tc main_arg10) = W (Proc.devRef .tc main_arg10) := by
  unfold opsL2 opsA2 opsB2 opsC2 opsF2
  simp only [List.cons_append, List.nil_append]
  after_results_simp
theorem keepL2_arg11 (W : Valuation τ sig (Elt Ideal)) :
    after (opsL2 (F := Ideal)) W (Proc.devRef .tc main_arg11) = W (Proc.devRef .tc main_arg11) := by
  unfold opsL2 opsA2 opsB2 opsC2 opsF2
  simp only [List.cons_append, List.nil_append]
  after_results_simp
theorem keepL2_arg12 (W : Valuation τ sig (Elt Ideal)) :
    after (opsL2 (F := Ideal)) W (Proc.devRef .tc main_arg12) = W (Proc.devRef .tc main_arg12) := by
  unfold opsL2 opsA2 opsB2 opsC2 opsF2
  simp only [List.cons_append, List.nil_append]
  after_results_simp
theorem keepL2_arg13 (W : Valuation τ sig (Elt Ideal)) :
    after (opsL2 (F := Ideal)) W (Proc.devRef .tc main_arg13) = W (Proc.devRef .tc main_arg13) := by
  unfold opsL2 opsA2 opsB2 opsC2 opsF2
  simp only [List.cons_append, List.nil_append]
  after_results_simp

/-! ## The whole program -/

/-- After all the operations the result buffer holds the network of what the valuation held in the arguments: layer 2 of
    layer 1 of layer 0, each layer's parameters and the edge lists untouched by the layers before it. -/
theorem readAll (V : Valuation τ sig (Elt Ideal)) :
    after (opsAll (F := Ideal)) V (Proc.devRef .tc main_v120) = netT (V (Proc.devRef .tc main_arg1)) (V (Proc.devRef .tc main_arg2)) (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold opsAll
  simp only [after_append]
  rw [readL2]
  rw [readL1, keepL1_arg1, keepL1_arg2, keepL1_arg11, keepL1_arg12, keepL1_arg13]
  rw [readL0, keepL0_arg1, keepL0_arg2, keepL0_arg7, keepL0_arg8, keepL0_arg9, keepL0_arg10, keepL0_arg11, keepL0_arg12, keepL0_arg13]
  rw [netT_bias]

theorem keepAll_arg0 (V : Valuation τ sig (Elt Ideal)) :
    after (opsAll (F := Ideal)) V (Proc.devRef .tc main_arg0) = V (Proc.devRef .tc main_arg0) := by
  unfold opsAll
  simp only [after_append]
  rw [keepL2_arg0, keepL1_arg0, keepL0_arg0]
theorem keepAll_arg1 (V : Valuation τ sig (Elt Ideal)) :
    after (opsAll (F := Ideal)) V (Proc.devRef .tc main_arg1) = V (Proc.devRef .tc main_arg1) := by
  unfold opsAll
  simp only [after_append]
  rw [keepL2_arg1, keepL1_arg1, keepL0_arg1]
theorem keepAll_arg2 (V : Valuation τ sig (Elt Ideal)) :
    after (opsAll (F := Ideal)) V (Proc.devRef .tc main_arg2) = V (Proc.devRef .tc main_arg2) := by
  unfold opsAll
  simp only [after_append]
  rw [keepL2_arg2, keepL1_arg2, keepL0_arg2]
theorem keepAll_arg3 (V : Valuation τ sig (Elt Ideal)) :
    after (opsAll (F := Ideal)) V (Proc.devRef .tc main_arg3) = V (Proc.devRef .tc main_arg3) := by
  unfold opsAll
  simp only [after_append]
  rw [keepL2_arg3, keepL1_arg3, keepL0_arg3]
theorem keepAll_arg4 (V : Valuation τ sig (Elt Ideal)) :
    after (opsAll (F := Ideal)) V (Proc.devRef .tc main_arg4) = V (Proc.devRef .tc main_arg4) := by
  unfold opsAll
  simp only [after_append]
  rw [keepL2_arg4, keepL1_arg4, keepL0_arg4]
theorem keepAll_arg5 (V : Valuation τ sig (Elt Ideal)) :
    after (opsAll (F := Ideal)) V (Proc.devRef .tc main_arg5) = V (Proc.devRef .tc main_arg5) := by
  unfold opsAll
  simp only [after_append]
  rw [keepL2_arg5, keepL1_arg5, keepL0_arg5]
theorem keepAll_arg6 (V : Valuation τ sig (Elt Ideal)) :
    after (opsAll (F := Ideal)) V (Proc.devRef .tc main_arg6) = V (Proc.devRef .tc main_arg6) := by
  unfold opsAll
  simp only [after_append]
  rw [keepL2_arg6, keepL1_arg6, keepL0_arg6]
theorem keepAll_arg7 (V : Valuation τ sig (Elt Ideal)) :
    after (opsAll (F := Ideal)) V (Proc.devRef .tc main_arg7) = V (Proc.devRef .tc main_arg7) := by
  unfold opsAll
  simp only [after_append]
  rw [keepL2_arg7, keepL1_arg7, keepL0_arg7]
theorem keepAll_arg8 (V : Valuation τ sig (Elt Ideal)) :
    after (opsAll (F := Ideal)) V (Proc.devRef .tc main_arg8) = V (Proc.devRef .tc main_arg8) := by
  unfold opsAll
  simp only [after_append]
  rw [keepL2_arg8, keepL1_arg8, keepL0_arg8]
theorem keepAll_arg9 (V : Valuation τ sig (Elt Ideal)) :
    after (opsAll (F := Ideal)) V (Proc.devRef .tc main_arg9) = V (Proc.devRef .tc main_arg9) := by
  unfold opsAll
  simp only [after_append]
  rw [keepL2_arg9, keepL1_arg9, keepL0_arg9]
theorem keepAll_arg10 (V : Valuation τ sig (Elt Ideal)) :
    after (opsAll (F := Ideal)) V (Proc.devRef .tc main_arg10) = V (Proc.devRef .tc main_arg10) := by
  unfold opsAll
  simp only [after_append]
  rw [keepL2_arg10, keepL1_arg10, keepL0_arg10]
theorem keepAll_arg11 (V : Valuation τ sig (Elt Ideal)) :
    after (opsAll (F := Ideal)) V (Proc.devRef .tc main_arg11) = V (Proc.devRef .tc main_arg11) := by
  unfold opsAll
  simp only [after_append]
  rw [keepL2_arg11, keepL1_arg11, keepL0_arg11]
theorem keepAll_arg12 (V : Valuation τ sig (Elt Ideal)) :
    after (opsAll (F := Ideal)) V (Proc.devRef .tc main_arg12) = V (Proc.devRef .tc main_arg12) := by
  unfold opsAll
  simp only [after_append]
  rw [keepL2_arg12, keepL1_arg12, keepL0_arg12]
theorem keepAll_arg13 (V : Valuation τ sig (Elt Ideal)) :
    after (opsAll (F := Ideal)) V (Proc.devRef .tc main_arg13) = V (Proc.devRef .tc main_arg13) := by
  unfold opsAll
  simp only [after_append]
  rw [keepL2_arg13, keepL1_arg13, keepL0_arg13]

set_option maxRecDepth 8192 in
set_option maxHeartbeats 4000000 in
/-- @main is the straight line of the 153 operations. -/
theorem main_eq (c : Dev nD) : main (F := F) c = seq opsAll := rfl
theorem scopedRefs_eq : (Finset.univ.filter fun b : Ref sig .tc => b.isScoped) = ∅ := by decide
theorem scopedSems_eq : (Finset.univ.filter fun sm : SemLoc sig => sm.isScoped .tc) = ∅ := by decide

theorem ops_sub : (opsAll (F := F)).Forall fun op => op.bufs ⊆ tcRefs τ sig := by
  unfold opsAll opsL0 opsL1 opsL2
  simp only [List.forall_append]
  exact ⟨⟨⟨⟨⟨⟨subA0, subB0⟩, subC0⟩, subD0⟩, subE0⟩, ⟨⟨⟨⟨subA1, subB1⟩, subC1⟩, subD1⟩, subE1⟩⟩, ⟨⟨⟨subA2, subB2⟩, subC2⟩, subF2⟩⟩

theorem ops_fresh : ∀ op ∈ (opsAll (F := F)), op.fresh = ∅ := by
  refine List.forall_iff_forall_mem.mp ?_
  unfold opsAll opsL0 opsL1 opsL2
  simp only [List.forall_append]
  exact ⟨⟨⟨⟨⟨⟨freshA0, freshB0⟩, freshC0⟩, freshD0⟩, freshE0⟩, ⟨⟨⟨⟨freshA1, freshB1⟩, freshC1⟩, freshD1⟩, freshE1⟩⟩, ⟨⟨⟨freshA2, freshB2⟩, freshC2⟩, freshF2⟩⟩

/-- On every device, at the extended reals, from any memory with zero counters: every weakly fair execution of the
    reference terminates with the result buffer at the network of the arguments' launch contents and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v120) = netT (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v120).trans (readAll _),
      (h c main_arg0).trans (keepAll_arg0 _),
      (h c main_arg1).trans (keepAll_arg1 _),
      (h c main_arg2).trans (keepAll_arg2 _),
      (h c main_arg3).trans (keepAll_arg3 _),
      (h c main_arg4).trans (keepAll_arg4 _),
      (h c main_arg5).trans (keepAll_arg5 _),
      (h c main_arg6).trans (keepAll_arg6 _),
      (h c main_arg7).trans (keepAll_arg7 _),
      (h c main_arg8).trans (keepAll_arg8 _),
      (h c main_arg9).trans (keepAll_arg9 _),
      (h c main_arg10).trans (keepAll_arg10 _),
      (h c main_arg11).trans (keepAll_arg11 _),
      (h c main_arg12).trans (keepAll_arg12 _),
      (h c main_arg13).trans (keepAll_arg13 _)⟩)
    (run_seq scopedRefs_eq scopedSems_eq defs main (fun _ => opsAll) main_eq (fun _ => ops_sub) m ρ (fun _ => ops_fresh))

end Cert.Sage.Ref

end
-- ==== Proof.KernelRun.lean ====
/-
  The idealized kernel's run with its result named.

  Every weakly fair execution of the kernel program terminates, faults nowhere, leaves the fourteen argument arrays as
  launched, and leaves in the result buffer what the last of the five regions wrote back: the contents the buffer has
  at the last boundary of the walk through the program's ten segments (five stretches of host operations, each
  followed by a region).  The statement is the frame's with one more conjunct, read off the same final thread state,
  which holds every unscoped buffer at that boundary's contents.
-/
import proofs.«156231_j12695923327564_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the last boundary's contents, the arguments as launched. -/
theorem run_named : θ_run defs (onTc (τ := τ) (main (F := F))) ⟨m, fun _ => 0, ρ⟩ (fun r => ∀ c : Dev nD,
      r.2.mem ((c.tc : Thread nD τ).loc main_v72) = W10 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v72 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.Named

end
-- ==== Proof.ReduceBlocks.lean ====
/-
  The host's sum of a [20, 8, 128] table over its first two axes, read at a column.

  The reduction keeps the last axis: entry j of the result is the initial value plus the sum of the table's entries
  whose last coordinate is j, that is, over all 20 blocks t and all 8 rows s of entry (t, s, j).
-/
import Idealize.ShloMosaic.PureOps.Ideal
import Idealize.ShloMosaic.Lib.ValueIdx

noncomputable section

open scoped BigOperators

namespace Cert.Sage

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the first two coordinates of (t, s, k) leaves k. -/
theorem drop01 (h' : (⟨3, ![20, 8, 128]⟩ : Shape).ReducesTo [0, 1] ⟨1, ![128]⟩) (t : Fin 20) (s : Fin 8) (k : Fin 128) :
    h'.drop (ix3 t s k) = ix1 k := by
  funext b
  match b with
  | ⟨0, _⟩ => rfl

/-- The sum over the first two axes, at column j: the initial value plus the double sum over blocks and rows. -/
theorem reduce01_apply (h' : (⟨3, ![20, 8, 128]⟩ : Shape).ReducesTo [0, 1] ⟨1, ![128]⟩)
    (x : (⟨3, ![20, 8, 128]⟩ : Shape).Idx → EReal) (init : EReal) (j : Fin 128) :
    Ideal.hostReduceAdd h' x init (ix1 j) = init + ∑ t : Fin 20, ∑ s : Fin 8, x (ix3 t s j) := by
  unfold Ideal.hostReduceAdd
  congr 1
  rw [Finset.sum_filter, sum_idx3]
  refine Finset.sum_congr rfl fun t _ => Finset.sum_congr rfl fun s _ => ?_
  simp only [drop01]
  rw [Finset.sum_eq_single j]
  · rw [if_pos rfl]
  · intro k _ hk
    rw [if_neg]
    intro e
    exact hk (by have := congrFun e 0; exact this)
  · intro hj; exact absurd (Finset.mem_univ j) hj

end Cert.Sage

end
-- ==== Proof.KernelStretch.lean ====
/-
  The kernel program's five stretches of host operations, each read as whole-array functions of what it finds.

  The first stretch builds, from the two edge arrays, the column of reciprocal degrees and the aggregate of the input
  features; the third and the fifth aggregate the two hidden layers the same way, and the fifth also lays the bias as a
  row.  The second and the fourth turn a layer's per-tile sums and sums of squares into the mean row and the variance
  row — the total over the 20 blocks and their 8 rows divided by the node count, and the mean of squares minus the
  squared mean clipped below at zero — and lay the scale and shift vectors as rows.  Every statement is over an
  arbitrary valuation of the buffers before the stretch.
-/
import proofs.«156231_j12695923327564_2_alg».proof.Proof.Gen.KernelIdeal.Frame
import proofs.«156231_j12695923327564_2_alg».proof.Proof.Spec
import proofs.«156231_j12695923327564_2_alg».proof.Proof.Agg
import Idealize.ShloMosaic.Lib.StableHlo.Run
import Idealize.ShloMosaic.Lib.IdealHost
import Idealize.ShloMosaic.Lib.ValueLayout
import proofs.«156231_j12695923327564_2_alg».proof.Proof.ReduceBlocks

set_option maxRecDepth 16384

noncomputable section

namespace Cert.KernelIdeal.Named

open Cert.KernelIdeal Cert.KernelIdeal.Gen Cert.Sage
open Idealize.ShloMosaic Idealize.ShloMosaic.TcCoe Idealize.ShloMosaic.StableHlo Idealize.ShloMosaic.ValueIdx
open Idealize.SL.Sem

/-- The blocks' total of column k divided by the node count, as the host spells it: the sum over the first two axes
    from zero, laid as a row, divided by a splat of the count. -/
theorem meanRow_apply (S : Arr3 20 8 128) (h' : (⟨3, ![20, 8, 128]⟩ : Shape).ReducesTo [0, 1] ⟨1, ![128]⟩)
    (h0 : 0 < (⟨0, ![]⟩ : Shape).numel) (hsc : (⟨1, ![128]⟩ : Shape).ShapeCasts ⟨2, ![1, 128]⟩)
    (hb : (⟨0, ![]⟩ : Shape).BroadcastsInDim ⟨2, ![1, 128]⟩ ![]) (u : Fin 1) (k : Fin 128) :
    Host.divf (F := Ideal) (φ := .f32)
        (shapeCast (⟨2, ![1, 128]⟩ : Shape) (Host.reduceAdd (F := Ideal) (φ := .f32) S (constant (F := Ideal) ⟨0, ![]⟩ .f32 0x00000000#32) h' h0) hsc)
        (broadcastInDim (⟨2, ![1, 128]⟩ : Shape) ![] hb (constant (F := Ideal) ⟨0, ![]⟩ .f32 0x47C35000#32)) (ix2 u k)
      = Ideal.div (colTotal S (ix1 k)) nNodes := by
  rw [hostDivf_apply, broadcastInDim_scalar_apply, shapeCast_a_1a_apply, hostReduceAdd_apply, reduce01_apply]
  simp only [constant_apply, Ideal.ofBits_zero_f32]
  rfl

variable (W : Valuation τ sig (Elt Ideal))

/-! ## The first stretch: the reciprocal degrees and the first aggregate -/

theorem ops0_agg : StableHlo.after (hostOps0 (F := Ideal)) W (Proc.devRef .tc main_v18)
    = aggOf gather_S100000x128_S800000x1_S800000x128_1_0_n_n_0_1_1128 scatter_S100000x128_S800000x1_S800000x128_1_0_0_1
        bcast_S_S800000 bcast_S800000_S800000x1_0 bcast_S_S100000x128
        (W (Proc.devRef .tc main_arg1)) (W (Proc.devRef .tc main_arg2)) (W (Proc.devRef .tc main_arg0)) := by
  after_results_simp
  rfl

theorem ops0_dinv : StableHlo.after (hostOps0 (F := Ideal)) W (Proc.devRef .tc main_v8)
    = dinvOf scatter_S100000_S800000x1_S800000_n_0_0_1 bcast_S_S800000 bcast_S800000_S800000x1_0 bcast_S_S100000
        shapeCasts_S100000_S100000x1 (W (Proc.devRef .tc main_arg2)) := by
  after_results_simp
  rfl

/-! ## The second stretch: the first layer's statistics -/

theorem ops1_mean : StableHlo.after (hostOps1 (F := Ideal)) W (Proc.devRef .tc main_v25)
    = meanK (W (Proc.devRef .tc main_v19_1)) := by
  after_results_simp
  funext i
  obtain ⟨u, k, rfl⟩ : ∃ (u : Fin 1) (k : Fin 128), i = ix2 u k := ⟨i 0, i 1, eq_ix2 i⟩
  exact meanRow_apply _ _ _ _ _ u k

theorem ops1_var : StableHlo.after (hostOps1 (F := Ideal)) W (Proc.devRef .tc main_v31)
    = varK (W (Proc.devRef .tc main_v19_1)) (W (Proc.devRef .tc main_v19_2)) := by
  after_results_simp
  funext i
  obtain ⟨u, k, rfl⟩ : ∃ (u : Fin 1) (k : Fin 128), i = ix2 u k := ⟨i 0, i 1, eq_ix2 i⟩
  rw [maximumf_apply, subf_apply, mulf_apply, broadcastInDim_scalar_apply]
  show max (_ - _ * _) _ = max (Ideal.div (colTotal _ (ix1 k)) nNodes - meanK _ (ix2 u k) * meanK _ (ix2 u k)) 0
  rw [constant_apply, Ideal.ofBits_zero_f32]
  congr 2
  · exact meanRow_apply _ _ _ _ _ u k
  · congr 1 <;> exact meanRow_apply _ _ _ _ _ u k

theorem ops1_gamma : StableHlo.after (hostOps1 (F := Ideal)) W (Proc.devRef .tc main_v32)
    = rowOf (W (Proc.devRef .tc main_arg5)) := by
  after_results_simp
  funext i
  obtain ⟨u, k, rfl⟩ : ∃ (u : Fin 1) (k : Fin 128), i = ix2 u k := ⟨i 0, i 1, eq_ix2 i⟩
  exact shapeCast_a_1a_apply _ _ u k

theorem ops1_beta : StableHlo.after (hostOps1 (F := Ideal)) W (Proc.devRef .tc main_v33)
    = rowOf (W (Proc.devRef .tc main_arg6)) := by
  after_results_simp
  funext i
  obtain ⟨u, k, rfl⟩ : ∃ (u : Fin 1) (k : Fin 128), i = ix2 u k := ⟨i 0, i 1, eq_ix2 i⟩
  exact shapeCast_a_1a_apply _ _ u k

/-! ## The third stretch: the second aggregate -/

theorem ops2_agg : StableHlo.after (hostOps2 (F := Ideal)) W (Proc.devRef .tc main_v44)
    = aggOf gather_S100000x128_S800000x1_S800000x128_1_0_n_n_0_1_1128 scatter_S100000x128_S800000x1_S800000x128_1_0_0_1
        bcast_S_S800000 bcast_S800000_S800000x1_0 bcast_S_S100000x128
        (W (Proc.devRef .tc main_arg1)) (W (Proc.devRef .tc main_arg2)) (W (Proc.devRef .tc main_v34)) := by
  after_results_simp
  rfl

/-! ## The fourth stretch: the second layer's statistics -/

theorem ops3_mean : StableHlo.after (hostOps3 (F := Ideal)) W (Proc.devRef .tc main_v51)
    = meanK (W (Proc.devRef .tc main_v45_1)) := by
  after_results_simp
  funext i
  obtain ⟨u, k, rfl⟩ : ∃ (u : Fin 1) (k : Fin 128), i = ix2 u k := ⟨i 0, i 1, eq_ix2 i⟩
  exact meanRow_apply _ _ _ _ _ u k

theorem ops3_var : StableHlo.after (hostOps3 (F := Ideal)) W (Proc.devRef .tc main_v57)
    = varK (W (Proc.devRef .tc main_v45_1)) (W (Proc.devRef .tc main_v45_2)) := by
  after_results_simp
  funext i
  obtain ⟨u, k, rfl⟩ : ∃ (u : Fin 1) (k : Fin 128), i = ix2 u k := ⟨i 0, i 1, eq_ix2 i⟩
  rw [maximumf_apply, subf_apply, mulf_apply, broadcastInDim_scalar_apply]
  show max (_ - _ * _) _ = max (Ideal.div (colTotal _ (ix1 k)) nNodes - meanK _ (ix2 u k) * meanK _ (ix2 u k)) 0
  rw [constant_apply, Ideal.ofBits_zero_f32]
  congr 2
  · exact meanRow_apply _ _ _ _ _ u k
  · congr 1 <;> exact meanRow_apply _ _ _ _ _ u k

theorem ops3_gamma : StableHlo.after (hostOps3 (F := Ideal)) W (Proc.devRef .tc main_v58)
    = rowOf (W (Proc.devRef .tc main_arg9)) := by
  after_results_simp
  funext i
  obtain ⟨u, k, rfl⟩ : ∃ (u : Fin 1) (k : Fin 128), i = ix2 u k := ⟨i 0, i 1, eq_ix2 i⟩
  exact shapeCast_a_1a_apply _ _ u k

theorem ops3_beta : StableHlo.after (hostOps3 (F := Ideal)) W (Proc.devRef .tc main_v59)
    = rowOf (W (Proc.devRef .tc main_arg10)) := by
  after_results_simp
  funext i
  obtain ⟨u, k, rfl⟩ : ∃ (u : Fin 1) (k : Fin 128), i = ix2 u k := ⟨i 0, i 1, eq_ix2 i⟩
  exact shapeCast_a_1a_apply _ _ u k

/-! ## The fifth stretch: the third aggregate and the bias row -/

theorem ops4_agg : StableHlo.after (hostOps4 (F := Ideal)) W (Proc.devRef .tc main_v70)
    = aggOf gather_S100000x128_S800000x1_S800000x128_1_0_n_n_0_1_1128 scatter_S100000x128_S800000x1_S800000x128_1_0_0_1
        bcast_S_S800000 bcast_S800000_S800000x1_0 bcast_S_S100000x128
        (W (Proc.devRef .tc main_arg1)) (W (Proc.devRef .tc main_arg2)) (W (Proc.devRef .tc main_v60)) := by
  after_results_simp
  rfl

theorem ops4_bias : StableHlo.after (hostOps4 (F := Ideal)) W (Proc.devRef .tc main_v71)
    = rowOf (W (Proc.devRef .tc main_arg13)) := by
  after_results_simp
  funext i
  obtain ⟨u, k, rfl⟩ : ∃ (u : Fin 1) (k : Fin 40), i = ix2 u k := ⟨i 0, i 1, eq_ix2 i⟩
  exact shapeCast_a_1a_apply _ _ u k

end Cert.KernelIdeal.Named

end
-- ==== Proof.KernelCarry.lean ====
/-
  Buffers the kernel program leaves alone between the point where they get their value and the point where they are
  read.

  The program is ten segments: a stretch of host operations, then a region, five times.  A buffer crosses a stretch
  unchanged when none of the stretch's operations writes it, and crosses a region unchanged when it is not one of the
  region's arrays, or is one of its INPUT arrays (an input window's array ends as it was entered).  Each lemma below
  chains such steps for one buffer between two boundaries of the walk.
-/
import proofs.«156231_j12695923327564_2_alg».proof.Proof.Gen.KernelIdeal.Frame
import proofs.«156231_j12695923327564_2_alg».proof.Proof.Spec
import proofs.«156231_j12695923327564_2_alg».proof.Proof.Agg
import Idealize.ShloMosaic.Lib.StableHlo.Run

set_option maxRecDepth 16384

noncomputable section

namespace Cert.KernelIdeal.Named

open Cert.KernelIdeal Cert.KernelIdeal.Gen Cert.Sage
open Idealize.ShloMosaic Idealize.ShloMosaic.TcCoe Idealize.ShloMosaic.StableHlo Idealize.ShloMosaic.ValueIdx
open Idealize.SL.Sem

variable {F : FTy → Type} [FloatOps F]
variable (m : (ℓ : Loc nD τ sig) → Buf (Elt F) ℓ) (ρ : Dev nD → PrngReg) (c : Dev nD)

/-- No operation of the named stretch writes the buffer at hand: the stretch's operations are literal, each writes its
    one result buffer, and two literal references are compared by computation. -/
macro "not_written " k:ident : tactic => `(tactic| (
  simp only [$k:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem carry_main_arg0_0_1 : W1 m ρ c (Proc.devRef .tc main_arg0) = W0 m ρ c (Proc.devRef .tc main_arg0) :=
  calc W1 m ρ c (Proc.devRef .tc main_arg0)
    _ = W0 m ρ c (Proc.devRef .tc main_arg0) := (StableHlo.after_of_forall_not_mem (b := Proc.devRef .tc main_arg0) _ _ (List.forall_iff_forall_mem.mp (by not_written hostOps0)))

theorem carry_main_arg3_0_1 : W1 m ρ c (Proc.devRef .tc main_arg3) = W0 m ρ c (Proc.devRef .tc main_arg3) :=
  calc W1 m ρ c (Proc.devRef .tc main_arg3)
    _ = W0 m ρ c (Proc.devRef .tc main_arg3) := (StableHlo.after_of_forall_not_mem (b := Proc.devRef .tc main_arg3) _ _ (List.forall_iff_forall_mem.mp (by not_written hostOps0)))

theorem carry_main_arg4_0_1 : W1 m ρ c (Proc.devRef .tc main_arg4) = W0 m ρ c (Proc.devRef .tc main_arg4) :=
  calc W1 m ρ c (Proc.devRef .tc main_arg4)
    _ = W0 m ρ c (Proc.devRef .tc main_arg4) := (StableHlo.after_of_forall_not_mem (b := Proc.devRef .tc main_arg4) _ _ (List.forall_iff_forall_mem.mp (by not_written hostOps0)))

theorem carry_main_arg5_0_2 : W2 m ρ c (Proc.devRef .tc main_arg5) = W0 m ρ c (Proc.devRef .tc main_arg5) :=
  calc W2 m ρ c (Proc.devRef .tc main_arg5)
    _ = W1 m ρ c (Proc.devRef .tc main_arg5) := (W2_of_ne m ρ c main_arg5 (by decide))
    _ = W0 m ρ c (Proc.devRef .tc main_arg5) := (StableHlo.after_of_forall_not_mem (b := Proc.devRef .tc main_arg5) _ _ (List.forall_iff_forall_mem.mp (by not_written hostOps0)))

theorem carry_main_arg6_0_2 : W2 m ρ c (Proc.devRef .tc main_arg6) = W0 m ρ c (Proc.devRef .tc main_arg6) :=
  calc W2 m ρ c (Proc.devRef .tc main_arg6)
    _ = W1 m ρ c (Proc.devRef .tc main_arg6) := (W2_of_ne m ρ c main_arg6 (by decide))
    _ = W0 m ρ c (Proc.devRef .tc main_arg6) := (StableHlo.after_of_forall_not_mem (b := Proc.devRef .tc main_arg6) _ _ (List.forall_iff_forall_mem.mp (by not_written hostOps0)))

theorem carry_main_arg1_0_4 : W4 m ρ c (Proc.devRef .tc main_arg1) = W0 m ρ c (Proc.devRef .tc main_arg1) :=
  calc W4 m ρ c (Proc.devRef .tc main_arg1)
    _ = W3 m ρ c (Proc.devRef .tc main_arg1) := (W4_of_ne m ρ c main_arg1 (by decide))
    _ = W2 m ρ c (Proc.devRef .tc main_arg1) := (StableHlo.after_of_forall_not_mem (b := Proc.devRef .tc main_arg1) _ _ (List.forall_iff_forall_mem.mp (by not_written hostOps1)))
    _ = W1 m ρ c (Proc.devRef .tc main_arg1) := (W2_of_ne m ρ c main_arg1 (by decide))
    _ = W0 m ρ c (Proc.devRef .tc main_arg1) := (StableHlo.after_of_forall_not_mem (b := Proc.devRef .tc main_arg1) _ _ (List.forall_iff_forall_mem.mp (by not_written hostOps0)))

theorem carry_main_arg2_0_4 : W4 m ρ c (Proc.devRef .tc main_arg2) = W0 m ρ c (Proc.devRef .tc main_arg2) :=
  calc W4 m ρ c (Proc.devRef .tc main_arg2)
    _ = W3 m ρ c (Proc.devRef .tc main_arg2) := (W4_of_ne m ρ c main_arg2 (by decide))
    _ = W2 m ρ c (Proc.devRef .tc main_arg2) := (StableHlo.after_of_forall_not_mem (b := Proc.devRef .tc main_arg2) _ _ (List.forall_iff_forall_mem.mp (by not_written hostOps1)))
    _ = W1 m ρ c (Proc.devRef .tc main_arg2) := (W2_of_ne m ρ c main_arg2 (by decide))
    _ = W0 m ρ c (Proc.devRef .tc main_arg2) := (StableHlo.after_of_forall_not_mem (b := Proc.devRef .tc main_arg2) _ _ (List.forall_iff_forall_mem.mp (by not_written hostOps0)))

theorem carry_main_arg1_4_8 : W8 m ρ c (Proc.devRef .tc main_arg1) = W4 m ρ c (Proc.devRef .tc main_arg1) :=
  calc W8 m ρ c (Proc.devRef .tc main_arg1)
    _ = W7 m ρ c (Proc.devRef .tc main_arg1) := (W8_of_ne m ρ c main_arg1 (by decide))
    _ = W6 m ρ c (Proc.devRef .tc main_arg1) := (StableHlo.after_of_forall_not_mem (b := Proc.devRef .tc main_arg1) _ _ (List.forall_iff_forall_mem.mp (by not_written hostOps3)))
    _ = W5 m ρ c (Proc.devRef .tc main_arg1) := (W6_of_ne m ρ c main_arg1 (by decide))
    _ = W4 m ρ c (Proc.devRef .tc main_arg1) := (StableHlo.after_of_forall_not_mem (b := Proc.devRef .tc main_arg1) _ _ (List.forall_iff_forall_mem.mp (by not_written hostOps2)))

theorem carry_main_arg2_4_8 : W8 m ρ c (Proc.devRef .tc main_arg2) = W4 m ρ c (Proc.devRef .tc main_arg2) :=
  calc W8 m ρ c (Proc.devRef .tc main_arg2)
    _ = W7 m ρ c (Proc.devRef .tc main_arg2) := (W8_of_ne m ρ c main_arg2 (by decide))
    _ = W6 m ρ c (Proc.devRef .tc main_arg2) := (StableHlo.after_of_forall_not_mem (b := Proc.devRef .tc main_arg2) _ _ (List.forall_iff_forall_mem.mp (by not_written hostOps3)))
    _ = W5 m ρ c (Proc.devRef .tc main_arg2) := (W6_of_ne m ρ c main_arg2 (by decide))
    _ = W4 m ρ c (Proc.devRef .tc main_arg2) := (StableHlo.after_of_forall_not_mem (b := Proc.devRef .tc main_arg2) _ _ (List.forall_iff_forall_mem.mp (by not_written hostOps2)))

theorem carry_main_arg7_0_5 : W5 m ρ c (Proc.devRef .tc main_arg7) = W0 m ρ c (Proc.devRef .tc main_arg7) :=
  calc W5 m ρ c (Proc.devRef .tc main_arg7)
    _ = W4 m ρ c (Proc.devRef .tc main_arg7) := (StableHlo.after_of_forall_not_mem (b := Proc.devRef .tc main_arg7) _ _ (List.forall_iff_forall_mem.mp (by not_written hostOps2)))
    _ = W3 m ρ c (Proc.devRef .tc main_arg7) := (W4_of_ne m ρ c main_arg7 (by decide))
    _ = W2 m ρ c (Proc.devRef .tc main_arg7) := (StableHlo.after_of_forall_not_mem (b := Proc.devRef .tc main_arg7) _ _ (List.forall_iff_forall_mem.mp (by not_written hostOps1)))
    _ = W1 m ρ c (Proc.devRef .tc main_arg7) := (W2_of_ne m ρ c main_arg7 (by decide))
    _ = W0 m ρ c (Proc.devRef .tc main_arg7) := (StableHlo.after_of_forall_not_mem (b := Proc.devRef .tc main_arg7) _ _ (List.forall_iff_forall_mem.mp (by not_written hostOps0)))

theorem carry_main_arg8_0_5 : W5 m ρ c (Proc.devRef .tc main_arg8) = W0 m ρ c (Proc.devRef .tc main_arg8) :=
  calc W5 m ρ c (Proc.devRef .tc main_arg8)
    _ = W4 m ρ c (Proc.devRef .tc main_arg8) := (StableHlo.after_of_forall_not_mem (b := Proc.devRef .tc main_arg8) _ _ (List.forall_iff_forall_mem.mp (by not_written hostOps2)))
    _ = W3 m ρ c (Proc.devRef .tc main_arg8) := (W4_of_ne m ρ c main_arg8 (by decide))
    _ = W2 m ρ c (Proc.devRef .tc main_arg8) := (StableHlo.after_of_forall_not_mem (b := Proc.devRef .tc main_arg8) _ _ (List.forall_iff_forall_mem.mp (by not_written hostOps1)))
    _ = W1 m ρ c (Proc.devRef .tc main_arg8) := (W2_of_ne m ρ c main_arg8 (by decide))
    _ = W0 m ρ c (Proc.devRef .tc main_arg8) := (StableHlo.after_of_forall_not_mem (b := Proc.devRef .tc main_arg8) _ _ (List.forall_iff_forall_mem.mp (by not_written hostOps0)))

theorem carry_main_arg9_0_6 : W6 m ρ c (Proc.devRef .tc main_arg9) = W0 m ρ c (Proc.devRef .tc main_arg9) :=
  calc W6 m ρ c (Proc.devRef .tc main_arg9)
    _ = W5 m ρ c (Proc.devRef .tc main_arg9) := (W6_of_ne m ρ c main_arg9 (by decide))
    _ = W4 m ρ c (Proc.devRef .tc main_arg9) := (StableHlo.after_of_forall_not_mem (b := Proc.devRef .tc main_arg9) _ _ (List.forall_iff_forall_mem.mp (by not_written hostOps2)))
    _ = W3 m ρ c (Proc.devRef .tc main_arg9) := (W4_of_ne m ρ c main_arg9 (by decide))
    _ = W2 m ρ c (Proc.devRef .tc main_arg9) := (StableHlo.after_of_forall_not_mem (b := Proc.devRef .tc main_arg9) _ _ (List.forall_iff_forall_mem.mp (by not_written hostOps1)))
    _ = W1 m ρ c (Proc.devRef .tc main_arg9) := (W2_of_ne m ρ c main_arg9 (by decide))
    _ = W0 m ρ c (Proc.devRef .tc main_arg9) := (StableHlo.after_of_forall_not_mem (b := Proc.devRef .tc main_arg9) _ _ (List.forall_iff_forall_mem.mp (by not_written hostOps0)))

theorem carry_main_arg10_0_6 : W6 m ρ c (Proc.devRef .tc main_arg10) = W0 m ρ c (Proc.devRef .tc main_arg10) :=
  calc W6 m ρ c (Proc.devRef .tc main_arg10)
    _ = W5 m ρ c (Proc.devRef .tc main_arg10) := (W6_of_ne m ρ c main_arg10 (by decide))
    _ = W4 m ρ c (Proc.devRef .tc main_arg10) := (StableHlo.after_of_forall_not_mem (b := Proc.devRef .tc main_arg10) _ _ (List.forall_iff_forall_mem.mp (by not_written hostOps2)))
    _ = W3 m ρ c (Proc.devRef .tc main_arg10) := (W4_of_ne m ρ c main_arg10 (by decide))
    _ = W2 m ρ c (Proc.devRef .tc main_arg10) := (StableHlo.after_of_forall_not_mem (b := Proc.devRef .tc main_arg10) _ _ (List.forall_iff_forall_mem.mp (by not_written hostOps1)))
    _ = W1 m ρ c (Proc.devRef .tc main_arg10) := (W2_of_ne m ρ c main_arg10 (by decide))
    _ = W0 m ρ c (Proc.devRef .tc main_arg10) := (StableHlo.after_of_forall_not_mem (b := Proc.devRef .tc main_arg10) _ _ (List.forall_iff_forall_mem.mp (by not_written hostOps0)))

theorem carry_main_arg13_0_8 : W8 m ρ c (Proc.devRef .tc main_arg13) = W0 m ρ c (Proc.devRef .tc main_arg13) :=
  calc W8 m ρ c (Proc.devRef .tc main_arg13)
    _ = W7 m ρ c (Proc.devRef .tc main_arg13) := (W8_of_ne m ρ c main_arg13 (by decide))
    _ = W6 m ρ c (Proc.devRef .tc main_arg13) := (StableHlo.after_of_forall_not_mem (b := Proc.devRef .tc main_arg13) _ _ (List.forall_iff_forall_mem.mp (by not_written hostOps3)))
    _ = W5 m ρ c (Proc.devRef .tc main_arg13) := (W6_of_ne m ρ c main_arg13 (by decide))
    _ = W4 m ρ c (Proc.devRef .tc main_arg13) := (StableHlo.after_of_forall_not_mem (b := Proc.devRef .tc main_arg13) _ _ (List.forall_iff_forall_mem.mp (by not_written hostOps2)))
    _ = W3 m ρ c (Proc.devRef .tc main_arg13) := (W4_of_ne m ρ c main_arg13 (by decide))
    _ = W2 m ρ c (Proc.devRef .tc main_arg13) := (StableHlo.after_of_forall_not_mem (b := Proc.devRef .tc main_arg13) _ _ (List.forall_iff_forall_mem.mp (by not_written hostOps1)))
    _ = W1 m ρ c (Proc.devRef .tc main_arg13) := (W2_of_ne m ρ c main_arg13 (by decide))
    _ = W0 m ρ c (Proc.devRef .tc main_arg13) := (StableHlo.after_of_forall_not_mem (b := Proc.devRef .tc main_arg13) _ _ (List.forall_iff_forall_mem.mp (by not_written hostOps0)))

theorem carry_main_arg11_0_9 : W9 m ρ c (Proc.devRef .tc main_arg11) = W0 m ρ c (Proc.devRef .tc main_arg11) :=
  calc W9 m ρ c (Proc.devRef .tc main_arg11)
    _ = W8 m ρ c (Proc.devRef .tc main_arg11) := (StableHlo.after_of_forall_not_mem (b := Proc.devRef .tc main_arg11) _ _ (List.forall_iff_forall_mem.mp (by not_written hostOps4)))
    _ = W7 m ρ c (Proc.devRef .tc main_arg11) := (W8_of_ne m ρ c main_arg11 (by decide))
    _ = W6 m ρ c (Proc.devRef .tc main_arg11) := (StableHlo.after_of_forall_not_mem (b := Proc.devRef .tc main_arg11) _ _ (List.forall_iff_forall_mem.mp (by not_written hostOps3)))
    _ = W5 m ρ c (Proc.devRef .tc main_arg11) := (W6_of_ne m ρ c main_arg11 (by decide))
    _ = W4 m ρ c (Proc.devRef .tc main_arg11) := (StableHlo.after_of_forall_not_mem (b := Proc.devRef .tc main_arg11) _ _ (List.forall_iff_forall_mem.mp (by not_written hostOps2)))
    _ = W3 m ρ c (Proc.devRef .tc main_arg11) := (W4_of_ne m ρ c main_arg11 (by decide))
    _ = W2 m ρ c (Proc.devRef .tc main_arg11) := (StableHlo.after_of_forall_not_mem (b := Proc.devRef .tc main_arg11) _ _ (List.forall_iff_forall_mem.mp (by not_written hostOps1)))
    _ = W1 m ρ c (Proc.devRef .tc main_arg11) := (W2_of_ne m ρ c main_arg11 (by decide))
    _ = W0 m ρ c (Proc.devRef .tc main_arg11) := (StableHlo.after_of_forall_not_mem (b := Proc.devRef .tc main_arg11) _ _ (List.forall_iff_forall_mem.mp (by not_written hostOps0)))

theorem carry_main_arg12_0_9 : W9 m ρ c (Proc.devRef .tc main_arg12) = W0 m ρ c (Proc.devRef .tc main_arg12) :=
  calc W9 m ρ c (Proc.devRef .tc main_arg12)
    _ = W8 m ρ c (Proc.devRef .tc main_arg12) := (StableHlo.after_of_forall_not_mem (b := Proc.devRef .tc main_arg12) _ _ (List.forall_iff_forall_mem.mp (by not_written hostOps4)))
    _ = W7 m ρ c (Proc.devRef .tc main_arg12) := (W8_of_ne m ρ c main_arg12 (by decide))
    _ = W6 m ρ c (Proc.devRef .tc main_arg12) := (StableHlo.after_of_forall_not_mem (b := Proc.devRef .tc main_arg12) _ _ (List.forall_iff_forall_mem.mp (by not_written hostOps3)))
    _ = W5 m ρ c (Proc.devRef .tc main_arg12) := (W6_of_ne m ρ c main_arg12 (by decide))
    _ = W4 m ρ c (Proc.devRef .tc main_arg12) := (StableHlo.after_of_forall_not_mem (b := Proc.devRef .tc main_arg12) _ _ (List.forall_iff_forall_mem.mp (by not_written hostOps2)))
    _ = W3 m ρ c (Proc.devRef .tc main_arg12) := (W4_of_ne m ρ c main_arg12 (by decide))
    _ = W2 m ρ c (Proc.devRef .tc main_arg12) := (StableHlo.after_of_forall_not_mem (b := Proc.devRef .tc main_arg12) _ _ (List.forall_iff_forall_mem.mp (by not_written hostOps1)))
    _ = W1 m ρ c (Proc.devRef .tc main_arg12) := (W2_of_ne m ρ c main_arg12 (by decide))
    _ = W0 m ρ c (Proc.devRef .tc main_arg12) := (StableHlo.after_of_forall_not_mem (b := Proc.devRef .tc main_arg12) _ _ (List.forall_iff_forall_mem.mp (by not_written hostOps0)))

theorem carry_main_v8_1_5 : W5 m ρ c (Proc.devRef .tc main_v8) = W1 m ρ c (Proc.devRef .tc main_v8) :=
  calc W5 m ρ c (Proc.devRef .tc main_v8)
    _ = W4 m ρ c (Proc.devRef .tc main_v8) := (StableHlo.after_of_forall_not_mem (b := Proc.devRef .tc main_v8) _ _ (List.forall_iff_forall_mem.mp (by not_written hostOps2)))
    _ = W3 m ρ c (Proc.devRef .tc main_v8) := (W4_of_ne m ρ c main_v8 (by decide))
    _ = W2 m ρ c (Proc.devRef .tc main_v8) := (StableHlo.after_of_forall_not_mem (b := Proc.devRef .tc main_v8) _ _ (List.forall_iff_forall_mem.mp (by not_written hostOps1)))
    _ = W1 m ρ c (Proc.devRef .tc main_v8) := ((W2_arr m ρ c 2).trans (((dat0 (V1 m ρ) c).arrAt_in 2 rfl _).trans (A_eq0 (V1 m ρ) c 2)))

theorem carry_main_v8_5_9 : W9 m ρ c (Proc.devRef .tc main_v8) = W5 m ρ c (Proc.devRef .tc main_v8) :=
  calc W9 m ρ c (Proc.devRef .tc main_v8)
    _ = W8 m ρ c (Proc.devRef .tc main_v8) := (StableHlo.after_of_forall_not_mem (b := Proc.devRef .tc main_v8) _ _ (List.forall_iff_forall_mem.mp (by not_written hostOps4)))
    _ = W7 m ρ c (Proc.devRef .tc main_v8) := (W8_of_ne m ρ c main_v8 (by decide))
    _ = W6 m ρ c (Proc.devRef .tc main_v8) := (StableHlo.after_of_forall_not_mem (b := Proc.devRef .tc main_v8) _ _ (List.forall_iff_forall_mem.mp (by not_written hostOps3)))
    _ = W5 m ρ c (Proc.devRef .tc main_v8) := ((W6_arr m ρ c 2).trans (((dat2 (V5 m ρ) c).arrAt_in 2 rfl _).trans (A_eq2 (V5 m ρ) c 2)))

theorem carry_main_v19_0_2_3 : W3 m ρ c (Proc.devRef .tc main_v19_0) = W2 m ρ c (Proc.devRef .tc main_v19_0) :=
  calc W3 m ρ c (Proc.devRef .tc main_v19_0)
    _ = W2 m ρ c (Proc.devRef .tc main_v19_0) := (StableHlo.after_of_forall_not_mem (b := Proc.devRef .tc main_v19_0) _ _ (List.forall_iff_forall_mem.mp (by not_written hostOps1)))

theorem carry_main_v34_4_5 : W5 m ρ c (Proc.devRef .tc main_v34) = W4 m ρ c (Proc.devRef .tc main_v34) :=
  calc W5 m ρ c (Proc.devRef .tc main_v34)
    _ = W4 m ρ c (Proc.devRef .tc main_v34) := (StableHlo.after_of_forall_not_mem (b := Proc.devRef .tc main_v34) _ _ (List.forall_iff_forall_mem.mp (by not_written hostOps2)))

theorem carry_main_v45_0_6_7 : W7 m ρ c (Proc.devRef .tc main_v45_0) = W6 m ρ c (Proc.devRef .tc main_v45_0) :=
  calc W7 m ρ c (Proc.devRef .tc main_v45_0)
    _ = W6 m ρ c (Proc.devRef .tc main_v45_0) := (StableHlo.after_of_forall_not_mem (b := Proc.devRef .tc main_v45_0) _ _ (List.forall_iff_forall_mem.mp (by not_written hostOps3)))

theorem carry_main_v60_8_9 : W9 m ρ c (Proc.devRef .tc main_v60) = W8 m ρ c (Proc.devRef .tc main_v60) :=
  calc W9 m ρ c (Proc.devRef .tc main_v60)
    _ = W8 m ρ c (Proc.devRef .tc main_v60) := (StableHlo.after_of_forall_not_mem (b := Proc.devRef .tc main_v60) _ _ (List.forall_iff_forall_mem.mp (by not_written hostOps4)))

end Cert.KernelIdeal.Named

end
-- ==== Proof.LinTile.lean ====
/-
  One row tile of the linear part, read at an index.

  A tile holds 5000 consecutive rows.  Its payload is the sum of two plain matrix products into a zero accumulator:
  the tile of h against Ws, and the tile of the raw aggregate, each row scaled by that row's entry of the column δ,
  against Wn.  Narrowing an operand to bf16 changes nothing at the extended reals, and a column [5000, 1] broadcast
  over the columns reads, at (p, c), the column's entry p.  So at (p, q) the payload is
      ∑ k, x0 (p, k) · ws (k, q)  +  ∑ k, (x1 (p, k) · d (p, 0)) · wn (k, q).
  When the tile's rows are rows t·5000 … t·5000 + 4999 of whole arrays and the two tables are the whole weight
  tables, that is the whole-array linear part at row t·5000 + p: the bridge from a tile to the array.

  Everything is over variables of literal shapes, generic in the output width D, so that each region instantiates it
  at its own blocks.
-/
import Idealize.ShloMosaic.PureOps.Ideal.Laws
import Idealize.ShloMosaic.Lib.ValueIdx
import Idealize.ShloMosaic.Lib.ValueLayout
import proofs.«156231_j12695923327564_2_alg».proof.Proof.Spec
import proofs.«156231_j12695923327564_2_alg».proof.Proof.LibTileMatmul
import proofs.«156231_j12695923327564_2_alg».proof.Proof.LibKeepdims

noncomputable section

open scoped BigOperators

namespace Cert.Sage.Region

open Idealize.ShloMosaic Idealize.ShloMosaic.ValueIdx Idealize.ShloMosaic.TileMatmul

/-- The two products of a tile, added, at (p, q): the operands narrowed to bf16 (the identity here), the second left
    operand the aggregate tile times the column δ broadcast over the columns, both accumulators zero. -/
theorem linPay_apply {D : ℕ}
    (w : DotDims.WF ⟨2, ![5000, 128]⟩ ⟨2, ![128, D]⟩ ⟨2, ![5000, D]⟩ [1] [0] [0] [1] [] [])
    (hb : (⟨2, ![5000, 1]⟩ : Shape).Broadcasts ⟨2, ![5000, 128]⟩) (hbits : FTy.bf16.bits < FTy.f32.bits)
    (x0 x1 : FVec Ideal ⟨2, ![5000, 128]⟩ .f32) (d : FVec Ideal ⟨2, ![5000, 1]⟩ .f32)
    (ws wn : FVec Ideal ⟨2, ![128, D]⟩ .f32) (p : Fin 5000) (q : Fin D) :
    addf
        (matmul (F := Ideal) (plainDims w) none (truncf .bf16 x0 hbits) (truncf .bf16 ws hbits)
          (constant (F := Ideal) ⟨2, ![5000, D]⟩ .f32 0x00000000#32))
        (matmul (F := Ideal) (plainDims w) none
          (truncf .bf16 (mulf x1 (broadcastTo ⟨2, ![5000, 128]⟩ d hb)) hbits) (truncf .bf16 wn hbits)
          (constant (F := Ideal) ⟨2, ![5000, D]⟩ .f32 0x00000000#32)) (ix2 p q)
      = (∑ k : Fin 128, x0 (ix2 p k) * ws (ix2 k q)) + ∑ k : Fin 128, (x1 (ix2 p k) * d (ix2 p 0)) * wn (ix2 k q) := by
  rw [addf_apply, matmul_zero_apply, matmul_zero_apply]
  refine congrArg₂ (· + ·) rfl (Finset.sum_congr rfl fun k _ => ?_)
  rw [truncf_apply, truncf_apply, mulf_apply, broadcastTo_a1_ab_apply]

/-- THE BRIDGE from a tile to the array.  If the tile's three row blocks are rows `tileRow t ·` of whole arrays
    and its two tables are the whole weight tables, the tile's value at (p, q) is the whole-array linear part at
    row `tileRow t p`, column q. -/
theorem linTile_eq_linKAt {D : ℕ} (H A : Arr2 100000 128) (δ : Arr2 100000 1) (Ws Wn : Arr2 128 D)
    (x0 x1 : Arr2 5000 128) (d : Arr2 5000 1) (ws wn : Arr2 128 D) (t : Fin 20)
    (h0 : ∀ (p : Fin 5000) (k : Fin 128), x0 (ix2 p k) = H (ix2 (tileRow t p) k))
    (h1 : ∀ (p : Fin 5000) (k : Fin 128), x1 (ix2 p k) = A (ix2 (tileRow t p) k))
    (h2 : ∀ p : Fin 5000, d (ix2 p 0) = δ (ix2 (tileRow t p) 0))
    (h3 : ∀ (k : Fin 128) (q : Fin D), ws (ix2 k q) = Ws (ix2 k q))
    (h4 : ∀ (k : Fin 128) (q : Fin D), wn (ix2 k q) = Wn (ix2 k q)) (p : Fin 5000) (q : Fin D) :
    (∑ k : Fin 128, x0 (ix2 p k) * ws (ix2 k q)) + ∑ k : Fin 128, (x1 (ix2 p k) * d (ix2 p 0)) * wn (ix2 k q)
      = linKAt H A δ Ws Wn (tileRow t p) q := by
  unfold linKAt
  refine congrArg₂ (· + ·) (Finset.sum_congr rfl fun k _ => ?_) (Finset.sum_congr rfl fun k _ => ?_)
  · rw [h0, h3]
  · rw [h1, h2, h4]

end Cert.Sage.Region

end
-- ==== Proof.RegionLin0.lean ====
/-
  The linear output of the first layer's region, as one function of whole arrays.

  The region runs over twenty grid points.  Point t stages rows t·5000 … t·5000 + 4999 of three arrays — the layer's
  input h [N, 128], the raw aggregate [N, 128] and the column δ [N, 1] — together with the two whole weight tables
  [128, 128], and writes back one tile of 5000 rows of the output [N, 128].  The tile it writes is
      x0 · Ws + (x1 ⊙ δ-tile) · Wn
  of the staged blocks, which, the blocks being rows of the whole arrays, is rows t·5000 … of the whole-array
  linear part  h · Ws + (a ⊙ δ) · Wn.  Row r of the output lies in the block of point r / 5000, so the twenty
  blocks tile the array and the array ends holding the linear part everywhere.

  A block's element (p, q) sits in its array at (block index · block rows + p, q); the block indices of every
  window are read off the index maps once, over the whole grid.  The statements about one tile are over a variable
  tile and a variable array, and are used at the region's own blocks only afterwards.
-/
import proofs.«156231_j12695923327564_2_alg».proof.Proof.Gen.KernelIdeal.Frame
import Idealize.ShloMosaic.Lib.Pipeline.Value
import proofs.«156231_j12695923327564_2_alg».proof.Proof.LinTile

noncomputable section

open scoped BigOperators

namespace Cert.Sage.Region

open Cert.KernelIdeal Cert.KernelIdeal.Gen Idealize.ShloMosaic Idealize.ShloMosaic.TcCoe Idealize.SL.Sem
open Idealize.ShloMosaic.ValueIdx Idealize.ShloMosaic.TileMatmul
open Idealize.ShloMosaic.Pipeline (Dat)

/-- The zero offsets of a whole-buffer access, as the constant function. -/
theorem offsets0_zero : (![0, 0] : Fin 2 → Nat) = fun _ => 0 := funext fun a => by fin_cases a <;> rfl

/-- The tile the body stores, at (p, q): the two products of the staged blocks, added. -/
theorem pay0_apply (x0 x1 : Vec Ideal S5000x128 .f32) (x2 : Vec Ideal S5000x1 .f32) (x3 x4 : Vec Ideal S128x128 .f32)
    (p : Fin 5000) (q : Fin 128) :
    k0_pay2 (F := Ideal) x0 x1 x2 x3 x4 (ix2 p q)
      = (∑ k : Fin 128, x0 (ix2 p k) * x3 (ix2 k q)) + ∑ k : Fin 128, (x1 (ix2 p k) * x2 (ix2 p 0)) * x4 (ix2 k q) := by
  unfold k0_pay2
  rw [shapeCast_self, shapeCast_self]
  exact linPay_apply dot_S5000x128_S128x128_S5000x128_1_0_0_1_n_n_wf broadcasts_S5000x1_S5000x128 bitsLt_bf16_f32
    x0 x1 x2 x3 x4 p q

/-- The block indices at point t, for every window the linear output depends on: the three row-tiled inputs and the
    output sit at block (t, 0), the two weight tables at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the input h, at (p, k), is the array at row tileRow t p. -/
theorem read0_0 (t : Fin cfg0.N) (G : S100000x128.Idx → EReal) (p : Fin 5000) (k : Fin 128) :
    (((cfg0.win 0).blk t).view.read (Elt Ideal) G : S5000x128.Idx → EReal) (ix2 p k)
      = G (ix2 (tileRow (Fin.cast N_0 t) p) k) := by
  obtain ⟨e0, e1, -⟩ := idx0 t
  show G (((cfg0.win 0).blk t).view.emb (ix2 p k)) = _
  refine congrArg G (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Block t of the raw aggregate, likewise. -/
theorem read0_1 (t : Fin cfg0.N) (G : S100000x128.Idx → EReal) (p : Fin 5000) (k : Fin 128) :
    (((cfg0.win 1).blk t).view.read (Elt Ideal) G : S5000x128.Idx → EReal) (ix2 p k)
      = G (ix2 (tileRow (Fin.cast N_0 t) p) k) := by
  obtain ⟨-, -, e0, e1, -⟩ := idx0 t
  show G (((cfg0.win 1).blk t).view.emb (ix2 p k)) = _
  refine congrArg G (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- Block t of the column δ, at (p, 0), is the column at row tileRow t p. -/
theorem read0_2 (t : Fin cfg0.N) (G : S100000x1.Idx → EReal) (p : Fin 5000) :
    (((cfg0.win 2).blk t).view.read (Elt Ideal) G : S5000x1.Idx → EReal) (ix2 p 0)
      = G (ix2 (tileRow (Fin.cast N_0 t) p) 0) := by
  obtain ⟨-, -, -, -, e0, e1, -⟩ := idx0 t
  show G (((cfg0.win 2).blk t).view.emb (ix2 p 0)) = _
  refine congrArg G (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- The one block of the table Ws is the table. -/
theorem read0_3 (t : Fin cfg0.N) (G : S128x128.Idx → EReal) (k q : Fin 128) :
    (((cfg0.win 3).blk t).view.read (Elt Ideal) G : S128x128.Idx → EReal) (ix2 k q) = G (ix2 k q) := by
  obtain ⟨-, -, -, -, -, -, e0, e1, -⟩ := idx0 t
  show G (((cfg0.win 3).blk t).view.emb (ix2 k q)) = _
  refine congrArg G (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The one block of the table Wn is the table. -/
theorem read0_4 (t : Fin cfg0.N) (G : S128x128.Idx → EReal) (k q : Fin 128) :
    (((cfg0.win 4).blk t).view.read (Elt Ideal) G : S128x128.Idx → EReal) (ix2 k q) = G (ix2 k q) := by
  obtain ⟨-, -, -, -, -, -, -, -, e0, e1, -⟩ := idx0 t
  show G (((cfg0.win 4).blk t).view.emb (ix2 k q)) = _
  refine congrArg G (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- A tile X written back at point t is block t of a whole array G as soon as X at (p, q) is G at row
    tileRow t p, column q. -/
theorem write0_5 (t : Fin cfg0.N) (X : S5000x128.Idx → EReal) (G : S100000x128.Idx → EReal)
    (h : ∀ (p : Fin 5000) (q : Fin 128), X (ix2 p q) = G (ix2 (tileRow (Fin.cast N_0 t) p) q)) :
    (cfg0.win 5).cut (grid0.coords t) X = ((cfg0.win 5).blk t).view.read (Elt Ideal) G := by
  obtain ⟨-, -, -, -, -, -, -, -, -, -, e0, e1⟩ := idx0 t
  funext j
  have hj0 : (j 0).val < 5000 := (j 0).isLt
  have hj1 : (j 1).val < 128 := (j 1).isLt
  show X ((cfg0.win 5).xinj (grid0.coords t) j) = G (((cfg0.win 5).blk t).view.emb j)
  have hx : (cfg0.win 5).xinj (grid0.coords t) j = ix2 (⟨(j 0).val, hj0⟩ : Fin 5000) (⟨(j 1).val, hj1⟩ : Fin 128) :=
    funext fun a => Fin.ext (by match a with | ⟨0, _⟩ => rfl | ⟨1, _⟩ => rfl)
  rw [hx, h]
  refine congrArg G (funext fun a => Fin.ext ?_)
  match a with
  | ⟨0, _⟩ => show t.val * 5000 + (j 0).val = win0_5.index t (0 : Fin 2) * 5000 + 1 * (j 0).val; rw [e0]; omega
  | ⟨1, _⟩ => show (j 1).val = win0_5.index t (1 : Fin 2) * 128 + 1 * (j 1).val; rw [e1]; omega

variable (V : (c : Dev nD) → (b : Ref sig .tc) → Buf (Elt Ideal) ((c : Thread nD τ).loc b))

/-- What point t writes back to the output window is block t of the whole-array linear part. -/
theorem flushed0_eq (c : Dev nD) (t : Fin cfg0.N) :
    (dat0 (F := Ideal) V c).flushed 5 t = ((cfg0.win 5).blk t).view.read (Elt Ideal)
      (linK (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero offsets0_zero]
  simp only [View.ld_unit_zero (S := S5000x128) offsets0_zero, View.ld_unit_zero (S := S5000x1) offsets0_zero,
    View.ld_unit_zero (S := S128x128) offsets0_zero]
  refine write0_5 t _ _ fun p q => ?_
  refine (pay0_apply (iblk0 V c 0 t) (iblk0 V c 1 t) (iblk0 V c 2 t) (iblk0 V c 3 t) (iblk0 V c 4 t) p q).trans ?_
  exact linTile_eq_linKAt (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t) (Fin.cast N_0 t)
    (fun p k => read0_0 t _ p k) (fun p k => read0_1 t _ p k) (fun p => read0_2 t _ p)
    (fun k q => read0_3 t _ k q) (fun k q => read0_4 t _ k q) p q

/-- An index of the output array is in point t's block iff each coordinate is in the block's range on its axis. -/
theorem mem_blk0_5 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v19_0).slice (win0_5.rect t)).set ↔ _
  rw [View.set_slice_whole, Rect.mem_set_unit]
  exact Iff.rfl

/-- Row r lies in the block of point r / 5000: the twenty blocks tile the output array. -/
theorem cover0_5_rows (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨-, -, -, -, -, -, -, -, -, -, e0, e1⟩ := idx0 t
  refine ⟨t, flush0_5 t, ?_⟩
  rw [mem_blk0_5]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- THE FIRST LAYER'S LINEAR OUTPUT: after the region the output array is the whole-array linear part of the five
    input arrays as the region finds them. -/
theorem lin0 (c : Dev nD) :
    (dat0 (F := Ideal) V c).arrAt 5 cfg0.N
      = linK (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => flushed0_eq V c t) cover0_5_rows

end Cert.Sage.Region

end
-- ==== Proof.RegionLin2.lean ====
/-
  The linear output of the second layer's region, as one function of whole arrays.

  The region runs over twenty grid points.  Point t stages rows t·5000 … t·5000 + 4999 of three arrays — the layer's
  input h [N, 128] (the first layer's normalised output), its raw aggregate [N, 128] and the column δ [N, 1] —
  together with the two whole weight tables [128, 128], and writes back one tile of 5000 rows of the output
  [N, 128].  The tile it writes is
      x0 · Ws + (x1 ⊙ δ-tile) · Wn
  of the staged blocks, which, the blocks being rows of the whole arrays, is rows t·5000 … of the whole-array
  linear part  h · Ws + (a ⊙ δ) · Wn.  Row r of the output lies in the block of point r / 5000, so the twenty
  blocks tile the array and the array ends holding the linear part everywhere.

  A block's element (p, q) sits in its array at (block index · block rows + p, q); the block indices of every
  window are read off the index maps once, over the whole grid.  The statements about one tile are over a variable
  tile and a variable array, and are used at the region's own blocks only afterwards.
-/
import proofs.«156231_j12695923327564_2_alg».proof.Proof.Gen.KernelIdeal.Frame
import Idealize.ShloMosaic.Lib.Pipeline.Value
import proofs.«156231_j12695923327564_2_alg».proof.Proof.LinTile

noncomputable section

open scoped BigOperators

namespace Cert.Sage.Region

open Cert.KernelIdeal Cert.KernelIdeal.Gen Idealize.ShloMosaic Idealize.ShloMosaic.TcCoe Idealize.SL.Sem
open Idealize.ShloMosaic.ValueIdx Idealize.ShloMosaic.TileMatmul
open Idealize.ShloMosaic.Pipeline (Dat)

/-- The zero offsets of a whole-buffer access, as the constant function. -/
theorem offsets2_zero : (![0, 0] : Fin 2 → Nat) = fun _ => 0 := funext fun a => by fin_cases a <;> rfl

/-- The tile the body stores, at (p, q): the two products of the staged blocks, added. -/
theorem pay2_apply (x0 x1 : Vec Ideal S5000x128 .f32) (x2 : Vec Ideal S5000x1 .f32) (x3 x4 : Vec Ideal S128x128 .f32)
    (p : Fin 5000) (q : Fin 128) :
    k2_pay2 (F := Ideal) x0 x1 x2 x3 x4 (ix2 p q)
      = (∑ k : Fin 128, x0 (ix2 p k) * x3 (ix2 k q)) + ∑ k : Fin 128, (x1 (ix2 p k) * x2 (ix2 p 0)) * x4 (ix2 k q) := by
  unfold k2_pay2
  rw [shapeCast_self, shapeCast_self, shapeCast_self]
  exact linPay_apply dot_S5000x128_S128x128_S5000x128_1_0_0_1_n_n_wf broadcasts_S5000x1_S5000x128 bitsLt_bf16_f32
    x0 x1 x2 x3 x4 p q

/-- The block indices at point t, for every window the linear output depends on: the three row-tiled inputs and the
    output sit at block (t, 0), the two weight tables at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block t of the input h, at (p, k), is the array at row tileRow t p. -/
theorem read2_0 (t : Fin cfg2.N) (G : S100000x128.Idx → EReal) (p : Fin 5000) (k : Fin 128) :
    (((cfg2.win 0).blk t).view.read (Elt Ideal) G : S5000x128.Idx → EReal) (ix2 p k)
      = G (ix2 (tileRow (Fin.cast N_2 t) p) k) := by
  obtain ⟨e0, e1, -⟩ := idx2 t
  show G (((cfg2.win 0).blk t).view.emb (ix2 p k)) = _
  refine congrArg G (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- Block t of the raw aggregate, likewise. -/
theorem read2_1 (t : Fin cfg2.N) (G : S100000x128.Idx → EReal) (p : Fin 5000) (k : Fin 128) :
    (((cfg2.win 1).blk t).view.read (Elt Ideal) G : S5000x128.Idx → EReal) (ix2 p k)
      = G (ix2 (tileRow (Fin.cast N_2 t) p) k) := by
  obtain ⟨-, -, e0, e1, -⟩ := idx2 t
  show G (((cfg2.win 1).blk t).view.emb (ix2 p k)) = _
  refine congrArg G (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 128 + 1 * k.val = k.val; rw [e1]; omega

/-- Block t of the column δ, at (p, 0), is the column at row tileRow t p. -/
theorem read2_2 (t : Fin cfg2.N) (G : S100000x1.Idx → EReal) (p : Fin 5000) :
    (((cfg2.win 2).blk t).view.read (Elt Ideal) G : S5000x1.Idx → EReal) (ix2 p 0)
      = G (ix2 (tileRow (Fin.cast N_2 t) p) 0) := by
  obtain ⟨-, -, -, -, e0, e1, -⟩ := idx2 t
  show G (((cfg2.win 2).blk t).view.emb (ix2 p 0)) = _
  refine congrArg G (funext fun a => Fin.ext ?_)
  match a with
  | ⟨0, _⟩ => show win2_2.index t (0 : Fin 2) * 5000 + 1 * p.val = t.val * 5000 + p.val; rw [e0]; omega
  | ⟨1, _⟩ => show win2_2.index t (1 : Fin 2) * 1 + 1 * 0 = 0; rw [e1]

/-- The one block of the table Ws is the table. -/
theorem read2_3 (t : Fin cfg2.N) (G : S128x128.Idx → EReal) (k q : Fin 128) :
    (((cfg2.win 3).blk t).view.read (Elt Ideal) G : S128x128.Idx → EReal) (ix2 k q) = G (ix2 k q) := by
  obtain ⟨-, -, -, -, -, -, e0, e1, -⟩ := idx2 t
  show G (((cfg2.win 3).blk t).view.emb (ix2 k q)) = _
  refine congrArg G (funext fun a => Fin.ext ?_)
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- The one block of the table Wn is the table. -/
theorem read2_4 (t : Fin cfg2.N) (G : S128x128.Idx → EReal) (k q : Fin 128) :
    (((cfg2.win 4).blk t).view.read (Elt Ideal) G : S128x128.Idx → EReal) (ix2 k q) = G (ix2 k q) := by
  obtain ⟨-, -, -, -, -, -, -, -, e0, e1, -⟩ := idx2 t
  show G (((cfg2.win 4).blk t).view.emb (ix2 k q)) = _
  refine congrArg G (funext fun a => Fin.ext ?_)
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- A tile X written back at point t is block t of a whole array G as soon as X at (p, q) is G at row
    tileRow t p, column q. -/
theorem write2_5 (t : Fin cfg2.N) (X : S5000x128.Idx → EReal) (G : S100000x128.Idx → EReal)
    (h : ∀ (p : Fin 5000) (q : Fin 128), X (ix2 p q) = G (ix2 (tileRow (Fin.cast N_2 t) p) q)) :
    (cfg2.win 5).cut (grid2.coords t) X = ((cfg2.win 5).blk t).view.read (Elt Ideal) G := by
  obtain ⟨-, -, -, -, -, -, -, -, -, -, e0, e1⟩ := idx2 t
  funext j
  have hj0 : (j 0).val < 5000 := (j 0).isLt
  have hj1 : (j 1).val < 128 := (j 1).isLt
  show X ((cfg2.win 5).xinj (grid2.coords t) j) = G (((cfg2.win 5).blk t).view.emb j)
  have hx : (cfg2.win 5).xinj (grid2.coords t) j = ix2 (⟨(j 0).val, hj0⟩ : Fin 5000) (⟨(j 1).val, hj1⟩ : Fin 128) :=
    funext fun a => Fin.ext (by match a with | ⟨0, _⟩ => rfl | ⟨1, _⟩ => rfl)
  rw [hx, h]
  refine congrArg G (funext fun a => Fin.ext ?_)
  match a with
  | ⟨0, _⟩ => show t.val * 5000 + (j 0).val = win2_5.index t (0 : Fin 2) * 5000 + 1 * (j 0).val; rw [e0]; omega
  | ⟨1, _⟩ => show (j 1).val = win2_5.index t (1 : Fin 2) * 128 + 1 * (j 1).val; rw [e1]; omega

variable (V : (c : Dev nD) → (b : Ref sig .tc) → Buf (Elt Ideal) ((c : Thread nD τ).loc b))

/-- What point t writes back to the output window is block t of the whole-array linear part. -/
theorem flushed2_eq (c : Dev nD) (t : Fin cfg2.N) :
    (dat2 (F := Ideal) V c).flushed 5 t = ((cfg2.win 5).blk t).view.read (Elt Ideal)
      (linK (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero offsets2_zero]
  simp only [View.ld_unit_zero (S := S5000x128) offsets2_zero, View.ld_unit_zero (S := S5000x1) offsets2_zero,
    View.ld_unit_zero (S := S128x128) offsets2_zero]
  refine write2_5 t _ _ fun p q => ?_
  refine (pay2_apply (iblk2 V c 0 t) (iblk2 V c 1 t) (iblk2 V c 2 t) (iblk2 V c 3 t) (iblk2 V c 4 t) p q).trans ?_
  exact linTile_eq_linKAt (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) (iblk2 V c 2 t) (iblk2 V c 3 t) (iblk2 V c 4 t) (Fin.cast N_2 t)
    (fun p k => read2_0 t _ p k) (fun p k => read2_1 t _ p k) (fun p => read2_2 t _ p)
    (fun k q => read2_3 t _ k q) (fun k q => read2_4 t _ k q) p q

/-- An index of the output array is in point t's block iff each coordinate is in the block's range on its axis. -/
theorem mem_blk2_5 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v45_0).slice (win2_5.rect t)).set ↔ _
  rw [View.set_slice_whole, Rect.mem_set_unit]
  exact Iff.rfl

/-- Row r lies in the block of point r / 5000: the twenty blocks tile the output array. -/
theorem cover2_5_rows (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have ht : t.val = (i 0).val / 5000 := rfl
  obtain ⟨-, -, -, -, -, -, -, -, -, -, e0, e1⟩ := idx2 t
  refine ⟨t, flush2_5 t, ?_⟩
  rw [mem_blk2_5]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 128 ≤ (i 1).val ∧ (i 1).val < win2_5.index t (1 : Fin 2) * 128 + 128
    rw [e1]; omega

/-- THE SECOND LAYER'S LINEAR OUTPUT: after the region the output array is the whole-array linear part of the five
    input arrays as the region finds them. -/
theorem lin2 (c : Dev nD) :
    (dat2 (F := Ideal) V c).arrAt 5 cfg2.N
      = linK (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => flushed2_eq V c t) cover2_5_rows

end Cert.Sage.Region

end
-- ==== Proof.RegionOut4.lean ====
/-
  The output of the last layer's region, as one function of whole arrays.

  The region runs over twenty grid points.  Point t stages rows t·5000 … t·5000 + 4999 of three arrays — the layer's
  input h [N, 128] (the second layer's normalised output), its raw aggregate [N, 128] and the column δ [N, 1] —
  together with the two whole weight tables [128, 40] and the whole bias row [1, 40], and writes back one tile of
  5000 rows of the output [N, 40].  The tile it writes is
      x0 · Ws + (x1 ⊙ δ-tile) · Wn + bias (the row repeated down the tile)
  of the staged blocks, which, the blocks being rows of the whole arrays, is rows t·5000 … of the whole-array
  linear part  h · Ws + (a ⊙ δ) · Wn  plus the bias row.  Row r of the output lies in the block of point r / 5000,
  so the twenty blocks tile the array and the array ends holding that everywhere.

  A block's element (p, q) sits in its array at (block index · block rows + p, q); the block indices of every
  window are read off the index maps once, over the whole grid.  The statements about one tile are over a variable
  tile and a variable array, and are used at the region's own blocks only afterwards.
-/
import proofs.«156231_j12695923327564_2_alg».proof.Proof.Gen.KernelIdeal.Frame
import Idealize.ShloMosaic.Lib.Pipeline.Value
import proofs.«156231_j12695923327564_2_alg».proof.Proof.LinTile

noncomputable section

open scoped BigOperators

namespace Cert.Sage.Region

open Cert.KernelIdeal Cert.KernelIdeal.Gen Idealize.ShloMosaic Idealize.ShloMosaic.TcCoe Idealize.SL.Sem
open Idealize.ShloMosaic.ValueIdx Idealize.ShloMosaic.TileMatmul
open Idealize.ShloMosaic.Pipeline (Dat)

/-- The zero offsets of a whole-buffer access, as the constant function. -/
theorem offsets4_zero : (![0, 0] : Fin 2 → Nat) = fun _ => 0 := funext fun a => by fin_cases a <;> rfl

/-- The tile the body stores, at (p, q): the two products of the staged blocks, added, plus the bias row's entry q. -/
theorem pay4_apply (x0 x1 : Vec Ideal S5000x128 .f32) (x2 : Vec Ideal S5000x1 .f32) (x3 x4 : Vec Ideal S128x40 .f32)
    (x5 : Vec Ideal S1x40 .f32) (p : Fin 5000) (q : Fin 40) :
    k4_pay1 (F := Ideal) x0 x1 x2 x3 x4 x5 (ix2 p q)
      = ((∑ k : Fin 128, x0 (ix2 p k) * x3 (ix2 k q)) + ∑ k : Fin 128, (x1 (ix2 p k) * x2 (ix2 p 0)) * x4 (ix2 k q))
          + x5 (ix2 0 q) := by
  unfold k4_pay1
  rw [shapeCast_self, shapeCast_self, shapeCast_self, shapeCast_self]
  refine (addf_apply _ _ _).trans ?_
  exact congrArg₂ (· + ·)
    (linPay_apply dot_S5000x128_S128x40_S5000x40_1_0_0_1_n_n_wf broadcasts_S5000x1_S5000x128 bitsLt_bf16_f32
      x0 x1 x2 x3 x4 p q)
    (broadcastTo_1b_ab_apply x5 broadcasts_S1x40_S5000x40 p q)

/-- The block indices at point t: the three row-tiled inputs and the output sit at block (t, 0), the two weight
    tables and the bias row at block (0, 0). -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Block t of the input h, at (p, k), is the array at row tileRow t p. -/
theorem read4_0 (t : Fin cfg4.N) (G : S100000x128.Idx → EReal) (p : Fin 5000) (k : Fin 128) :
    (((cfg4.win 0).blk t).view.read (Elt Ideal) G : S5000x128.Idx → EReal) (ix2 p k)
      = G (ix2 (tileRow (Fin.cast N_4 t) p) k) := by
  obtain ⟨e0, e1, -⟩ := idx4 t
  show G (((cfg4.win 0).blk t).view.emb (ix2 p k)) = _
  refine congrArg G (funext fun a => Fin.ext ?_)
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

/-- Block t of the raw aggregate, likewise. -/
theorem read4_1 (t : Fin cfg4.N) (G : S100000x128.Idx → EReal) (p : Fin 5000) (k : Fin 128) :
    (((cfg4.win 1).blk t).view.read (Elt Ideal) G : S5000x128.Idx → EReal) (ix2 p k)
      = G (ix2 (tileRow (Fin.cast N_4 t) p) k) := by
  obtain ⟨-, -, e0, e1, -⟩ := idx4 t
  show G (((cfg4.win 1).blk t).view.emb (ix2 p k)) = _
  refine congrArg G (funext fun a => Fin.ext ?_)
  match a with
  | ⟨0, _⟩ => show win4_1.index t (0 : Fin 2) * 5000 + 1 * p.val = t.val * 5000 + p.val; rw [e0]; omega
  | ⟨1, _⟩ => show win4_1.index t (1 : Fin 2) * 128 + 1 * k.val = k.val; rw [e1]; omega

/-- Block t of the column δ, at (p, 0), is the column at row tileRow t p. -/
theorem read4_2 (t : Fin cfg4.N) (G : S100000x1.Idx → EReal) (p : Fin 5000) :
    (((cfg4.win 2).blk t).view.read (Elt Ideal) G : S5000x1.Idx → EReal) (ix2 p 0)
      = G (ix2 (tileRow (Fin.cast N_4 t) p) 0) := by
  obtain ⟨-, -, -, -, e0, e1, -⟩ := idx4 t
  show G (((cfg4.win 2).blk t).view.emb (ix2 p 0)) = _
  refine congrArg G (funext fun a => Fin.ext ?_)
  match a with
  | ⟨0, _⟩ => show win4_2.index t (0 : Fin 2) * 5000 + 1 * p.val = t.val * 5000 + p.val; rw [e0]; omega
  | ⟨1, _⟩ => show win4_2.index t (1 : Fin 2) * 1 + 1 * 0 = 0; rw [e1]

/-- The one block of the table Ws is the table. -/
theorem read4_3 (t : Fin cfg4.N) (G : S128x40.Idx → EReal) (k : Fin 128) (q : Fin 40) :
    (((cfg4.win 3).blk t).view.read (Elt Ideal) G : S128x40.Idx → EReal) (ix2 k q) = G (ix2 k q) := by
  obtain ⟨-, -, -, -, -, -, e0, e1, -⟩ := idx4 t
  show G (((cfg4.win 3).blk t).view.emb (ix2 k q)) = _
  refine congrArg G (funext fun a => Fin.ext ?_)
  match a with
  | ⟨0, _⟩ => show win4_3.index t (0 : Fin 2) * 128 + 1 * k.val = k.val; rw [e0]; omega
  | ⟨1, _⟩ => show win4_3.index t (1 : Fin 2) * 40 + 1 * q.val = q.val; rw [e1]; omega

/-- The one block of the table Wn is the table. -/
theorem read4_4 (t : Fin cfg4.N) (G : S128x40.Idx → EReal) (k : Fin 128) (q : Fin 40) :
    (((cfg4.win 4).blk t).view.read (Elt Ideal) G : S128x40.Idx → EReal) (ix2 k q) = G (ix2 k q) := by
  obtain ⟨-, -, -, -, -, -, -, -, e0, e1, -⟩ := idx4 t
  show G (((cfg4.win 4).blk t).view.emb (ix2 k q)) = _
  refine congrArg G (funext fun a => Fin.ext ?_)
  match a with
  | ⟨0, _⟩ => show win4_4.index t (0 : Fin 2) * 128 + 1 * k.val = k.val; rw [e0]; omega
  | ⟨1, _⟩ => show win4_4.index t (1 : Fin 2) * 40 + 1 * q.val = q.val; rw [e1]; omega

/-- The one block of the bias row is the row. -/
theorem read4_5 (t : Fin cfg4.N) (G : S1x40.Idx → EReal) (q : Fin 40) :
    (((cfg4.win 5).blk t).view.read (Elt Ideal) G : S1x40.Idx → EReal) (ix2 0 q) = G (ix2 0 q) := by
  obtain ⟨-, -, -, -, -, -, -, -, -, -, e0, e1, -⟩ := idx4 t
  show G (((cfg4.win 5).blk t).view.emb (ix2 0 q)) = _
  refine congrArg G (funext fun a => Fin.ext ?_)
  match a with
  | ⟨0, _⟩ => show win4_5.index t (0 : Fin 2) * 1 + 1 * 0 = 0; rw [e0]
  | ⟨1, _⟩ => show win4_5.index t (1 : Fin 2) * 40 + 1 * q.val = q.val; rw [e1]; omega

/-- A tile X written back at point t is block t of a whole array G as soon as X at (p, q) is G at row
    tileRow t p, column q. -/
theorem write4_6 (t : Fin cfg4.N) (X : S5000x40.Idx → EReal) (G : S100000x40.Idx → EReal)
    (h : ∀ (p : Fin 5000) (q : Fin 40), X (ix2 p q) = G (ix2 (tileRow (Fin.cast N_4 t) p) q)) :
    (cfg4.win 6).cut (grid4.coords t) X = ((cfg4.win 6).blk t).view.read (Elt Ideal) G := by
  obtain ⟨-, -, -, -, -, -, -, -, -, -, -, -, e0, e1⟩ := idx4 t
  funext j
  have hj0 : (j 0).val < 5000 := (j 0).isLt
  have hj1 : (j 1).val < 40 := (j 1).isLt
  show X ((cfg4.win 6).xinj (grid4.coords t) j) = G (((cfg4.win 6).blk t).view.emb j)
  have hx : (cfg4.win 6).xinj (grid4.coords t) j = ix2 (⟨(j 0).val, hj0⟩ : Fin 5000) (⟨(j 1).val, hj1⟩ : Fin 40) :=
    funext fun a => Fin.ext (by match a with | ⟨0, _⟩ => rfl | ⟨1, _⟩ => rfl)
  rw [hx, h]
  refine congrArg G (funext fun a => Fin.ext ?_)
  match a with
  | ⟨0, _⟩ => show t.val * 5000 + (j 0).val = win4_6.index t (0 : Fin 2) * 5000 + 1 * (j 0).val; rw [e0]; omega
  | ⟨1, _⟩ => show (j 1).val = win4_6.index t (1 : Fin 2) * 40 + 1 * (j 1).val; rw [e1]; omega

variable (V : (c : Dev nD) → (b : Ref sig .tc) → Buf (Elt Ideal) ((c : Thread nD τ).loc b))

/-- What point t writes back to the output window is block t of the whole-array linear part plus the bias row. -/
theorem flushed4_eq (c : Dev nD) (t : Fin cfg4.N) :
    (dat4 (F := Ideal) V c).flushed 6 t = ((cfg4.win 6).blk t).view.read (Elt Ideal)
      (addBiasK (linK (V c (Pipeline.arrRef spec4 0)) (V c (Pipeline.arrRef spec4 1)) (V c (Pipeline.arrRef spec4 2))
        (V c (Pipeline.arrRef spec4 3)) (V c (Pipeline.arrRef spec4 4))) (V c (Pipeline.arrRef spec4 5))) := by
  show (cfg4.win 6).cut (grid4.coords t) ((dat4 V c).after 6 t) = _
  rw [after4_6]
  unfold out4_6
  rw [View.canon_unit_zero offsets4_zero]
  simp only [View.ld_unit_zero (S := S5000x128) offsets4_zero, View.ld_unit_zero (S := S5000x1) offsets4_zero,
    View.ld_unit_zero (S := S128x40) offsets4_zero, View.ld_unit_zero (S := S1x40) offsets4_zero]
  refine write4_6 t _ _ fun p q => ?_
  refine (pay4_apply (iblk4 V c 0 t) (iblk4 V c 1 t) (iblk4 V c 2 t) (iblk4 V c 3 t) (iblk4 V c 4 t) (iblk4 V c 5 t)
    p q).trans ?_
  exact congrArg₂ (· + ·)
    (linTile_eq_linKAt (V c (Pipeline.arrRef spec4 0)) (V c (Pipeline.arrRef spec4 1)) (V c (Pipeline.arrRef spec4 2))
      (V c (Pipeline.arrRef spec4 3)) (V c (Pipeline.arrRef spec4 4))
      (iblk4 V c 0 t) (iblk4 V c 1 t) (iblk4 V c 2 t) (iblk4 V c 3 t) (iblk4 V c 4 t) (Fin.cast N_4 t)
      (fun p k => read4_0 t _ p k) (fun p k => read4_1 t _ p k) (fun p => read4_2 t _ p)
      (fun k q => read4_3 t _ k q) (fun k q => read4_4 t _ k q) p q)
    (read4_5 t (V c (Pipeline.arrRef spec4 5)) q)

/-- An index of the output array is in point t's block iff each coordinate is in the block's range on its axis. -/
theorem mem_blk4_6 (t : Fin cfg4.N) (i : S100000x40.Idx) :
    i ∈ ((cfg4.win 6).blk t).view.set ↔ ∀ a : Fin 2, win4_6.index t a * S5000x40.size a ≤ (i a).val
      ∧ (i a).val < win4_6.index t a * S5000x40.size a + S5000x40.size a := by
  show i ∈ ((View.whole main_v72).slice (win4_6.rect t)).set ↔ _
  rw [View.set_slice_whole, Rect.mem_set_unit]
  exact Iff.rfl

/-- Row r lies in the block of point r / 5000: the twenty blocks tile the output array. -/
theorem cover4_6_rows (i : S100000x40.Idx) :
    ∃ t : Fin cfg4.N, (cfg4.win 6).flush t = true ∧ i ∈ ((cfg4.win 6).blk t).view.set := by
  have hi0 : (i 0).val < 100000 := (i 0).isLt
  have hi1 : (i 1).val < 40 := (i 1).isLt
  have hN : cfg4.N = 20 := N_4
  let t : Fin cfg4.N := ⟨(i 0).val / 5000, by rw [hN]; omega⟩
  have ht : t.val = (i 0).val / 5000 := rfl
  obtain ⟨-, -, -, -, -, -, -, -, -, -, -, -, e0, e1⟩ := idx4 t
  refine ⟨t, flush4_6 t, ?_⟩
  rw [mem_blk4_6]
  intro a
  match a with
  | ⟨0, _⟩ =>
    show win4_6.index t (0 : Fin 2) * 5000 ≤ (i 0).val ∧ (i 0).val < win4_6.index t (0 : Fin 2) * 5000 + 5000
    rw [e0, ht]; omega
  | ⟨1, _⟩ =>
    show win4_6.index t (1 : Fin 2) * 40 ≤ (i 1).val ∧ (i 1).val < win4_6.index t (1 : Fin 2) * 40 + 40
    rw [e1]; omega

/-- THE LAST LAYER'S OUTPUT: after the region the output array is the whole-array linear part of the first five
    input arrays as the region finds them, plus the bias row. -/
theorem out4 (c : Dev nD) :
    (dat4 (F := Ideal) V c).arrAt 6 cfg4.N
      = addBiasK (linK (V c (Pipeline.arrRef spec4 0)) (V c (Pipeline.arrRef spec4 1)) (V c (Pipeline.arrRef spec4 2))
          (V c (Pipeline.arrRef spec4 3)) (V c (Pipeline.arrRef spec4 4))) (V c (Pipeline.arrRef spec4 5)) :=
  (dat4 (F := Ideal) V c).arrAt_eq_of_cover 6 _ (fun t _ => flushed4_eq V c t) cover4_6_rows

end Cert.Sage.Region

end
-- ==== Proof.StatsBlock.lean ====
/-
  The statistics block of one tile.

  A tile T has 5000 rows and 128 columns.  Its column sums form a vector of length 128; that vector is laid as a
  single row, repeated over 8 rows, and then kept only in row 0: the row number is compared with 0 and every other
  row takes the value 0.  The result, with a unit axis in front, is a block [1, 8, 128] whose entry (u, s, j) is

      ∑ r, T (r, j)   when s = 0,        0   when s ≠ 0.

  Both statistics outputs of a linear layer are this block: of the tile L itself for the sums, and of the entrywise
  square L ⊙ L for the sums of squares.  Read against the whole array, row r of tile t is row 5000·t + r, so the block
  of tile t is block t of `tileSums` of the whole linear array, or of its square.
-/
import proofs.«156231_j12695923327564_2_alg».proof.Proof.Gen.KernelIdeal.Skeleton
import proofs.«156231_j12695923327564_2_alg».proof.Proof.Spec
import Idealize.ShloMosaic.Lib.Pipeline.Value
import Idealize.ShloMosaic.Lib.ValueLayout
import Idealize.ShloMosaic.PureOps.Ideal.Laws

noncomputable section

open scoped BigOperators

namespace Cert.Sage.Region

open Idealize.ShloMosaic Idealize.ShloMosaic.ValueIdx Cert.KernelIdeal Cert.KernelIdeal.Gen

/-- The column sums of a tile, parked in row 0 of an 8-row block whose other rows are 0. -/
def statsBlock (T : FVec Ideal S5000x128 .f32) : FVec Ideal S1x8x128 .f32 :=
  shapeCast S1x8x128
    (select (cmpi .eq (iota .tc S8x128 32 [0] iota_S8x128_d0_w32) (broadcast S8x128 0#32))
      (broadcastTo S8x128
        (shapeCast S1x128
          (shapeCast S1x128
            (multiReduction .add [0] S128 T 0x00000000#32 reduces_S5000x128_S128 (.inl rfl) rfl)
            shapeCasts_S128_S1x128)
          shapeCasts_S1x128_S1x128)
        broadcasts_S1x128_S8x128)
      (k0_pay3 (F := Ideal)))
    shapeCasts_S8x128_S1x8x128

/-! ## The two layers' payloads are this block -/

/-- The first layer's block of sums is the statistics block of its linear tile. -/
theorem sumPayload0_eq (x0 x1 : Vec Ideal S5000x128 .f32) (x2 : Vec Ideal S5000x1 .f32) (x3 x4 : Vec Ideal S128x128 .f32) :
    k0_pay5 x0 x1 x2 x3 x4 = statsBlock (k0_pay2 x0 x1 x2 x3 x4) := rfl

/-- The first layer's block of sums of squares is the statistics block of the tile's entrywise square. -/
theorem sqPayload0_eq (x0 x1 : Vec Ideal S5000x128 .f32) (x2 : Vec Ideal S5000x1 .f32) (x3 x4 : Vec Ideal S128x128 .f32) :
    k0_pay1 (k0_pay4 x0 x1 x2 x3 x4) = statsBlock (mulf (k0_pay2 x0 x1 x2 x3 x4) (k0_pay2 x0 x1 x2 x3 x4)) := rfl

/-- The second layer's block of sums, likewise. -/
theorem sumPayload2_eq (x0 x1 : Vec Ideal S5000x128 .f32) (x2 : Vec Ideal S5000x1 .f32) (x3 x4 : Vec Ideal S128x128 .f32) :
    k2_pay5 x0 x1 x2 x3 x4 = statsBlock (k2_pay2 x0 x1 x2 x3 x4) := rfl

/-- The second layer's block of sums of squares, likewise. -/
theorem sqPayload2_eq (x0 x1 : Vec Ideal S5000x128 .f32) (x2 : Vec Ideal S5000x1 .f32) (x3 x4 : Vec Ideal S128x128 .f32) :
    k2_pay1 (k2_pay4 x0 x1 x2 x3 x4) = statsBlock (mulf (k2_pay2 x0 x1 x2 x3 x4) (k2_pay2 x0 x1 x2 x3 x4)) := rfl

/-! ## The block at an index -/

/-- A row number below 8, as a 32-bit word, equals the zero word exactly when the row is row 0. -/
theorem row0_word : ∀ s : Fin 8, IntOp.cmpi .eq (BitVec.ofNat 32 s.val) 0#32 = if s.val = 0 then 1#1 else 0#1 := by
  decide

/-- Summing over the rows: the index of the tile that lies over column j at row r is (r, j). -/
theorem lift_rows (j : Fin 128) (r : Fin 5000) :
    reduces_S5000x128_S128.lift (ix1 j) r = (ix2 r j : S5000x128.Idx) := by
  funext a
  apply Fin.ext
  match a with
  | ⟨0, _⟩ => rfl
  | ⟨1, _⟩ => rfl

/-- Entry (u, s, j) of the block: column j's sum over the 5000 rows in row 0, and 0 in rows 1 … 7. -/
theorem statsBlock_apply (T : FVec Ideal S5000x128 .f32) (u : Fin 1) (s : Fin 8) (j : Fin 128) :
    statsBlock T (ix3 u s j) = if s.val = 0 then ∑ r : Fin 5000, T (ix2 r j) else 0 := by
  unfold statsBlock
  refine (shapeCast_ab_1ab_apply _ shapeCasts_S8x128_S1x8x128 u s j).trans ?_
  rw [select_apply]
  have hc : cmpi .eq (iota .tc S8x128 32 [0] iota_S8x128_d0_w32) (broadcast S8x128 0#32) (ix2 s j)
      = if s.val = 0 then 1#1 else 0#1 := by
    show IntOp.cmpi .eq (iota .tc S8x128 32 [0] iota_S8x128_d0_w32 (ix2 s j)) (0#32) = _
    rw [iota_single_apply]
    exact row0_word s
  rw [hc]
  by_cases hs : s.val = 0
  · rw [if_pos hs, if_pos hs, select_one]
    refine (broadcastTo_1b_ab_apply _ broadcasts_S1x128_S8x128 s j).trans ?_
    rw [shapeCast_self]
    refine (shapeCast_a_1a_apply _ shapeCasts_S128_S1x128 0 j).trans ?_
    refine (Ideal.multiReduction_add_single T 0x00000000#32 reduces_S5000x128_S128 _ _ (ix1 j)).trans ?_
    exact Finset.sum_congr rfl fun r _ => congrArg T (lift_rows j r)
  · rw [if_neg hs, if_neg hs, select_zero]
    show Ideal.ofBits .f32 0x00000000#32 = 0
    exact Ideal.ofBits_zero_f32

/-! ## Against the whole array -/

/-- If the tile's entries are those of the linear array on the rows of tile t, its statistics block is block t of the
    whole array's tile sums. -/
theorem statsBlock_lin (H A : Arr2 100000 128) (δ : Arr2 100000 1) (Ws Wn : Arr2 128 128)
    (T : FVec Ideal S5000x128 .f32) (t : Fin 20)
    (hT : ∀ (p : Fin 5000) (q : Fin 128), T (ix2 p q) = linKAt H A δ Ws Wn (tileRow t p) q)
    (u : Fin 1) (s : Fin 8) (j : Fin 128) :
    statsBlock T (ix3 u s j) = tileSums (linK H A δ Ws Wn) (ix3 t s j) := by
  rw [statsBlock_apply]
  show _ = if s.val = 0 then ∑ r : Fin 5000, linKAt H A δ Ws Wn (tileRow t r) j else 0
  exact if_congr Iff.rfl (Finset.sum_congr rfl fun r _ => hT r j) rfl

/-- The same for the entrywise square of the tile against the square of the whole array. -/
theorem statsBlock_sq (H A : Arr2 100000 128) (δ : Arr2 100000 1) (Ws Wn : Arr2 128 128)
    (T : FVec Ideal S5000x128 .f32) (t : Fin 20)
    (hT : ∀ (p : Fin 5000) (q : Fin 128), T (ix2 p q) = linKAt H A δ Ws Wn (tileRow t p) q)
    (u : Fin 1) (s : Fin 8) (j : Fin 128) :
    statsBlock (mulf T T) (ix3 u s j) = tileSums (sq (linK H A δ Ws Wn)) (ix3 t s j) := by
  rw [statsBlock_apply]
  show _ = if s.val = 0 then ∑ r : Fin 5000, linKAt H A δ Ws Wn (tileRow t r) j * linKAt H A δ Ws Wn (tileRow t r) j else 0
  refine if_congr Iff.rfl (Finset.sum_congr rfl fun r _ => ?_) rfl
  rw [mulf_apply, hT r j]

end Cert.Sage.Region

end
-- ==== Proof.RegionStats0.lean ====
/-
  The two statistics outputs of the first normalised layer's linear pass, as whole arrays.

  The pass visits 20 tiles of 5000 rows.  At tile t it forms the linear tile
      L_t = x0 · Ws + (x1 ⊙ δ) · Wn
  from rows 5000·t … 5000·t + 4999 of the layer's input, of the aggregated input and of the reciprocal-degree column,
  and the two whole weight matrices; it then writes the column sums of L_t, and of L_t ⊙ L_t, each into row 0 of an
  8-row block with zeros below, and that block is block t of a [20, 8, 128] array.

  Row p of tile t is row 5000·t + p of the whole array, so L_t is the restriction of the whole linear array
  `linK` to the rows of tile t, and block t of each output is block t of `tileSums` of `linK`, respectively of its
  entrywise square.  The 20 blocks are disjoint and fill the [20, 8, 128] array — the block of tile t holds exactly the
  indices whose first coordinate is t — so each output array is `tileSums` of the whole array.
-/
import proofs.«156231_j12695923327564_2_alg».proof.Proof.Gen.KernelIdeal.Frame
import proofs.«156231_j12695923327564_2_alg».proof.Proof.StatsBlock
import proofs.«156231_j12695923327564_2_alg».proof.Proof.LinTile
import Idealize.ShloMosaic.Lib.Pipeline.Value

noncomputable section

open scoped BigOperators

namespace Cert.Sage.Region

open Idealize.ShloMosaic Idealize.ShloMosaic.ValueIdx Idealize.ShloMosaic.TcCoe Idealize.SL.Sem
open Idealize.ShloMosaic.TileMatmul
open Idealize.ShloMosaic.Pipeline (Dat)
open Cert.KernelIdeal Cert.KernelIdeal.Gen

/-- The zero offsets of a rank-2 access. -/
theorem zeroOffsets2_r0 : (![0, 0] : Fin 2 → Nat) = fun _ => 0 := funext fun a => by fin_cases a <;> rfl
/-- The zero offsets of a rank-3 access. -/
theorem zeroOffsets3_r0 : (![0, 0, 0] : Fin 3 → Nat) = fun _ => 0 := funext fun a => by fin_cases a <;> rfl

/-- A grid point of the first layer's statistics pass, as a tile number. -/
def tile0 (t : Fin cfg0.N) : Fin 20 := ⟨t.val, by have h := t.isLt; have hN : cfg0.N = 20 := N_0; omega⟩

/-- The linear tile at (p, q): row p of x0 against column q of Ws, plus row p of x1 scaled by δ's entry p against
    column q of Wn. -/
theorem linTile0_apply (x0 x1 : Vec Ideal S5000x128 .f32) (x2 : Vec Ideal S5000x1 .f32) (x3 x4 : Vec Ideal S128x128 .f32)
    (p : Fin 5000) (q : Fin 128) :
    k0_pay2 x0 x1 x2 x3 x4 (ix2 p q)
      = (∑ k : Fin 128, x0 (ix2 p k) * x3 (ix2 k q)) + ∑ k : Fin 128, (x1 (ix2 p k) * x2 (ix2 p 0)) * x4 (ix2 k q) := by
  unfold k0_pay2
  rw [shapeCast_self, shapeCast_self]
  exact linPay_apply dot_S5000x128_S128x128_S5000x128_1_0_0_1_n_n_wf broadcasts_S5000x1_S5000x128 bitsLt_bf16_f32 x0 x1 x2 x3 x4 p q

/-- What the pass leaves for the sums: the statistics block of the linear tile. -/
theorem sumOut0_eq (x0 x1 : Vec Ideal S5000x128 .f32) (x2 : Vec Ideal S5000x1 .f32) (x3 x4 : Vec Ideal S128x128 .f32) :
    out0_6 (F := Ideal) x0 x1 x2 x3 x4 = statsBlock (k0_pay2 x0 x1 x2 x3 x4) := by
  unfold out0_6
  rw [View.canon_unit_zero zeroOffsets3_r0]
  simp only [View.ld_unit_zero (S := S5000x128) zeroOffsets2_r0, View.ld_unit_zero (S := S5000x1) zeroOffsets2_r0, View.ld_unit_zero (S := S128x128) zeroOffsets2_r0]
  exact sumPayload0_eq x0 x1 x2 x3 x4

/-- What the pass leaves for the sums of squares: the statistics block of the tile's entrywise square. -/
theorem sqOut0_eq (x0 x1 : Vec Ideal S5000x128 .f32) (x2 : Vec Ideal S5000x1 .f32) (x3 x4 : Vec Ideal S128x128 .f32) :
    out0_7 (F := Ideal) x0 x1 x2 x3 x4 = statsBlock (mulf (k0_pay2 x0 x1 x2 x3 x4) (k0_pay2 x0 x1 x2 x3 x4)) := by
  unfold out0_7
  rw [View.canon_unit_zero zeroOffsets3_r0]
  simp only [View.ld_unit_zero (S := S5000x128) zeroOffsets2_r0, View.ld_unit_zero (S := S5000x1) zeroOffsets2_r0, View.ld_unit_zero (S := S128x128) zeroOffsets2_r0]
  exact sqPayload0_eq x0 x1 x2 x3 x4

/-- Where each block sits at tile t: the three row-tiled inputs and the two outputs at block t along the first axis,
    the two weight matrices whole. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- Row p of tile t of the layer's input is row 5000·t + p of the whole array. -/
theorem rows0_0 (t : Fin cfg0.N) (X : S100000x128.Idx → EReal) (p : Fin 5000) (k : Fin 128) :
    (((cfg0.win 0).blk t).view.read (Elt Ideal) X : S5000x128.Idx → EReal) (ix2 p k) = X (ix2 (tileRow (tile0 t) p) k) := by
  obtain ⟨e0, e1, -⟩ := idx_facts0 t
  rw [View.read_apply]
  show X (((cfg0.win 0).blk t).view.emb (ix2 p k)) = _
  refine congrArg X (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Row p of tile t of the aggregated input is row 5000·t + p of the whole array. -/
theorem rows0_1 (t : Fin cfg0.N) (X : S100000x128.Idx → EReal) (p : Fin 5000) (k : Fin 128) :
    (((cfg0.win 1).blk t).view.read (Elt Ideal) X : S5000x128.Idx → EReal) (ix2 p k) = X (ix2 (tileRow (tile0 t) p) k) := by
  obtain ⟨-, -, e0, e1, -⟩ := idx_facts0 t
  rw [View.read_apply]
  show X (((cfg0.win 1).blk t).view.emb (ix2 p k)) = _
  refine congrArg X (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- Entry p of tile t of the reciprocal-degree column is entry 5000·t + p of the whole column. -/
theorem rows0_2 (t : Fin cfg0.N) (X : S100000x1.Idx → EReal) (p : Fin 5000) :
    (((cfg0.win 2).blk t).view.read (Elt Ideal) X : S5000x1.Idx → EReal) (ix2 p 0) = X (ix2 (tileRow (tile0 t) p) 0) := by
  obtain ⟨-, -, -, -, e0, e1, -⟩ := idx_facts0 t
  rw [View.read_apply]
  show X (((cfg0.win 2).blk t).view.emb (ix2 p 0)) = _
  refine congrArg X (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- The first weight matrix is read whole at every tile. -/
theorem rows0_3 (t : Fin cfg0.N) (X : S128x128.Idx → EReal) (k q : Fin 128) :
    (((cfg0.win 3).blk t).view.read (Elt Ideal) X : S128x128.Idx → EReal) (ix2 k q) = X (ix2 k q) := by
  obtain ⟨-, -, -, -, -, -, e0, e1, -⟩ := idx_facts0 t
  rw [View.read_apply]
  show X (((cfg0.win 3).blk t).view.emb (ix2 k q)) = _
  refine congrArg X (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The second weight matrix is read whole at every tile. -/
theorem rows0_4 (t : Fin cfg0.N) (X : S128x128.Idx → EReal) (k q : Fin 128) :
    (((cfg0.win 4).blk t).view.read (Elt Ideal) X : S128x128.Idx → EReal) (ix2 k q) = X (ix2 k q) := by
  obtain ⟨-, -, -, -, -, -, -, -, e0, e1, -⟩ := idx_facts0 t
  rw [View.read_apply]
  show X (((cfg0.win 4).blk t).view.emb (ix2 k q)) = _
  refine congrArg X (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- A block whose entry (u, s, j) is entry (t, s, j) of a [20, 8, 128] array G is block t of G: the sums' window. -/
theorem block0_6 (t : Fin cfg0.N) (X : S1x8x128.Idx → EReal) (G : S20x8x128.Idx → EReal)
    (h : ∀ (u : Fin 1) (s : Fin 8) (j : Fin 128), X (ix3 u s j) = G (ix3 (tile0 t) s j)) :
    (cfg0.win 6).cut (grid0.coords t) X = ((cfg0.win 6).blk t).view.read (Elt Ideal) G := by
  funext y
  obtain ⟨-, -, -, -, -, -, -, -, -, -, e0, e1, e2, -⟩ := idx_facts0 t
  have hy0 : (y 0).val < 1 := (y 0).isLt
  have hy1 : (y 1).val < 8 := (y 1).isLt
  have hy2 : (y 2).val < 128 := (y 2).isLt
  rw [View.read_apply]
  show X ((cfg0.win 6).xinj (grid0.coords t) y) = G (((cfg0.win 6).blk t).view.emb y)
  have hl : (cfg0.win 6).xinj (grid0.coords t) y = ix3 ⟨(y 0).val, hy0⟩ ⟨(y 1).val, hy1⟩ ⟨(y 2).val, hy2⟩ := by
    funext a; apply Fin.ext
    match a with
    | ⟨0, _⟩ => rfl
    | ⟨1, _⟩ => rfl
    | ⟨2, _⟩ => rfl
  have hr : ((cfg0.win 6).blk t).view.emb y = ix3 (tile0 t) ⟨(y 1).val, hy1⟩ ⟨(y 2).val, hy2⟩ := by
    funext a; apply Fin.ext
    match a with
    | ⟨0, _⟩ => show win0_6.index t (0 : Fin 3) * 1 + 1 * (y 0).val = t.val; omega
    | ⟨1, _⟩ => show win0_6.index t (1 : Fin 3) * 8 + 1 * (y 1).val = (y 1).val; omega
    | ⟨2, _⟩ => show win0_6.index t (2 : Fin 3) * 128 + 1 * (y 2).val = (y 2).val; omega
  exact (congrArg X hl).trans ((h _ _ _).trans (congrArg G hr).symm)

/-- The same for the window of the sums of squares. -/
theorem block0_7 (t : Fin cfg0.N) (X : S1x8x128.Idx → EReal) (G : S20x8x128.Idx → EReal)
    (h : ∀ (u : Fin 1) (s : Fin 8) (j : Fin 128), X (ix3 u s j) = G (ix3 (tile0 t) s j)) :
    (cfg0.win 7).cut (grid0.coords t) X = ((cfg0.win 7).blk t).view.read (Elt Ideal) G := by
  funext y
  obtain ⟨-, -, -, -, -, -, -, -, -, -, -, -, -, e0, e1, e2⟩ := idx_facts0 t
  have hy0 : (y 0).val < 1 := (y 0).isLt
  have hy1 : (y 1).val < 8 := (y 1).isLt
  have hy2 : (y 2).val < 128 := (y 2).isLt
  rw [View.read_apply]
  show X ((cfg0.win 7).xinj (grid0.coords t) y) = G (((cfg0.win 7).blk t).view.emb y)
  have hl : (cfg0.win 7).xinj (grid0.coords t) y = ix3 ⟨(y 0).val, hy0⟩ ⟨(y 1).val, hy1⟩ ⟨(y 2).val, hy2⟩ := by
    funext a; apply Fin.ext
    match a with
    | ⟨0, _⟩ => rfl
    | ⟨1, _⟩ => rfl
    | ⟨2, _⟩ => rfl
  have hr : ((cfg0.win 7).blk t).view.emb y = ix3 (tile0 t) ⟨(y 1).val, hy1⟩ ⟨(y 2).val, hy2⟩ := by
    funext a; apply Fin.ext
    match a with
    | ⟨0, _⟩ => show win0_7.index t (0 : Fin 3) * 1 + 1 * (y 0).val = t.val; omega
    | ⟨1, _⟩ => show win0_7.index t (1 : Fin 3) * 8 + 1 * (y 1).val = (y 1).val; omega
    | ⟨2, _⟩ => show win0_7.index t (2 : Fin 3) * 128 + 1 * (y 2).val = (y 2).val; omega
  exact (congrArg X hl).trans ((h _ _ _).trans (congrArg G hr).symm)

/-- A tile whose operands are the rows of tile t of the whole arrays has the entries of the whole linear array on
    those rows. -/
theorem tile0_entries (t : Fin 20) (H A : Arr2 100000 128) (δ : Arr2 100000 1) (Ws Wn : Arr2 128 128)
    (x0 x1 : Vec Ideal S5000x128 .f32) (x2 : Vec Ideal S5000x1 .f32) (x3 x4 : Vec Ideal S128x128 .f32)
    (h0 : ∀ (p : Fin 5000) (k : Fin 128), x0 (ix2 p k) = H (ix2 (tileRow t p) k))
    (h1 : ∀ (p : Fin 5000) (k : Fin 128), x1 (ix2 p k) = A (ix2 (tileRow t p) k))
    (h2 : ∀ p : Fin 5000, x2 (ix2 p 0) = δ (ix2 (tileRow t p) 0))
    (h3 : ∀ k q : Fin 128, x3 (ix2 k q) = Ws (ix2 k q)) (h4 : ∀ k q : Fin 128, x4 (ix2 k q) = Wn (ix2 k q))
    (p : Fin 5000) (q : Fin 128) :
    k0_pay2 x0 x1 x2 x3 x4 (ix2 p q) = linKAt H A δ Ws Wn (tileRow t p) q :=
  (linTile0_apply x0 x1 x2 x3 x4 p q).trans (linTile_eq_linKAt H A δ Ws Wn x0 x1 x2 x3 x4 t h0 h1 h2 h3 h4 p q)

/-- At tile t the sums' block is block t of the tile sums of the whole linear array. -/
theorem sumBlock0 (t : Fin cfg0.N) (H A : Arr2 100000 128) (δ : Arr2 100000 1) (Ws Wn : Arr2 128 128)
    (x0 x1 : Vec Ideal S5000x128 .f32) (x2 : Vec Ideal S5000x1 .f32) (x3 x4 : Vec Ideal S128x128 .f32)
    (h0 : ∀ (p : Fin 5000) (k : Fin 128), x0 (ix2 p k) = H (ix2 (tileRow (tile0 t) p) k))
    (h1 : ∀ (p : Fin 5000) (k : Fin 128), x1 (ix2 p k) = A (ix2 (tileRow (tile0 t) p) k))
    (h2 : ∀ p : Fin 5000, x2 (ix2 p 0) = δ (ix2 (tileRow (tile0 t) p) 0))
    (h3 : ∀ k q : Fin 128, x3 (ix2 k q) = Ws (ix2 k q)) (h4 : ∀ k q : Fin 128, x4 (ix2 k q) = Wn (ix2 k q)) :
    (cfg0.win 6).cut (grid0.coords t) (out0_6 (F := Ideal) x0 x1 x2 x3 x4)
      = ((cfg0.win 6).blk t).view.read (Elt Ideal) (tileSums (linK H A δ Ws Wn)) := by
  rw [sumOut0_eq]
  exact block0_6 t _ _ fun u s j =>
    statsBlock_lin H A δ Ws Wn _ (tile0 t) (tile0_entries (tile0 t) H A δ Ws Wn x0 x1 x2 x3 x4 h0 h1 h2 h3 h4) u s j

/-- At tile t the block of sums of squares is block t of the tile sums of the whole array's square. -/
theorem sqBlock0 (t : Fin cfg0.N) (H A : Arr2 100000 128) (δ : Arr2 100000 1) (Ws Wn : Arr2 128 128)
    (x0 x1 : Vec Ideal S5000x128 .f32) (x2 : Vec Ideal S5000x1 .f32) (x3 x4 : Vec Ideal S128x128 .f32)
    (h0 : ∀ (p : Fin 5000) (k : Fin 128), x0 (ix2 p k) = H (ix2 (tileRow (tile0 t) p) k))
    (h1 : ∀ (p : Fin 5000) (k : Fin 128), x1 (ix2 p k) = A (ix2 (tileRow (tile0 t) p) k))
    (h2 : ∀ p : Fin 5000, x2 (ix2 p 0) = δ (ix2 (tileRow (tile0 t) p) 0))
    (h3 : ∀ k q : Fin 128, x3 (ix2 k q) = Ws (ix2 k q)) (h4 : ∀ k q : Fin 128, x4 (ix2 k q) = Wn (ix2 k q)) :
    (cfg0.win 7).cut (grid0.coords t) (out0_7 (F := Ideal) x0 x1 x2 x3 x4)
      = ((cfg0.win 7).blk t).view.read (Elt Ideal) (tileSums (sq (linK H A δ Ws Wn))) := by
  rw [sqOut0_eq]
  exact block0_7 t _ _ fun u s j =>
    statsBlock_sq H A δ Ws Wn _ (tile0 t) (tile0_entries (tile0 t) H A δ Ws Wn x0 x1 x2 x3 x4 h0 h1 h2 h3 h4) u s j

-- the arrays as the pass finds them
variable (V : (c : Dev nD) → (b : Ref sig .tc) → Buf (Elt Ideal) ((c : Thread nD τ).loc b))

/-- What tile t writes back to the sums' array. -/
theorem sumFlushed0 (c : Dev nD) (t : Fin cfg0.N) :
    (dat0 (F := Ideal) V c).flushed 6 t = ((cfg0.win 6).blk t).view.read (Elt Ideal)
      (tileSums (linK (V c (Pipeline.arrRef spec0 0)) (V c (Pipeline.arrRef spec0 1)) (V c (Pipeline.arrRef spec0 2))
        (V c (Pipeline.arrRef spec0 3)) (V c (Pipeline.arrRef spec0 4)))) := by
  show (cfg0.win 6).cut (grid0.coords t) ((dat0 V c).after 6 t) = _
  rw [after0_6]
  exact sumBlock0 t (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t)
    (rows0_0 t _) (rows0_1 t _) (rows0_2 t _) (rows0_3 t _) (rows0_4 t _)

/-- What tile t writes back to the array of sums of squares. -/
theorem sqFlushed0 (c : Dev nD) (t : Fin cfg0.N) :
    (dat0 (F := Ideal) V c).flushed 7 t = ((cfg0.win 7).blk t).view.read (Elt Ideal)
      (tileSums (sq (linK (V c (Pipeline.arrRef spec0 0)) (V c (Pipeline.arrRef spec0 1)) (V c (Pipeline.arrRef spec0 2))
        (V c (Pipeline.arrRef spec0 3)) (V c (Pipeline.arrRef spec0 4))))) := by
  show (cfg0.win 7).cut (grid0.coords t) ((dat0 V c).after 7 t) = _
  rw [after0_7]
  exact sqBlock0 t (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t)
    (rows0_0 t _) (rows0_1 t _) (rows0_2 t _) (rows0_3 t _) (rows0_4 t _)

/-- An index lies in tile t's block of the sums' array iff each coordinate lies in the block's range. -/
theorem mem_block0_6 (t : Fin cfg0.N) (i : S20x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v19_1).slice (win0_6.rect t)).set ↔ _
  rw [View.set_slice_whole, Rect.mem_set_unit]
  exact Iff.rfl

/-- The same for the array of sums of squares. -/
theorem mem_block0_7 (t : Fin cfg0.N) (i : S20x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v19_2).slice (win0_7.rect t)).set ↔ _
  rw [View.set_slice_whole, Rect.mem_set_unit]
  exact Iff.rfl

/-- Index (a, s, j) lies in the block of tile a: the 20 blocks fill the sums' array. -/
theorem cover0_sum (i : S20x8x128.Idx) :
    ∃ t : Fin cfg0.N, (cfg0.win 6).flush t = true ∧ i ∈ ((cfg0.win 6).blk t).view.set := by
  have hN : cfg0.N = 20 := N_0
  have h0 : (i 0).val < 20 := (i 0).isLt
  have h1 : (i 1).val < 8 := (i 1).isLt
  have h2 : (i 2).val < 128 := (i 2).isLt
  refine ⟨⟨(i 0).val, by omega⟩, flush0_6 _, ?_⟩
  obtain ⟨-, -, -, -, -, -, -, -, -, -, e0, e1, e2, -⟩ := idx_facts0 ⟨(i 0).val, by omega⟩
  rw [mem_block0_6]
  intro a
  match a with
  | ⟨0, _⟩ =>
    show win0_6.index _ (0 : Fin 3) * 1 ≤ (i 0).val ∧ (i 0).val < win0_6.index _ (0 : Fin 3) * 1 + 1
    rw [e0]
    show (i 0).val * 1 ≤ (i 0).val ∧ (i 0).val < (i 0).val * 1 + 1
    omega
  | ⟨1, _⟩ => show win0_6.index _ (1 : Fin 3) * 8 ≤ (i 1).val ∧ (i 1).val < win0_6.index _ (1 : Fin 3) * 8 + 8; rw [e1]; omega
  | ⟨2, _⟩ => show win0_6.index _ (2 : Fin 3) * 128 ≤ (i 2).val ∧ (i 2).val < win0_6.index _ (2 : Fin 3) * 128 + 128; rw [e2]; omega

/-- Likewise for the array of sums of squares. -/
theorem cover0_sq (i : S20x8x128.Idx) :
    ∃ t : Fin cfg0.N, (cfg0.win 7).flush t = true ∧ i ∈ ((cfg0.win 7).blk t).view.set := by
  have hN : cfg0.N = 20 := N_0
  have h0 : (i 0).val < 20 := (i 0).isLt
  have h1 : (i 1).val < 8 := (i 1).isLt
  have h2 : (i 2).val < 128 := (i 2).isLt
  refine ⟨⟨(i 0).val, by omega⟩, flush0_7 _, ?_⟩
  obtain ⟨-, -, -, -, -, -, -, -, -, -, -, -, -, e0, e1, e2⟩ := idx_facts0 ⟨(i 0).val, by omega⟩
  rw [mem_block0_7]
  intro a
  match a with
  | ⟨0, _⟩ =>
    show win0_7.index _ (0 : Fin 3) * 1 ≤ (i 0).val ∧ (i 0).val < win0_7.index _ (0 : Fin 3) * 1 + 1
    rw [e0]
    show (i 0).val * 1 ≤ (i 0).val ∧ (i 0).val < (i 0).val * 1 + 1
    omega
  | ⟨1, _⟩ => show win0_7.index _ (1 : Fin 3) * 8 ≤ (i 1).val ∧ (i 1).val < win0_7.index _ (1 : Fin 3) * 8 + 8; rw [e1]; omega
  | ⟨2, _⟩ => show win0_7.index _ (2 : Fin 3) * 128 ≤ (i 2).val ∧ (i 2).val < win0_7.index _ (2 : Fin 3) * 128 + 128; rw [e2]; omega

/-- After the pass the sums' array is the tile sums of the whole linear array. -/
theorem sum0 (c : Dev nD) :
    (dat0 (F := Ideal) V c).arrAt 6 cfg0.N = tileSums (linK (V c (Pipeline.arrRef spec0 0)) (V c (Pipeline.arrRef spec0 1))
      (V c (Pipeline.arrRef spec0 2)) (V c (Pipeline.arrRef spec0 3)) (V c (Pipeline.arrRef spec0 4))) :=
  (dat0 (F := Ideal) V c).arrAt_eq_of_cover 6 _ (fun t _ => sumFlushed0 V c t) cover0_sum

/-- After the pass the array of sums of squares is the tile sums of the whole linear array's entrywise square. -/
theorem sumsq0 (c : Dev nD) :
    (dat0 (F := Ideal) V c).arrAt 7 cfg0.N = tileSums (sq (linK (V c (Pipeline.arrRef spec0 0)) (V c (Pipeline.arrRef spec0 1))
      (V c (Pipeline.arrRef spec0 2)) (V c (Pipeline.arrRef spec0 3)) (V c (Pipeline.arrRef spec0 4)))) :=
  (dat0 (F := Ideal) V c).arrAt_eq_of_cover 7 _ (fun t _ => sqFlushed0 V c t) cover0_sq

end Cert.Sage.Region

end
-- ==== Proof.RegionStats2.lean ====
/-
  The two statistics outputs of the second normalised layer's linear pass, as whole arrays.

  The pass visits 20 tiles of 5000 rows.  At tile t it forms the linear tile
      L_t = x0 · Ws + (x1 ⊙ δ) · Wn
  from rows 5000·t … 5000·t + 4999 of the layer's input, of the aggregated input and of the reciprocal-degree column,
  and the two whole weight matrices; it then writes the column sums of L_t, and of L_t ⊙ L_t, each into row 0 of an
  8-row block with zeros below, and that block is block t of a [20, 8, 128] array.

  Row p of tile t is row 5000·t + p of the whole array, so L_t is the restriction of the whole linear array
  `linK` to the rows of tile t, and block t of each output is block t of `tileSums` of `linK`, respectively of its
  entrywise square.  The 20 blocks are disjoint and fill the [20, 8, 128] array — the block of tile t holds exactly the
  indices whose first coordinate is t — so each output array is `tileSums` of the whole array.
-/
import proofs.«156231_j12695923327564_2_alg».proof.Proof.Gen.KernelIdeal.Frame
import proofs.«156231_j12695923327564_2_alg».proof.Proof.StatsBlock
import proofs.«156231_j12695923327564_2_alg».proof.Proof.LinTile
import Idealize.ShloMosaic.Lib.Pipeline.Value

noncomputable section

open scoped BigOperators

namespace Cert.Sage.Region

open Idealize.ShloMosaic Idealize.ShloMosaic.ValueIdx Idealize.ShloMosaic.TcCoe Idealize.SL.Sem
open Idealize.ShloMosaic.TileMatmul
open Idealize.ShloMosaic.Pipeline (Dat)
open Cert.KernelIdeal Cert.KernelIdeal.Gen

/-- The zero offsets of a rank-2 access. -/
theorem zeroOffsets2_r2 : (![0, 0] : Fin 2 → Nat) = fun _ => 0 := funext fun a => by fin_cases a <;> rfl
/-- The zero offsets of a rank-3 access. -/
theorem zeroOffsets3_r2 : (![0, 0, 0] : Fin 3 → Nat) = fun _ => 0 := funext fun a => by fin_cases a <;> rfl

/-- A grid point of the second layer's statistics pass, as a tile number. -/
def tile2 (t : Fin cfg2.N) : Fin 20 := ⟨t.val, by have h := t.isLt; have hN : cfg2.N = 20 := N_2; omega⟩

/-- The linear tile at (p, q): row p of x0 against column q of Ws, plus row p of x1 scaled by δ's entry p against
    column q of Wn. -/
theorem linTile2_apply (x0 x1 : Vec Ideal S5000x128 .f32) (x2 : Vec Ideal S5000x1 .f32) (x3 x4 : Vec Ideal S128x128 .f32)
    (p : Fin 5000) (q : Fin 128) :
    k2_pay2 x0 x1 x2 x3 x4 (ix2 p q)
      = (∑ k : Fin 128, x0 (ix2 p k) * x3 (ix2 k q)) + ∑ k : Fin 128, (x1 (ix2 p k) * x2 (ix2 p 0)) * x4 (ix2 k q) := by
  unfold k2_pay2
  rw [shapeCast_self, shapeCast_self, shapeCast_self]
  exact linPay_apply dot_S5000x128_S128x128_S5000x128_1_0_0_1_n_n_wf broadcasts_S5000x1_S5000x128 bitsLt_bf16_f32 x0 x1 x2 x3 x4 p q

/-- What the pass leaves for the sums: the statistics block of the linear tile. -/
theorem sumOut2_eq (x0 x1 : Vec Ideal S5000x128 .f32) (x2 : Vec Ideal S5000x1 .f32) (x3 x4 : Vec Ideal S128x128 .f32) :
    out2_6 (F := Ideal) x0 x1 x2 x3 x4 = statsBlock (k2_pay2 x0 x1 x2 x3 x4) := by
  unfold out2_6
  rw [View.canon_unit_zero zeroOffsets3_r2]
  simp only [View.ld_unit_zero (S := S5000x128) zeroOffsets2_r2, View.ld_unit_zero (S := S5000x1) zeroOffsets2_r2, View.ld_unit_zero (S := S128x128) zeroOffsets2_r2]
  exact sumPayload2_eq x0 x1 x2 x3 x4

/-- What the pass leaves for the sums of squares: the statistics block of the tile's entrywise square. -/
theorem sqOut2_eq (x0 x1 : Vec Ideal S5000x128 .f32) (x2 : Vec Ideal S5000x1 .f32) (x3 x4 : Vec Ideal S128x128 .f32) :
    out2_7 (F := Ideal) x0 x1 x2 x3 x4 = statsBlock (mulf (k2_pay2 x0 x1 x2 x3 x4) (k2_pay2 x0 x1 x2 x3 x4)) := by
  unfold out2_7
  rw [View.canon_unit_zero zeroOffsets3_r2]
  simp only [View.ld_unit_zero (S := S5000x128) zeroOffsets2_r2, View.ld_unit_zero (S := S5000x1) zeroOffsets2_r2, View.ld_unit_zero (S := S128x128) zeroOffsets2_r2]
  exact sqPayload2_eq x0 x1 x2 x3 x4

/-- Where each block sits at tile t: the three row-tiled inputs and the two outputs at block t along the first axis,
    the two weight matrices whole. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 3) = t.val ∧ win2_6.index t (1 : Fin 3) = 0 ∧ win2_6.index t (2 : Fin 3) = 0
    ∧ win2_7.index t (0 : Fin 3) = t.val ∧ win2_7.index t (1 : Fin 3) = 0 ∧ win2_7.index t (2 : Fin 3) = 0 :=
  (by decide +kernel : ∀ t : Fin grid2.N, _)

/-- Row p of tile t of the layer's input is row 5000·t + p of the whole array. -/
theorem rows2_0 (t : Fin cfg2.N) (X : S100000x128.Idx → EReal) (p : Fin 5000) (k : Fin 128) :
    (((cfg2.win 0).blk t).view.read (Elt Ideal) X : S5000x128.Idx → EReal) (ix2 p k) = X (ix2 (tileRow (tile2 t) p) k) := by
  obtain ⟨e0, e1, -⟩ := idx_facts2 t
  rw [View.read_apply]
  show X (((cfg2.win 0).blk t).view.emb (ix2 p k)) = _
  refine congrArg X (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- Row p of tile t of the aggregated input is row 5000·t + p of the whole array. -/
theorem rows2_1 (t : Fin cfg2.N) (X : S100000x128.Idx → EReal) (p : Fin 5000) (k : Fin 128) :
    (((cfg2.win 1).blk t).view.read (Elt Ideal) X : S5000x128.Idx → EReal) (ix2 p k) = X (ix2 (tileRow (tile2 t) p) k) := by
  obtain ⟨-, -, e0, e1, -⟩ := idx_facts2 t
  rw [View.read_apply]
  show X (((cfg2.win 1).blk t).view.emb (ix2 p k)) = _
  refine congrArg X (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

/-- Entry p of tile t of the reciprocal-degree column is entry 5000·t + p of the whole column. -/
theorem rows2_2 (t : Fin cfg2.N) (X : S100000x1.Idx → EReal) (p : Fin 5000) :
    (((cfg2.win 2).blk t).view.read (Elt Ideal) X : S5000x1.Idx → EReal) (ix2 p 0) = X (ix2 (tileRow (tile2 t) p) 0) := by
  obtain ⟨-, -, -, -, e0, e1, -⟩ := idx_facts2 t
  rw [View.read_apply]
  show X (((cfg2.win 2).blk t).view.emb (ix2 p 0)) = _
  refine congrArg X (funext fun a => Fin.ext ?_)
  match a with
  | ⟨0, _⟩ => show win2_2.index t (0 : Fin 2) * 5000 + 1 * p.val = t.val * 5000 + p.val; omega
  | ⟨1, _⟩ => show win2_2.index t (1 : Fin 2) * 1 + 1 * 0 = 0; omega

/-- The first weight matrix is read whole at every tile. -/
theorem rows2_3 (t : Fin cfg2.N) (X : S128x128.Idx → EReal) (k q : Fin 128) :
    (((cfg2.win 3).blk t).view.read (Elt Ideal) X : S128x128.Idx → EReal) (ix2 k q) = X (ix2 k q) := by
  obtain ⟨-, -, -, -, -, -, e0, e1, -⟩ := idx_facts2 t
  rw [View.read_apply]
  show X (((cfg2.win 3).blk t).view.emb (ix2 k q)) = _
  refine congrArg X (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The second weight matrix is read whole at every tile. -/
theorem rows2_4 (t : Fin cfg2.N) (X : S128x128.Idx → EReal) (k q : Fin 128) :
    (((cfg2.win 4).blk t).view.read (Elt Ideal) X : S128x128.Idx → EReal) (ix2 k q) = X (ix2 k q) := by
  obtain ⟨-, -, -, -, -, -, -, -, e0, e1, -⟩ := idx_facts2 t
  rw [View.read_apply]
  show X (((cfg2.win 4).blk t).view.emb (ix2 k q)) = _
  refine congrArg X (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- A block whose entry (u, s, j) is entry (t, s, j) of a [20, 8, 128] array G is block t of G: the sums' window. -/
theorem block2_6 (t : Fin cfg2.N) (X : S1x8x128.Idx → EReal) (G : S20x8x128.Idx → EReal)
    (h : ∀ (u : Fin 1) (s : Fin 8) (j : Fin 128), X (ix3 u s j) = G (ix3 (tile2 t) s j)) :
    (cfg2.win 6).cut (grid2.coords t) X = ((cfg2.win 6).blk t).view.read (Elt Ideal) G := by
  funext y
  obtain ⟨-, -, -, -, -, -, -, -, -, -, e0, e1, e2, -⟩ := idx_facts2 t
  have hy0 : (y 0).val < 1 := (y 0).isLt
  have hy1 : (y 1).val < 8 := (y 1).isLt
  have hy2 : (y 2).val < 128 := (y 2).isLt
  rw [View.read_apply]
  show X ((cfg2.win 6).xinj (grid2.coords t) y) = G (((cfg2.win 6).blk t).view.emb y)
  have hl : (cfg2.win 6).xinj (grid2.coords t) y = ix3 ⟨(y 0).val, hy0⟩ ⟨(y 1).val, hy1⟩ ⟨(y 2).val, hy2⟩ := by
    funext a; apply Fin.ext
    match a with
    | ⟨0, _⟩ => rfl
    | ⟨1, _⟩ => rfl
    | ⟨2, _⟩ => rfl
  have hr : ((cfg2.win 6).blk t).view.emb y = ix3 (tile2 t) ⟨(y 1).val, hy1⟩ ⟨(y 2).val, hy2⟩ := by
    funext a; apply Fin.ext
    match a with
    | ⟨0, _⟩ => show win2_6.index t (0 : Fin 3) * 1 + 1 * (y 0).val = t.val; omega
    | ⟨1, _⟩ => show win2_6.index t (1 : Fin 3) * 8 + 1 * (y 1).val = (y 1).val; omega
    | ⟨2, _⟩ => show win2_6.index t (2 : Fin 3) * 128 + 1 * (y 2).val = (y 2).val; omega
  exact (congrArg X hl).trans ((h _ _ _).trans (congrArg G hr).symm)

/-- The same for the window of the sums of squares. -/
theorem block2_7 (t : Fin cfg2.N) (X : S1x8x128.Idx → EReal) (G : S20x8x128.Idx → EReal)
    (h : ∀ (u : Fin 1) (s : Fin 8) (j : Fin 128), X (ix3 u s j) = G (ix3 (tile2 t) s j)) :
    (cfg2.win 7).cut (grid2.coords t) X = ((cfg2.win 7).blk t).view.read (Elt Ideal) G := by
  funext y
  obtain ⟨-, -, -, -, -, -, -, -, -, -, -, -, -, e0, e1, e2⟩ := idx_facts2 t
  have hy0 : (y 0).val < 1 := (y 0).isLt
  have hy1 : (y 1).val < 8 := (y 1).isLt
  have hy2 : (y 2).val < 128 := (y 2).isLt
  rw [View.read_apply]
  show X ((cfg2.win 7).xinj (grid2.coords t) y) = G (((cfg2.win 7).blk t).view.emb y)
  have hl : (cfg2.win 7).xinj (grid2.coords t) y = ix3 ⟨(y 0).val, hy0⟩ ⟨(y 1).val, hy1⟩ ⟨(y 2).val, hy2⟩ := by
    funext a; apply Fin.ext
    match a with
    | ⟨0, _⟩ => rfl
    | ⟨1, _⟩ => rfl
    | ⟨2, _⟩ => rfl
  have hr : ((cfg2.win 7).blk t).view.emb y = ix3 (tile2 t) ⟨(y 1).val, hy1⟩ ⟨(y 2).val, hy2⟩ := by
    funext a; apply Fin.ext
    match a with
    | ⟨0, _⟩ => show win2_7.index t (0 : Fin 3) * 1 + 1 * (y 0).val = t.val; omega
    | ⟨1, _⟩ => show win2_7.index t (1 : Fin 3) * 8 + 1 * (y 1).val = (y 1).val; omega
    | ⟨2, _⟩ => show win2_7.index t (2 : Fin 3) * 128 + 1 * (y 2).val = (y 2).val; omega
  exact (congrArg X hl).trans ((h _ _ _).trans (congrArg G hr).symm)

/-- A tile whose operands are the rows of tile t of the whole arrays has the entries of the whole linear array on
    those rows. -/
theorem tile2_entries (t : Fin 20) (H A : Arr2 100000 128) (δ : Arr2 100000 1) (Ws Wn : Arr2 128 128)
    (x0 x1 : Vec Ideal S5000x128 .f32) (x2 : Vec Ideal S5000x1 .f32) (x3 x4 : Vec Ideal S128x128 .f32)
    (h0 : ∀ (p : Fin 5000) (k : Fin 128), x0 (ix2 p k) = H (ix2 (tileRow t p) k))
    (h1 : ∀ (p : Fin 5000) (k : Fin 128), x1 (ix2 p k) = A (ix2 (tileRow t p) k))
    (h2 : ∀ p : Fin 5000, x2 (ix2 p 0) = δ (ix2 (tileRow t p) 0))
    (h3 : ∀ k q : Fin 128, x3 (ix2 k q) = Ws (ix2 k q)) (h4 : ∀ k q : Fin 128, x4 (ix2 k q) = Wn (ix2 k q))
    (p : Fin 5000) (q : Fin 128) :
    k2_pay2 x0 x1 x2 x3 x4 (ix2 p q) = linKAt H A δ Ws Wn (tileRow t p) q :=
  (linTile2_apply x0 x1 x2 x3 x4 p q).trans (linTile_eq_linKAt H A δ Ws Wn x0 x1 x2 x3 x4 t h0 h1 h2 h3 h4 p q)

/-- At tile t the sums' block is block t of the tile sums of the whole linear array. -/
theorem sumBlock2 (t : Fin cfg2.N) (H A : Arr2 100000 128) (δ : Arr2 100000 1) (Ws Wn : Arr2 128 128)
    (x0 x1 : Vec Ideal S5000x128 .f32) (x2 : Vec Ideal S5000x1 .f32) (x3 x4 : Vec Ideal S128x128 .f32)
    (h0 : ∀ (p : Fin 5000) (k : Fin 128), x0 (ix2 p k) = H (ix2 (tileRow (tile2 t) p) k))
    (h1 : ∀ (p : Fin 5000) (k : Fin 128), x1 (ix2 p k) = A (ix2 (tileRow (tile2 t) p) k))
    (h2 : ∀ p : Fin 5000, x2 (ix2 p 0) = δ (ix2 (tileRow (tile2 t) p) 0))
    (h3 : ∀ k q : Fin 128, x3 (ix2 k q) = Ws (ix2 k q)) (h4 : ∀ k q : Fin 128, x4 (ix2 k q) = Wn (ix2 k q)) :
    (cfg2.win 6).cut (grid2.coords t) (out2_6 (F := Ideal) x0 x1 x2 x3 x4)
      = ((cfg2.win 6).blk t).view.read (Elt Ideal) (tileSums (linK H A δ Ws Wn)) := by
  rw [sumOut2_eq]
  exact block2_6 t _ _ fun u s j =>
    statsBlock_lin H A δ Ws Wn _ (tile2 t) (tile2_entries (tile2 t) H A δ Ws Wn x0 x1 x2 x3 x4 h0 h1 h2 h3 h4) u s j

/-- At tile t the block of sums of squares is block t of the tile sums of the whole array's square. -/
theorem sqBlock2 (t : Fin cfg2.N) (H A : Arr2 100000 128) (δ : Arr2 100000 1) (Ws Wn : Arr2 128 128)
    (x0 x1 : Vec Ideal S5000x128 .f32) (x2 : Vec Ideal S5000x1 .f32) (x3 x4 : Vec Ideal S128x128 .f32)
    (h0 : ∀ (p : Fin 5000) (k : Fin 128), x0 (ix2 p k) = H (ix2 (tileRow (tile2 t) p) k))
    (h1 : ∀ (p : Fin 5000) (k : Fin 128), x1 (ix2 p k) = A (ix2 (tileRow (tile2 t) p) k))
    (h2 : ∀ p : Fin 5000, x2 (ix2 p 0) = δ (ix2 (tileRow (tile2 t) p) 0))
    (h3 : ∀ k q : Fin 128, x3 (ix2 k q) = Ws (ix2 k q)) (h4 : ∀ k q : Fin 128, x4 (ix2 k q) = Wn (ix2 k q)) :
    (cfg2.win 7).cut (grid2.coords t) (out2_7 (F := Ideal) x0 x1 x2 x3 x4)
      = ((cfg2.win 7).blk t).view.read (Elt Ideal) (tileSums (sq (linK H A δ Ws Wn))) := by
  rw [sqOut2_eq]
  exact block2_7 t _ _ fun u s j =>
    statsBlock_sq H A δ Ws Wn _ (tile2 t) (tile2_entries (tile2 t) H A δ Ws Wn x0 x1 x2 x3 x4 h0 h1 h2 h3 h4) u s j

-- the arrays as the pass finds them
variable (V : (c : Dev nD) → (b : Ref sig .tc) → Buf (Elt Ideal) ((c : Thread nD τ).loc b))

/-- What tile t writes back to the sums' array. -/
theorem sumFlushed2 (c : Dev nD) (t : Fin cfg2.N) :
    (dat2 (F := Ideal) V c).flushed 6 t = ((cfg2.win 6).blk t).view.read (Elt Ideal)
      (tileSums (linK (V c (Pipeline.arrRef spec2 0)) (V c (Pipeline.arrRef spec2 1)) (V c (Pipeline.arrRef spec2 2))
        (V c (Pipeline.arrRef spec2 3)) (V c (Pipeline.arrRef spec2 4)))) := by
  show (cfg2.win 6).cut (grid2.coords t) ((dat2 V c).after 6 t) = _
  rw [after2_6]
  exact sumBlock2 t (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) (iblk2 V c 2 t) (iblk2 V c 3 t) (iblk2 V c 4 t)
    (rows2_0 t _) (rows2_1 t _) (rows2_2 t _) (rows2_3 t _) (rows2_4 t _)

/-- What tile t writes back to the array of sums of squares. -/
theorem sqFlushed2 (c : Dev nD) (t : Fin cfg2.N) :
    (dat2 (F := Ideal) V c).flushed 7 t = ((cfg2.win 7).blk t).view.read (Elt Ideal)
      (tileSums (sq (linK (V c (Pipeline.arrRef spec2 0)) (V c (Pipeline.arrRef spec2 1)) (V c (Pipeline.arrRef spec2 2))
        (V c (Pipeline.arrRef spec2 3)) (V c (Pipeline.arrRef spec2 4))))) := by
  show (cfg2.win 7).cut (grid2.coords t) ((dat2 V c).after 7 t) = _
  rw [after2_7]
  exact sqBlock2 t (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) (iblk2 V c 2 t) (iblk2 V c 3 t) (iblk2 V c 4 t)
    (rows2_0 t _) (rows2_1 t _) (rows2_2 t _) (rows2_3 t _) (rows2_4 t _)

/-- An index lies in tile t's block of the sums' array iff each coordinate lies in the block's range. -/
theorem mem_block2_6 (t : Fin cfg2.N) (i : S20x8x128.Idx) :
    i ∈ ((cfg2.win 6).blk t).view.set ↔ ∀ a : Fin 3, win2_6.index t a * S1x8x128.size a ≤ (i a).val ∧ (i a).val < win2_6.index t a * S1x8x128.size a + S1x8x128.size a := by
  show i ∈ ((View.whole main_v45_1).slice (win2_6.rect t)).set ↔ _
  rw [View.set_slice_whole, Rect.mem_set_unit]
  exact Iff.rfl

/-- The same for the array of sums of squares. -/
theorem mem_block2_7 (t : Fin cfg2.N) (i : S20x8x128.Idx) :
    i ∈ ((cfg2.win 7).blk t).view.set ↔ ∀ a : Fin 3, win2_7.index t a * S1x8x128.size a ≤ (i a).val ∧ (i a).val < win2_7.index t a * S1x8x128.size a + S1x8x128.size a := by
  show i ∈ ((View.whole main_v45_2).slice (win2_7.rect t)).set ↔ _
  rw [View.set_slice_whole, Rect.mem_set_unit]
  exact Iff.rfl

/-- Index (a, s, j) lies in the block of tile a: the 20 blocks fill the sums' array. -/
theorem cover2_sum (i : S20x8x128.Idx) :
    ∃ t : Fin cfg2.N, (cfg2.win 6).flush t = true ∧ i ∈ ((cfg2.win 6).blk t).view.set := by
  have hN : cfg2.N = 20 := N_2
  have h0 : (i 0).val < 20 := (i 0).isLt
  have h1 : (i 1).val < 8 := (i 1).isLt
  have h2 : (i 2).val < 128 := (i 2).isLt
  refine ⟨⟨(i 0).val, by omega⟩, flush2_6 _, ?_⟩
  obtain ⟨-, -, -, -, -, -, -, -, -, -, e0, e1, e2, -⟩ := idx_facts2 ⟨(i 0).val, by omega⟩
  rw [mem_block2_6]
  intro a
  match a with
  | ⟨0, _⟩ =>
    show win2_6.index _ (0 : Fin 3) * 1 ≤ (i 0).val ∧ (i 0).val < win2_6.index _ (0 : Fin 3) * 1 + 1
    rw [e0]
    show (i 0).val * 1 ≤ (i 0).val ∧ (i 0).val < (i 0).val * 1 + 1
    omega
  | ⟨1, _⟩ => show win2_6.index _ (1 : Fin 3) * 8 ≤ (i 1).val ∧ (i 1).val < win2_6.index _ (1 : Fin 3) * 8 + 8; rw [e1]; omega
  | ⟨2, _⟩ => show win2_6.index _ (2 : Fin 3) * 128 ≤ (i 2).val ∧ (i 2).val < win2_6.index _ (2 : Fin 3) * 128 + 128; rw [e2]; omega

/-- Likewise for the array of sums of squares. -/
theorem cover2_sq (i : S20x8x128.Idx) :
    ∃ t : Fin cfg2.N, (cfg2.win 7).flush t = true ∧ i ∈ ((cfg2.win 7).blk t).view.set := by
  have hN : cfg2.N = 20 := N_2
  have h0 : (i 0).val < 20 := (i 0).isLt
  have h1 : (i 1).val < 8 := (i 1).isLt
  have h2 : (i 2).val < 128 := (i 2).isLt
  refine ⟨⟨(i 0).val, by omega⟩, flush2_7 _, ?_⟩
  obtain ⟨-, -, -, -, -, -, -, -, -, -, -, -, -, e0, e1, e2⟩ := idx_facts2 ⟨(i 0).val, by omega⟩
  rw [mem_block2_7]
  intro a
  match a with
  | ⟨0, _⟩ =>
    show win2_7.index _ (0 : Fin 3) * 1 ≤ (i 0).val ∧ (i 0).val < win2_7.index _ (0 : Fin 3) * 1 + 1
    rw [e0]
    show (i 0).val * 1 ≤ (i 0).val ∧ (i 0).val < (i 0).val * 1 + 1
    omega
  | ⟨1, _⟩ => show win2_7.index _ (1 : Fin 3) * 8 ≤ (i 1).val ∧ (i 1).val < win2_7.index _ (1 : Fin 3) * 8 + 8; rw [e1]; omega
  | ⟨2, _⟩ => show win2_7.index _ (2 : Fin 3) * 128 ≤ (i 2).val ∧ (i 2).val < win2_7.index _ (2 : Fin 3) * 128 + 128; rw [e2]; omega

/-- After the pass the sums' array is the tile sums of the whole linear array. -/
theorem sum2 (c : Dev nD) :
    (dat2 (F := Ideal) V c).arrAt 6 cfg2.N = tileSums (linK (V c (Pipeline.arrRef spec2 0)) (V c (Pipeline.arrRef spec2 1))
      (V c (Pipeline.arrRef spec2 2)) (V c (Pipeline.arrRef spec2 3)) (V c (Pipeline.arrRef spec2 4))) :=
  (dat2 (F := Ideal) V c).arrAt_eq_of_cover 6 _ (fun t _ => sumFlushed2 V c t) cover2_sum

/-- After the pass the array of sums of squares is the tile sums of the whole linear array's entrywise square. -/
theorem sumsq2 (c : Dev nD) :
    (dat2 (F := Ideal) V c).arrAt 7 cfg2.N = tileSums (sq (linK (V c (Pipeline.arrRef spec2 0)) (V c (Pipeline.arrRef spec2 1))
      (V c (Pipeline.arrRef spec2 2)) (V c (Pipeline.arrRef spec2 3)) (V c (Pipeline.arrRef spec2 4)))) :=
  (dat2 (F := Ideal) V c).arrAt_eq_of_cover 7 _ (fun t _ => sqFlushed2 V c t) cover2_sq

end Cert.Sage.Region

end
-- ==== Proof.RegionBn1.lean ====
/-
  The normalise-and-clip region, read as one function of whole arrays.

  The region walks the 100000 rows of L in 10 tiles of 10000 rows.  At tile t it holds rows 10000 t … 10000 t + 9999 of
  L and the four parameter rows μ, v, γ, β whole, and leaves in the output tile, entry by entry,
      max (((x - μ) · rsqrt (v + ε)) · γ + β) 0,
  a row [1, 128] standing for all 10000 rows of the tile.  Entry (p, q) of tile t is entry (10000 t + p, q) of the
  table, the tiles cover every row (row r lies in tile r / 10000), so the output table ends as that function of the
  five input tables at every entry.
-/
import proofs.«156231_j12695923327564_2_alg».proof.Proof.Gen.KernelIdeal.Frame
import proofs.«156231_j12695923327564_2_alg».proof.Proof.Spec
import Idealize.ShloMosaic.Lib.Pipeline.Value
import Idealize.ShloMosaic.Lib.ValueLayout
import Idealize.ShloMosaic.PureOps.Ideal.Laws

noncomputable section

namespace Cert.Sage.Region

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## One tile's arithmetic, entry by entry -/

/-- The tile's arithmetic at entry (p, q): the four rows are read at column q, whatever the row p. -/
theorem pay1_apply (x0 : Vec Ideal S10000x128 .f32) (v μ γ β : Vec Ideal S1x128 .f32) (p : Fin 10000) (q : Fin 128) :
    k1_pay1 (F := Ideal) x0 v μ γ β (ix2 p q)
      = max ((((x0 (ix2 p q) - μ (ix2 0 q)) * Ideal.rsqrt (v (ix2 0 q) + eps)) * γ (ix2 0 q)) + β (ix2 0 q)) 0 := by
  unfold k1_pay1
  simp only [shapeCast_self]
  rw [maximumf_apply, addf_apply, mulf_apply, mulf_apply, subf_apply,
    broadcastTo_1b_ab_apply, broadcastTo_1b_ab_apply, broadcastTo_1b_ab_apply, broadcastTo_1b_ab_apply]
  rw [← Ideal.ofBits_zero_f32]
  rfl

/-- A tile that holds rows 10000 k … of L, beside the four rows, computes rows 10000 k … of the whole-table function. -/
theorem tile1_eq (k : ℕ) (hk : k < 10) (L : Arr2 100000 128) (μ v γ β : Arr2 1 128)
    (x0 : Vec Ideal S10000x128 .f32) (x1 x2 x3 x4 : Vec Ideal S1x128 .f32)
    (h0 : ∀ (p : Fin 10000) (q : Fin 128), x0 (ix2 p q) = L (ix2 ⟨k * 10000 + p.val, by have := p.isLt; omega⟩ q))
    (h1 : ∀ q : Fin 128, x1 (ix2 0 q) = μ (ix2 0 q)) (h2 : ∀ q : Fin 128, x2 (ix2 0 q) = v (ix2 0 q))
    (h3 : ∀ q : Fin 128, x3 (ix2 0 q) = γ (ix2 0 q)) (h4 : ∀ q : Fin 128, x4 (ix2 0 q) = β (ix2 0 q))
    (p : Fin 10000) (q : Fin 128) :
    k1_pay1 (F := Ideal) x0 x2 x1 x3 x4 (ix2 p q)
      = bnReluK L μ v γ β (ix2 ⟨k * 10000 + p.val, by have := p.isLt; omega⟩ q) := by
  rw [pay1_apply, h0, h1, h2, h3, h4]
  rfl

/-! ## Where a tile's entries sit in the tables -/

theorem gridN1 : cfg1.N = 10 := N_1

/-- The index maps over the grid: the two tiled windows sit at block (t, 0), the four rows at block (0, 0). -/
theorem idx_facts1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Tile t of the input table: its row p is the table's row 10000 t + p. -/
theorem read_tile1_0 (t : Fin cfg1.N) (A : Arr2 100000 128) (p : Fin 10000) (q : Fin 128) :
    ((cfg1.win 0).blk t).view.read (Elt Ideal) A (ix2 p q)
      = A (ix2 ⟨t.val * 10000 + p.val, by have := t.isLt; have := gridN1; have := p.isLt; omega⟩ q) := by
  obtain ⟨e0, e1, -⟩ := idx_facts1 t
  rw [View.read_apply]
  show A _ = A _
  refine congrArg A (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 128 + 1 * q.val = q.val; rw [e1]; omega

/-- Each parameter row is read whole at every tile. -/
theorem read_row1_1 (t : Fin cfg1.N) (A : Arr2 1 128) (q : Fin 128) :
    ((cfg1.win 1).blk t).view.read (Elt Ideal) A (ix2 0 q) = A (ix2 0 q) := by
  obtain ⟨-, -, -, -, e0, e1, -⟩ := idx_facts1 t
  rw [View.read_apply]
  show A _ = A _
  refine congrArg A (funext fun a => Fin.ext ?_)
  match a with
  | ⟨0, _⟩ => show win1_1.index t (0 : Fin 2) * 1 + 1 * 0 = 0; rw [e0]
  | ⟨1, _⟩ => show win1_1.index t (1 : Fin 2) * 128 + 1 * q.val = q.val; rw [e1]; omega

theorem read_row1_2 (t : Fin cfg1.N) (A : Arr2 1 128) (q : Fin 128) :
    ((cfg1.win 2).blk t).view.read (Elt Ideal) A (ix2 0 q) = A (ix2 0 q) := by
  obtain ⟨-, -, -, -, -, -, e0, e1, -⟩ := idx_facts1 t
  rw [View.read_apply]
  show A _ = A _
  refine congrArg A (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

theorem read_row1_3 (t : Fin cfg1.N) (A : Arr2 1 128) (q : Fin 128) :
    ((cfg1.win 3).blk t).view.read (Elt Ideal) A (ix2 0 q) = A (ix2 0 q) := by
  obtain ⟨-, -, -, -, -, -, -, -, e0, e1, -⟩ := idx_facts1 t
  rw [View.read_apply]
  show A _ = A _
  refine congrArg A (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

theorem read_row1_4 (t : Fin cfg1.N) (A : Arr2 1 128) (q : Fin 128) :
    ((cfg1.win 4).blk t).view.read (Elt Ideal) A (ix2 0 q) = A (ix2 0 q) := by
  obtain ⟨-, -, -, -, -, -, -, -, -, -, e0, e1⟩ := idx_facts1 t
  rw [View.read_apply]
  show A _ = A _
  refine congrArg A (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

/-- A tile X whose row p is row 10000 t + p of a table G is what the output window's block at point t reads of G. -/
theorem tile_is_block1 (t : Fin cfg1.N) (X : Vec Ideal S10000x128 .f32) (G : Arr2 100000 128)
    (h : ∀ (p : Fin 10000) (q : Fin 128),
      X (ix2 p q) = G (ix2 ⟨t.val * 10000 + p.val, by have := t.isLt; have := gridN1; have := p.isLt; omega⟩ q)) :
    (cfg1.win 5).cut (grid1.coords t) X = ((cfg1.win 5).blk t).view.read (Elt Ideal) G := by
  obtain ⟨-, -, e0, e1, -⟩ := idx_facts1 t
  funext j
  have hj0 : (j 0).val < 10000 := (j 0).isLt
  have hj1 : (j 1).val < 128 := (j 1).isLt
  rw [View.read_apply]
  show X _ = G _
  have eX : (cfg1.win 5).xinj (grid1.coords t) j = ix2 (⟨(j 0).val, hj0⟩ : Fin 10000) (⟨(j 1).val, hj1⟩ : Fin 128) := by
    funext a; apply Fin.ext
    match a with
    | ⟨0, _⟩ => rfl
    | ⟨1, _⟩ => rfl
  have eG : ((cfg1.win 5).blk t).view.emb j
      = ix2 (⟨t.val * 10000 + (j 0).val, by have := t.isLt; have := gridN1; omega⟩ : Fin 100000) (⟨(j 1).val, hj1⟩ : Fin 128) := by
    funext a; apply Fin.ext
    match a with
    | ⟨0, _⟩ => show win1_5.index t (0 : Fin 2) * 10000 + 1 * (j 0).val = t.val * 10000 + (j 0).val; rw [e0]; omega
    | ⟨1, _⟩ => show win1_5.index t (1 : Fin 2) * 128 + 1 * (j 1).val = (j 1).val; rw [e1]; omega
  rw [eX, eG]
  exact h _ _

/-! ## What each point writes back, and the whole table -/

theorem zero_offsets1 : (![0, 0] : Fin 2 → Nat) = fun _ => 0 := funext fun a => by fin_cases a <;> rfl

/-- Point t writes back the arithmetic of its five input blocks. -/
theorem flushed1_pay (c : Dev nD) (t : Fin cfg1.N) :
    (dat1 (F := Ideal) V c).flushed 5 t
      = (cfg1.win 5).cut (grid1.coords t)
          (k1_pay1 (iblk1 V c 0 t) (iblk1 V c 2 t) (iblk1 V c 1 t) (iblk1 V c 3 t) (iblk1 V c 4 t)) := by
  show (cfg1.win 5).cut (grid1.coords t) ((dat1 V c).after 5 t) = _
  rw [after1_5]
  unfold out1_5
  rw [View.canon_unit_zero zero_offsets1]
  simp only [View.ld_unit_zero (S := S10000x128) zero_offsets1, View.ld_unit_zero (S := S1x128) zero_offsets1]

/-- So point t writes back block t of the whole-table function of the five input tables. -/
theorem flushed1_eq (c : Dev nD) (t : Fin cfg1.N) :
    (dat1 (F := Ideal) V c).flushed 5 t
      = ((cfg1.win 5).blk t).view.read (Elt Ideal)
          (bnReluK (V c (Pipeline.arrRef spec1 0)) (V c (Pipeline.arrRef spec1 1)) (V c (Pipeline.arrRef spec1 2))
            (V c (Pipeline.arrRef spec1 3)) (V c (Pipeline.arrRef spec1 4))) := by
  rw [flushed1_pay]
  refine tile_is_block1 t _ _ fun p q => ?_
  exact tile1_eq t.val (by have := t.isLt; have := gridN1; omega)
    (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t)
    (fun p q => read_tile1_0 t (V c (Pipeline.arrRef spec1 0)) p q)
    (fun q => read_row1_1 t (V c (Pipeline.arrRef spec1 1)) q)
    (fun q => read_row1_2 t (V c (Pipeline.arrRef spec1 2)) q)
    (fun q => read_row1_3 t (V c (Pipeline.arrRef spec1 3)) q)
    (fun q => read_row1_4 t (V c (Pipeline.arrRef spec1 4)) q) p q

/-- An entry of the table lies in point t's block iff its row is one of rows 10000 t … 10000 t + 9999. -/
theorem mem_blk1 (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v34).slice (win1_5.rect t)).set ↔ _
  rw [View.set_slice_whole, Rect.mem_set_unit]
  exact Iff.rfl

/-- Every entry lies in some point's block: row r in that of point r / 10000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 10000 < cfg1.N := by rw [gridN1]; omega
  obtain ⟨-, -, e0, e1, -⟩ := idx_facts1 ⟨(i 0).val / 10000, ht⟩
  refine ⟨⟨(i 0).val / 10000, ht⟩, flush1_5 _, ?_⟩
  rw [mem_blk1]
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, ht⟩ (1 : Fin 2) * 128 ≤ (i 1).val
      ∧ (i 1).val < win1_5.index ⟨(i 0).val / 10000, ht⟩ (1 : Fin 2) * 128 + 128
    rw [e1]; omega

/-- After the region the output table is the normalise-and-clip function of the five input tables, at every entry. -/
theorem bn1 (c : Dev nD) :
    (dat1 (F := Ideal) V c).arrAt 5 cfg1.N
      = bnReluK (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => flushed1_eq V c t) cover1

end Cert.Sage.Region

end
-- ==== Proof.RegionBn3.lean ====
/-
  The normalise-and-clip region, read as one function of whole arrays.

  The region walks the 100000 rows of L in 10 tiles of 10000 rows.  At tile t it holds rows 10000 t … 10000 t + 9999 of
  L and the four parameter rows μ, v, γ, β whole, and leaves in the output tile, entry by entry,
      max (((x - μ) · rsqrt (v + ε)) · γ + β) 0,
  a row [1, 128] standing for all 10000 rows of the tile.  Entry (p, q) of tile t is entry (10000 t + p, q) of the
  table, the tiles cover every row (row r lies in tile r / 10000), so the output table ends as that function of the
  five input tables at every entry.
-/
import proofs.«156231_j12695923327564_2_alg».proof.Proof.Gen.KernelIdeal.Frame
import proofs.«156231_j12695923327564_2_alg».proof.Proof.Spec
import Idealize.ShloMosaic.Lib.Pipeline.Value
import Idealize.ShloMosaic.Lib.ValueLayout
import Idealize.ShloMosaic.PureOps.Ideal.Laws

noncomputable section

namespace Cert.Sage.Region

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## One tile's arithmetic, entry by entry -/

/-- The tile's arithmetic at entry (p, q): the four rows are read at column q, whatever the row p. -/
theorem pay3_apply (x0 : Vec Ideal S10000x128 .f32) (v μ γ β : Vec Ideal S1x128 .f32) (p : Fin 10000) (q : Fin 128) :
    k3_pay1 (F := Ideal) x0 v μ γ β (ix2 p q)
      = max ((((x0 (ix2 p q) - μ (ix2 0 q)) * Ideal.rsqrt (v (ix2 0 q) + eps)) * γ (ix2 0 q)) + β (ix2 0 q)) 0 := by
  unfold k3_pay1
  simp only [shapeCast_self]
  rw [maximumf_apply, addf_apply, mulf_apply, mulf_apply, subf_apply,
    broadcastTo_1b_ab_apply, broadcastTo_1b_ab_apply, broadcastTo_1b_ab_apply, broadcastTo_1b_ab_apply]
  rw [← Ideal.ofBits_zero_f32]
  rfl

/-- A tile that holds rows 10000 k … of L, beside the four rows, computes rows 10000 k … of the whole-table function. -/
theorem tile3_eq (k : ℕ) (hk : k < 10) (L : Arr2 100000 128) (μ v γ β : Arr2 1 128)
    (x0 : Vec Ideal S10000x128 .f32) (x1 x2 x3 x4 : Vec Ideal S1x128 .f32)
    (h0 : ∀ (p : Fin 10000) (q : Fin 128), x0 (ix2 p q) = L (ix2 ⟨k * 10000 + p.val, by have := p.isLt; omega⟩ q))
    (h1 : ∀ q : Fin 128, x1 (ix2 0 q) = μ (ix2 0 q)) (h2 : ∀ q : Fin 128, x2 (ix2 0 q) = v (ix2 0 q))
    (h3 : ∀ q : Fin 128, x3 (ix2 0 q) = γ (ix2 0 q)) (h4 : ∀ q : Fin 128, x4 (ix2 0 q) = β (ix2 0 q))
    (p : Fin 10000) (q : Fin 128) :
    k3_pay1 (F := Ideal) x0 x2 x1 x3 x4 (ix2 p q)
      = bnReluK L μ v γ β (ix2 ⟨k * 10000 + p.val, by have := p.isLt; omega⟩ q) := by
  rw [pay3_apply, h0, h1, h2, h3, h4]
  rfl

/-! ## Where a tile's entries sit in the tables -/

theorem gridN3 : cfg3.N = 10 := N_3

/-- The index maps over the grid: the two tiled windows sit at block (t, 0), the four rows at block (0, 0). -/
theorem idx_facts3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Tile t of the input table: its row p is the table's row 10000 t + p. -/
theorem read_tile3_0 (t : Fin cfg3.N) (A : Arr2 100000 128) (p : Fin 10000) (q : Fin 128) :
    ((cfg3.win 0).blk t).view.read (Elt Ideal) A (ix2 p q)
      = A (ix2 ⟨t.val * 10000 + p.val, by have := t.isLt; have := gridN3; have := p.isLt; omega⟩ q) := by
  obtain ⟨e0, e1, -⟩ := idx_facts3 t
  rw [View.read_apply]
  show A _ = A _
  refine congrArg A (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 128 + 1 * q.val = q.val; rw [e1]; omega

/-- Each parameter row is read whole at every tile. -/
theorem read_row3_1 (t : Fin cfg3.N) (A : Arr2 1 128) (q : Fin 128) :
    ((cfg3.win 1).blk t).view.read (Elt Ideal) A (ix2 0 q) = A (ix2 0 q) := by
  obtain ⟨-, -, -, -, e0, e1, -⟩ := idx_facts3 t
  rw [View.read_apply]
  show A _ = A _
  refine congrArg A (funext fun a => Fin.ext ?_)
  match a with
  | ⟨0, _⟩ => show win3_1.index t (0 : Fin 2) * 1 + 1 * 0 = 0; rw [e0]
  | ⟨1, _⟩ => show win3_1.index t (1 : Fin 2) * 128 + 1 * q.val = q.val; rw [e1]; omega

theorem read_row3_2 (t : Fin cfg3.N) (A : Arr2 1 128) (q : Fin 128) :
    ((cfg3.win 2).blk t).view.read (Elt Ideal) A (ix2 0 q) = A (ix2 0 q) := by
  obtain ⟨-, -, -, -, -, -, e0, e1, -⟩ := idx_facts3 t
  rw [View.read_apply]
  show A _ = A _
  refine congrArg A (funext fun a => Fin.ext ?_)
  match a with
  | ⟨0, _⟩ => show win3_2.index t (0 : Fin 2) * 1 + 1 * 0 = 0; rw [e0]
  | ⟨1, _⟩ => show win3_2.index t (1 : Fin 2) * 128 + 1 * q.val = q.val; rw [e1]; omega

theorem read_row3_3 (t : Fin cfg3.N) (A : Arr2 1 128) (q : Fin 128) :
    ((cfg3.win 3).blk t).view.read (Elt Ideal) A (ix2 0 q) = A (ix2 0 q) := by
  obtain ⟨-, -, -, -, -, -, -, -, e0, e1, -⟩ := idx_facts3 t
  rw [View.read_apply]
  show A _ = A _
  refine congrArg A (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega

theorem read_row3_4 (t : Fin cfg3.N) (A : Arr2 1 128) (q : Fin 128) :
    ((cfg3.win 4).blk t).view.read (Elt Ideal) A (ix2 0 q) = A (ix2 0 q) := by
  obtain ⟨-, -, -, -, -, -, -, -, -, -, e0, e1⟩ := idx_facts3 t
  rw [View.read_apply]
  show A _ = A _
  refine congrArg A (funext fun a => Fin.ext ?_)
  match a with
  | ⟨0, _⟩ => show win3_4.index t (0 : Fin 2) * 1 + 1 * 0 = 0; rw [e0]
  | ⟨1, _⟩ => show win3_4.index t (1 : Fin 2) * 128 + 1 * q.val = q.val; rw [e1]; omega

/-- A tile X whose row p is row 10000 t + p of a table G is what the output window's block at point t reads of G. -/
theorem tile_is_block3 (t : Fin cfg3.N) (X : Vec Ideal S10000x128 .f32) (G : Arr2 100000 128)
    (h : ∀ (p : Fin 10000) (q : Fin 128),
      X (ix2 p q) = G (ix2 ⟨t.val * 10000 + p.val, by have := t.isLt; have := gridN3; have := p.isLt; omega⟩ q)) :
    (cfg3.win 5).cut (grid3.coords t) X = ((cfg3.win 5).blk t).view.read (Elt Ideal) G := by
  obtain ⟨-, -, e0, e1, -⟩ := idx_facts3 t
  funext j
  have hj0 : (j 0).val < 10000 := (j 0).isLt
  have hj1 : (j 1).val < 128 := (j 1).isLt
  rw [View.read_apply]
  show X _ = G _
  have eX : (cfg3.win 5).xinj (grid3.coords t) j = ix2 (⟨(j 0).val, hj0⟩ : Fin 10000) (⟨(j 1).val, hj1⟩ : Fin 128) := by
    funext a; apply Fin.ext
    match a with
    | ⟨0, _⟩ => rfl
    | ⟨1, _⟩ => rfl
  have eG : ((cfg3.win 5).blk t).view.emb j
      = ix2 (⟨t.val * 10000 + (j 0).val, by have := t.isLt; have := gridN3; omega⟩ : Fin 100000) (⟨(j 1).val, hj1⟩ : Fin 128) := by
    funext a; apply Fin.ext
    match a with
    | ⟨0, _⟩ => show win3_5.index t (0 : Fin 2) * 10000 + 1 * (j 0).val = t.val * 10000 + (j 0).val; rw [e0]; omega
    | ⟨1, _⟩ => show win3_5.index t (1 : Fin 2) * 128 + 1 * (j 1).val = (j 1).val; rw [e1]; omega
  rw [eX, eG]
  exact h _ _

/-! ## What each point writes back, and the whole table -/

theorem zero_offsets3 : (![0, 0] : Fin 2 → Nat) = fun _ => 0 := funext fun a => by fin_cases a <;> rfl

/-- Point t writes back the arithmetic of its five input blocks. -/
theorem flushed3_pay (c : Dev nD) (t : Fin cfg3.N) :
    (dat3 (F := Ideal) V c).flushed 5 t
      = (cfg3.win 5).cut (grid3.coords t)
          (k3_pay1 (iblk3 V c 0 t) (iblk3 V c 2 t) (iblk3 V c 1 t) (iblk3 V c 3 t) (iblk3 V c 4 t)) := by
  show (cfg3.win 5).cut (grid3.coords t) ((dat3 V c).after 5 t) = _
  rw [after3_5]
  unfold out3_5
  rw [View.canon_unit_zero zero_offsets3]
  simp only [View.ld_unit_zero (S := S10000x128) zero_offsets3, View.ld_unit_zero (S := S1x128) zero_offsets3]

/-- So point t writes back block t of the whole-table function of the five input tables. -/
theorem flushed3_eq (c : Dev nD) (t : Fin cfg3.N) :
    (dat3 (F := Ideal) V c).flushed 5 t
      = ((cfg3.win 5).blk t).view.read (Elt Ideal)
          (bnReluK (V c (Pipeline.arrRef spec3 0)) (V c (Pipeline.arrRef spec3 1)) (V c (Pipeline.arrRef spec3 2))
            (V c (Pipeline.arrRef spec3 3)) (V c (Pipeline.arrRef spec3 4))) := by
  rw [flushed3_pay]
  refine tile_is_block3 t _ _ fun p q => ?_
  exact tile3_eq t.val (by have := t.isLt; have := gridN3; omega)
    (V c (Pipeline.arrRef spec3 0)) (V c (Pipeline.arrRef spec3 1)) (V c (Pipeline.arrRef spec3 2))
    (V c (Pipeline.arrRef spec3 3)) (V c (Pipeline.arrRef spec3 4))
    (iblk3 V c 0 t) (iblk3 V c 1 t) (iblk3 V c 2 t) (iblk3 V c 3 t) (iblk3 V c 4 t)
    (fun p q => read_tile3_0 t (V c (Pipeline.arrRef spec3 0)) p q)
    (fun q => read_row3_1 t (V c (Pipeline.arrRef spec3 1)) q)
    (fun q => read_row3_2 t (V c (Pipeline.arrRef spec3 2)) q)
    (fun q => read_row3_3 t (V c (Pipeline.arrRef spec3 3)) q)
    (fun q => read_row3_4 t (V c (Pipeline.arrRef spec3 4)) q) p q

/-- An entry of the table lies in point t's block iff its row is one of rows 10000 t … 10000 t + 9999. -/
theorem mem_blk3 (t : Fin cfg3.N) (i : S100000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v60).slice (win3_5.rect t)).set ↔ _
  rw [View.set_slice_whole, Rect.mem_set_unit]
  exact Iff.rfl

/-- Every entry lies in some point's block: row r in that of point r / 10000. -/
theorem cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have ht : (i 0).val / 10000 < cfg3.N := by rw [gridN3]; omega
  obtain ⟨-, -, e0, e1, -⟩ := idx_facts3 ⟨(i 0).val / 10000, ht⟩
  refine ⟨⟨(i 0).val / 10000, ht⟩, flush3_5 _, ?_⟩
  rw [mem_blk3]
  intro a
  match a with
  | ⟨0, _⟩ =>
    show win3_5.index ⟨(i 0).val / 10000, ht⟩ (0 : Fin 2) * 10000 ≤ (i 0).val
      ∧ (i 0).val < win3_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win3_5.index ⟨(i 0).val / 10000, ht⟩ (1 : Fin 2) * 128 ≤ (i 1).val
      ∧ (i 1).val < win3_5.index ⟨(i 0).val / 10000, ht⟩ (1 : Fin 2) * 128 + 128
    rw [e1]; omega

/-- After the region the output table is the normalise-and-clip function of the five input tables, at every entry. -/
theorem bn3 (c : Dev nD) :
    (dat3 (F := Ideal) V c).arrAt 5 cfg3.N
      = bnReluK (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => flushed3_eq V c t) cover3

end Cert.Sage.Region

end
-- ==== Proof.KernelValue.lean ====
/-
  The idealized kernel's result as one function of its arguments.

  The walk through the program's ten segments, with every buffer that matters named at every boundary: the column of
  reciprocal degrees and the first aggregate after the first stretch; the first linear part and its per-tile sums and
  sums of squares after the first region; the mean, variance, scale and shift rows after the second stretch; the first
  hidden layer after the second region; and the same again for the second layer; then the third aggregate and the bias
  row, and the last region's linear part plus bias.  Each region's arrays come from the region's own value lemma at the
  contents it is entered with, each stretch's results from the stretch read over those contents, and a buffer that is
  only carried along from the lemma that says nothing wrote it.  The result is the network of Spec.lean written the
  tiled way, over this launch's aggregation map and reciprocal degrees.
-/
import proofs.«156231_j12695923327564_2_alg».proof.Proof.Gen.KernelIdeal.Frame
import proofs.«156231_j12695923327564_2_alg».proof.Proof.Spec
import proofs.«156231_j12695923327564_2_alg».proof.Proof.Agg
import Idealize.ShloMosaic.Lib.StableHlo.Run
import proofs.«156231_j12695923327564_2_alg».proof.Proof.KernelRun
import proofs.«156231_j12695923327564_2_alg».proof.Proof.KernelStretch
import proofs.«156231_j12695923327564_2_alg».proof.Proof.KernelCarry
import proofs.«156231_j12695923327564_2_alg».proof.Proof.RegionLin0
import proofs.«156231_j12695923327564_2_alg».proof.Proof.RegionLin2
import proofs.«156231_j12695923327564_2_alg».proof.Proof.RegionOut4
import proofs.«156231_j12695923327564_2_alg».proof.Proof.RegionStats0
import proofs.«156231_j12695923327564_2_alg».proof.Proof.RegionStats2
import proofs.«156231_j12695923327564_2_alg».proof.Proof.RegionBn1
import proofs.«156231_j12695923327564_2_alg».proof.Proof.RegionBn3

set_option maxRecDepth 16384

noncomputable section

namespace Cert.KernelIdeal.Named

open Cert.KernelIdeal Cert.KernelIdeal.Gen Cert.Sage
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- This program's aggregation map, over the launch's two edge arrays. -/
def kA (h : Arr2 100000 128) : Arr2 100000 128 :=
  aggOf gather_S100000x128_S800000x1_S800000x128_1_0_n_n_0_1_1128 scatter_S100000x128_S800000x1_S800000x128_1_0_0_1
    bcast_S_S800000 bcast_S800000_S800000x1_0 bcast_S_S100000x128
    (m ((c : Thread nD τ).loc main_arg1)) (m ((c : Thread nD τ).loc main_arg2)) h

/-- This program's column of reciprocal degrees. -/
def kδ : Arr2 100000 1 :=
  dinvOf scatter_S100000_S800000x1_S800000_n_0_0_1 bcast_S_S800000 bcast_S800000_S800000x1_0 bcast_S_S100000
    shapeCasts_S100000_S100000x1 (m ((c : Thread nD τ).loc main_arg2))

/-- The three layers' linear parts and the two hidden layers, as the program computes them. -/
def kL0 : Arr2 100000 128 := linK (m ((c : Thread nD τ).loc main_arg0)) (kA m c (m ((c : Thread nD τ).loc main_arg0))) (kδ m c) (m ((c : Thread nD τ).loc main_arg3)) (m ((c : Thread nD τ).loc main_arg4))
def kh1 : Arr2 100000 128 := layerK (kA m c) (kδ m c) (m ((c : Thread nD τ).loc main_arg0)) (m ((c : Thread nD τ).loc main_arg3)) (m ((c : Thread nD τ).loc main_arg4)) (m ((c : Thread nD τ).loc main_arg5)) (m ((c : Thread nD τ).loc main_arg6))
def kL1 : Arr2 100000 128 := linK (kh1 m c) (kA m c (kh1 m c)) (kδ m c) (m ((c : Thread nD τ).loc main_arg7)) (m ((c : Thread nD τ).loc main_arg8))
def kh2 : Arr2 100000 128 := layerK (kA m c) (kδ m c) (kh1 m c) (m ((c : Thread nD τ).loc main_arg7)) (m ((c : Thread nD τ).loc main_arg8)) (m ((c : Thread nD τ).loc main_arg9)) (m ((c : Thread nD τ).loc main_arg10))

/-! ## Entering the first region -/

theorem w1_agg : W1 m ρ c (Proc.devRef .tc main_v18) = kA m c (m ((c : Thread nD τ).loc main_arg0)) := ops0_agg (W0 m ρ c)
theorem w1_dinv : W1 m ρ c (Proc.devRef .tc main_v8) = kδ m c := ops0_dinv (W0 m ρ c)

theorem v1_lin : linK (V1 m ρ c (Pipeline.arrRef spec0 0)) (V1 m ρ c (Pipeline.arrRef spec0 1)) (V1 m ρ c (Pipeline.arrRef spec0 2))
    (V1 m ρ c (Pipeline.arrRef spec0 3)) (V1 m ρ c (Pipeline.arrRef spec0 4)) = kL0 m c := by
  show linK (W1 m ρ c (Proc.devRef .tc main_arg0)) (W1 m ρ c (Proc.devRef .tc main_v18)) (W1 m ρ c (Proc.devRef .tc main_v8)) (W1 m ρ c (Proc.devRef .tc main_arg3)) (W1 m ρ c (Proc.devRef .tc main_arg4)) = _
  rw [carry_main_arg0_0_1, w1_agg, w1_dinv, carry_main_arg3_0_1, carry_main_arg4_0_1]
  rfl

/-! ## Leaving the first region: the first linear part and its per-tile statistics -/

theorem w2_lin : W2 m ρ c (Proc.devRef .tc main_v19_0) = kL0 m c :=
  (W2_arr m ρ c 5).trans ((Cert.Sage.Region.lin0 (V1 m ρ) c).trans (v1_lin m ρ c))
theorem w2_sum : W2 m ρ c (Proc.devRef .tc main_v19_1) = tileSums (kL0 m c) :=
  (W2_arr m ρ c 6).trans ((Cert.Sage.Region.sum0 (V1 m ρ) c).trans (congrArg tileSums (v1_lin m ρ c)))
theorem w2_sumsq : W2 m ρ c (Proc.devRef .tc main_v19_2) = tileSums (sq (kL0 m c)) :=
  (W2_arr m ρ c 7).trans ((Cert.Sage.Region.sumsq0 (V1 m ρ) c).trans (congrArg (fun L => tileSums (sq L)) (v1_lin m ρ c)))

/-! ## Entering the second region: the first layer's mean, variance, scale and shift rows -/

theorem w3_mean : W3 m ρ c (Proc.devRef .tc main_v25) = meanK (tileSums (kL0 m c)) :=
  (ops1_mean (W2 m ρ c)).trans (congrArg meanK (w2_sum m ρ c))
theorem w3_var : W3 m ρ c (Proc.devRef .tc main_v31) = varK (tileSums (kL0 m c)) (tileSums (sq (kL0 m c))) :=
  (ops1_var (W2 m ρ c)).trans (by rw [w2_sum, w2_sumsq])
theorem w3_gamma : W3 m ρ c (Proc.devRef .tc main_v32) = rowOf (m ((c : Thread nD τ).loc main_arg5)) :=
  (ops1_gamma (W2 m ρ c)).trans (congrArg rowOf (carry_main_arg5_0_2 m ρ c))
theorem w3_beta : W3 m ρ c (Proc.devRef .tc main_v33) = rowOf (m ((c : Thread nD τ).loc main_arg6)) :=
  (ops1_beta (W2 m ρ c)).trans (congrArg rowOf (carry_main_arg6_0_2 m ρ c))
theorem w3_lin : W3 m ρ c (Proc.devRef .tc main_v19_0) = kL0 m c := (carry_main_v19_0_2_3 m ρ c).trans (w2_lin m ρ c)

/-! ## Leaving the second region: the first hidden layer -/

theorem w4_h : W4 m ρ c (Proc.devRef .tc main_v34) = kh1 m c := by
  refine (W4_arr m ρ c 5).trans ((Cert.Sage.Region.bn1 (V3 m ρ) c).trans ?_)
  show bnReluK (W3 m ρ c (Proc.devRef .tc main_v19_0)) (W3 m ρ c (Proc.devRef .tc main_v25)) (W3 m ρ c (Proc.devRef .tc main_v31)) (W3 m ρ c (Proc.devRef .tc main_v32)) (W3 m ρ c (Proc.devRef .tc main_v33)) = _
  rw [w3_lin, w3_mean, w3_var, w3_gamma, w3_beta]
  rfl

/-! ## Entering the third region -/

theorem w5_agg : W5 m ρ c (Proc.devRef .tc main_v44) = kA m c (kh1 m c) := by
  refine (ops2_agg (W4 m ρ c)).trans ?_
  rw [carry_main_arg1_0_4, carry_main_arg2_0_4, w4_h]
  rfl
theorem w5_h : W5 m ρ c (Proc.devRef .tc main_v34) = kh1 m c := (carry_main_v34_4_5 m ρ c).trans (w4_h m ρ c)
theorem w5_dinv : W5 m ρ c (Proc.devRef .tc main_v8) = kδ m c := (carry_main_v8_1_5 m ρ c).trans (w1_dinv m ρ c)

theorem v5_lin : linK (V5 m ρ c (Pipeline.arrRef spec2 0)) (V5 m ρ c (Pipeline.arrRef spec2 1)) (V5 m ρ c (Pipeline.arrRef spec2 2))
    (V5 m ρ c (Pipeline.arrRef spec2 3)) (V5 m ρ c (Pipeline.arrRef spec2 4)) = kL1 m c := by
  show linK (W5 m ρ c (Proc.devRef .tc main_v34)) (W5 m ρ c (Proc.devRef .tc main_v44)) (W5 m ρ c (Proc.devRef .tc main_v8)) (W5 m ρ c (Proc.devRef .tc main_arg7)) (W5 m ρ c (Proc.devRef .tc main_arg8)) = _
  rw [w5_h, w5_agg, w5_dinv, carry_main_arg7_0_5, carry_main_arg8_0_5]
  rfl

/-! ## Leaving the third region -/

theorem w6_lin : W6 m ρ c (Proc.devRef .tc main_v45_0) = kL1 m c :=
  (W6_arr m ρ c 5).trans ((Cert.Sage.Region.lin2 (V5 m ρ) c).trans (v5_lin m ρ c))
theorem w6_sum : W6 m ρ c (Proc.devRef .tc main_v45_1) = tileSums (kL1 m c) :=
  (W6_arr m ρ c 6).trans ((Cert.Sage.Region.sum2 (V5 m ρ) c).trans (congrArg tileSums (v5_lin m ρ c)))
theorem w6_sumsq : W6 m ρ c (Proc.devRef .tc main_v45_2) = tileSums (sq (kL1 m c)) :=
  (W6_arr m ρ c 7).trans ((Cert.Sage.Region.sumsq2 (V5 m ρ) c).trans (congrArg (fun L => tileSums (sq L)) (v5_lin m ρ c)))

/-! ## Entering the fourth region -/

theorem w7_mean : W7 m ρ c (Proc.devRef .tc main_v51) = meanK (tileSums (kL1 m c)) :=
  (ops3_mean (W6 m ρ c)).trans (congrArg meanK (w6_sum m ρ c))
theorem w7_var : W7 m ρ c (Proc.devRef .tc main_v57) = varK (tileSums (kL1 m c)) (tileSums (sq (kL1 m c))) :=
  (ops3_var (W6 m ρ c)).trans (by rw [w6_sum, w6_sumsq])
theorem w7_gamma : W7 m ρ c (Proc.devRef .tc main_v58) = rowOf (m ((c : Thread nD τ).loc main_arg9)) :=
  (ops3_gamma (W6 m ρ c)).trans (congrArg rowOf (carry_main_arg9_0_6 m ρ c))
theorem w7_beta : W7 m ρ c (Proc.devRef .tc main_v59) = rowOf (m ((c : Thread nD τ).loc main_arg10)) :=
  (ops3_beta (W6 m ρ c)).trans (congrArg rowOf (carry_main_arg10_0_6 m ρ c))
theorem w7_lin : W7 m ρ c (Proc.devRef .tc main_v45_0) = kL1 m c := (carry_main_v45_0_6_7 m ρ c).trans (w6_lin m ρ c)

/-! ## Leaving the fourth region: the second hidden layer -/

theorem w8_h : W8 m ρ c (Proc.devRef .tc main_v60) = kh2 m c := by
  refine (W8_arr m ρ c 5).trans ((Cert.Sage.Region.bn3 (V7 m ρ) c).trans ?_)
  show bnReluK (W7 m ρ c (Proc.devRef .tc main_v45_0)) (W7 m ρ c (Proc.devRef .tc main_v51)) (W7 m ρ c (Proc.devRef .tc main_v57)) (W7 m ρ c (Proc.devRef .tc main_v58)) (W7 m ρ c (Proc.devRef .tc main_v59)) = _
  rw [w7_lin, w7_mean, w7_var, w7_gamma, w7_beta]
  rfl

/-! ## Entering the fifth region -/

theorem w9_agg : W9 m ρ c (Proc.devRef .tc main_v70) = kA m c (kh2 m c) := by
  refine (ops4_agg (W8 m ρ c)).trans ?_
  rw [carry_main_arg1_4_8, carry_main_arg2_4_8, carry_main_arg1_0_4, carry_main_arg2_0_4, w8_h]
  rfl
theorem w9_bias : W9 m ρ c (Proc.devRef .tc main_v71) = rowOf (m ((c : Thread nD τ).loc main_arg13)) :=
  (ops4_bias (W8 m ρ c)).trans (congrArg rowOf (carry_main_arg13_0_8 m ρ c))
theorem w9_h : W9 m ρ c (Proc.devRef .tc main_v60) = kh2 m c := (carry_main_v60_8_9 m ρ c).trans (w8_h m ρ c)
theorem w9_dinv : W9 m ρ c (Proc.devRef .tc main_v8) = kδ m c := (carry_main_v8_5_9 m ρ c).trans (w5_dinv m ρ c)

/-! ## The result -/

/-- What the last region leaves in the result buffer is the network of Spec.lean, the tiled way. -/
theorem w10_out : W10 m ρ c (Proc.devRef .tc main_v72)
    = netK (kA m c) (kδ m c) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W10_arr m ρ c 6).trans ((Cert.Sage.Region.out4 (V9 m ρ) c).trans ?_)
  show addBiasK (linK (W9 m ρ c (Proc.devRef .tc main_v60)) (W9 m ρ c (Proc.devRef .tc main_v70)) (W9 m ρ c (Proc.devRef .tc main_v8)) (W9 m ρ c (Proc.devRef .tc main_arg11)) (W9 m ρ c (Proc.devRef .tc main_arg12))) (W9 m ρ c (Proc.devRef .tc main_v71)) = _
  rw [w9_h, w9_agg, w9_dinv, carry_main_arg11_0_9, carry_main_arg12_0_9, w9_bias]
  rfl

/-- The idealized kernel's run, with the result at the network's value. -/
theorem run_value : θ_run (defs (F := Ideal)) (onTc (τ := τ) (main (F := Ideal))) ⟨m, fun _ => 0, ρ⟩ (fun r => ∀ c : Dev nD,
      r.2.mem ((c.tc : Thread nD τ).loc main_v72)
        = netK (kA m c) (kδ m c) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun r h c => ⟨(h c).1.trans (w10_out m ρ c), (h c).2⟩) (run_named m ρ)

end Cert.KernelIdeal.Named

end
-- ==== Proof.Claims.lean ====
/-
  The five claims.

  The three frames are the two generated kernel frames and the reference's run with its result forgotten; the
  idealization rewrote nothing.  For the value claim, the kernel's run ends at the three-layer network written the
  tiled way and the reference's run at the same network written over whole columns; from memories that agree on the
  arguments, and finite float inputs, the two networks are equal entry by entry (Algebra*.lean), the aggregation map
  keeping real tables real and every degree being a real number at least 1 (AggFacts.lean).
-/
import proofs.«156231_j12695923327564_2_alg».proof.Defs
import proofs.«156231_j12695923327564_2_alg».proof.Proof.Gen.Kernel.Frame
import proofs.«156231_j12695923327564_2_alg».proof.Proof.Gen.KernelIdeal.Frame
import proofs.«156231_j12695923327564_2_alg».proof.Proof.Gen.ReferenceIdeal
import proofs.«156231_j12695923327564_2_alg».proof.Proof.Gen.Pre_finite_inputs
import proofs.«156231_j12695923327564_2_alg».proof.Proof.Spec
import proofs.«156231_j12695923327564_2_alg».proof.Proof.Agg
import proofs.«156231_j12695923327564_2_alg».proof.Proof.AggFacts
import proofs.«156231_j12695923327564_2_alg».proof.Proof.AlgebraNet
import proofs.«156231_j12695923327564_2_alg».proof.Proof.PreReal
import proofs.«156231_j12695923327564_2_alg».proof.Proof.RefTerm
import proofs.«156231_j12695923327564_2_alg».proof.Proof.RefRead
import proofs.«156231_j12695923327564_2_alg».proof.Proof.RefRun
import proofs.«156231_j12695923327564_2_alg».proof.Proof.KernelValue
import Idealize.ShloMosaic.Adequacy
import Idealize.ShloMosaic.Init

set_option maxRecDepth 16384

noncomputable section

namespace Cert.Proof.SageClaims

open Idealize.ShloMosaic Idealize.ShloMosaic.TcCoe Idealize.SL.Sem Cert.Sage

/-- The word-level kernel terminates, faults nowhere and leaves its arguments as launched. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run (Cert.ReferenceIdeal.defs (F := Ideal)) _ _).mono (fun _ h c => (h c).2) (Cert.Sage.Ref.run m ρ)

/-- The idealization rewrote no operation of the kernel. -/
theorem preserves : Cert.preserves_Kernel_KernelIdeal := trivial

/-- Both programs compute the same three-layer network.  The kernel's run ends at the network written the tiled
    way (per-tile sums, reciprocal degrees), the reference's at the network written over whole columns (deviations from
    the mean, division by the degree); on finite inputs the two are one function: the aggregate of a real table is
    real, every degree is a real number at least 1, so every linear part is a real table, and for a real column the
    mean of squares minus the squared mean is the mean of the squared deviations, which is not negative. -/
theorem algebraic : Cert.algebraic_KernelIdeal_ReferenceIdeal := by
  intro m ρ m' ρ' hpre hagree
  refine ⟨fun c => netK (Cert.KernelIdeal.Named.kA m c) (Cert.KernelIdeal.Named.kδ m c)
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.Named.run_value m ρ, ?_⟩
  refine (θ_run (Cert.ReferenceIdeal.defs (F := Ideal)) _ _).mono (fun r h c => ⟨(h c).1.trans ?_, (h c).2⟩)
    (Cert.Sage.Ref.run m' ρ')
  obtain ⟨e0, e1, e2, e3, e4, e5, e6, e7, e8, e9, e10, e11, e12, e13⟩ := hagree c
  obtain ⟨r0, r3, r4, r5, r6, r7, r8, r9, r10, r11, r12, r13⟩ := Cert.Sage.pre_real m hpre c
  rw [e0, e1, e2, e3, e4, e5, e6, e7, e8, e9, e10, e11, e12, e13, Cert.Sage.Ref.netT_eq]
  exact (net_eq (Cert.KernelIdeal.Named.kA m c)
    (fun h hh => aggOf_real _ _ ⟨rfl, rfl, rfl, rfl, rfl, rfl, rfl⟩ ⟨rfl, rfl, rfl, rfl⟩ _ _ _ _ _ h hh)
    _ (degOf_real Cert.KernelIdeal.scatter_S100000_S800000x1_S800000_n_0_0_1 ⟨rfl, rfl, rfl, rfl⟩
      Cert.KernelIdeal.Gen.bcast_S_S800000 Cert.KernelIdeal.Gen.bcast_S800000_S800000x1_0 Cert.KernelIdeal.Gen.bcast_S_S100000 (m ((c.tc : Thread Cert.KernelIdeal.nD Cert.KernelIdeal.τ).loc Cert.KernelIdeal.main_arg2)))
    (Cert.KernelIdeal.Named.kδ m c) (fun i => dinvOf_apply _ _ _ _ _ _ i)
    _ _ _ _ _ _ _ _ _ _ _ _ r0 r3 r4 r5 r6 r7 r8 r9 r10 r11 r12 r13).symm

end Cert.Proof.SageClaims

end
-- ==== Proof.lean ====
/-
  A three-layer graph network — neighbour-mean aggregation, a linear map of each node's own row and of its neighbours'
  mean, column normalisation with the statistics of all 100000 nodes, clipping at zero, and a last linear layer with a
  bias — computed by a tiled kernel program and by a plain reference, is one function of the inputs at the extended
  reals, for finite inputs.

  The kernel program does the aggregation on the host and the rest in five tiled regions; it multiplies by the
  reciprocal of the degree where the reference divides by the degree, and it takes each column's variance as the mean of
  squares minus the squared mean, clipped at zero, from per-tile partial sums, where the reference takes the mean of the
  squared deviations.  Proof/Spec.lean states both ways over whole arrays; Proof/Algebra*.lean proves them equal on real
  tables; Proof/Region*.lean, Proof/KernelStretch.lean, Proof/KernelCarry.lean and Proof/KernelValue.lean read the
  kernel program's run as the first way, Proof/RefRun.lean and Proof/RefRead.lean the reference's run as the second;
  Proof/Claims.lean puts the five claims together behind the witnesses of the programs' stated facts.
-/
import proofs.«156231_j12695923327564_2_alg».proof.Defs
import proofs.«156231_j12695923327564_2_alg».proof.Proof.Claims
import proofs.«156231_j12695923327564_2_alg».proof.Proof.Gen.Kernel
import proofs.«156231_j12695923327564_2_alg».proof.Proof.Gen.Kernel.Skeleton
import proofs.«156231_j12695923327564_2_alg».proof.Proof.Gen.Kernel.Launch
import proofs.«156231_j12695923327564_2_alg».proof.Proof.Gen.Kernel.Points
import proofs.«156231_j12695923327564_2_alg».proof.Proof.Gen.Kernel.Frame
import proofs.«156231_j12695923327564_2_alg».proof.Proof.Gen.KernelIdeal
import proofs.«156231_j12695923327564_2_alg».proof.Proof.Gen.KernelIdeal.Skeleton
import proofs.«156231_j12695923327564_2_alg».proof.Proof.Gen.KernelIdeal.Launch
import proofs.«156231_j12695923327564_2_alg».proof.Proof.Gen.KernelIdeal.Points
import proofs.«156231_j12695923327564_2_alg».proof.Proof.Gen.KernelIdeal.Frame
import proofs.«156231_j12695923327564_2_alg».proof.Proof.Gen.ReferenceIdeal
import proofs.«156231_j12695923327564_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, SageClaims.preserves, SageClaims.algebraic⟩

end Cert.Proof

end
